-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x128 : Shape := ⟨4, ![1, 256, 256, 128]⟩
abbrev S1x1x256x256 : Shape := ⟨4, ![1, 1, 256, 256]⟩
abbrev S128 : Shape := ⟨1, ![128]⟩
abbrev S4x128 : Shape := ⟨2, ![4, 128]⟩
abbrev S128x128 : Shape := ⟨2, ![128, 128]⟩
abbrev S_ : Shape := ⟨0, ![]⟩

class Facts : Prop where
  bcast_S_S1x256x256x128 : S_.BroadcastsInDim S1x256x256x128 (![] : Fin 0 → Fin S1x256x256x128.rank)
  reducesTo_S1x256x256x128_S_d0_1_2_3 : S1x256x256x128.ReducesTo [0, 1, 2, 3] S_
  h_S_ : 0 < S_.numel
  bcast_S_S1x1x256x256 : S_.BroadcastsInDim S1x1x256x256 (![] : Fin 0 → Fin S1x1x256x256.rank)
  reducesTo_S1x1x256x256_S_d0_1_2_3 : S1x1x256x256.ReducesTo [0, 1, 2, 3] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128x128 .f32) (main_arg9 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg4 : FVec F S4x128 .f32) (main_arg5 : FVec F S128x128 .f32) (main_arg6 : FVec F S128x128 .f32) (main_arg7 : FVec F S128x128 .f32) (main_arg8 : FVec F S128x128 .f32) (main_arg9 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x256x256x128 .f32) (main_arg1 : FVec F S1x1x256x256 .f32) (main_arg2 : FVec F S128 .f32) (main_arg3 : FVec F S128 .f32) (main_arg4 : FVec F S4x128 .f32) (main_arg5 : FVec F S128x128 .f32) (main_arg6 : FVec F S128x128 .f32) (main_arg7 : FVec F S128x128 .f32) (main_arg8 : FVec F S128x128 .f32) (main_arg9 : FVec F S128x128 .f32) : IVec S_ 1 :=
  let main_v0 : FVec F S1x256x256x128 .f32 := Host.absf main_arg0
  let main_cst : FVec F S_ .f32 := constant S_ .f32 0x7F800000#32
  let main_v1 : FVec F S1x256x256x128 .f32 := broadcastInDim S1x256x256x128 ![] bcast_S_S1x256x256x128 main_cst
  let main_v2 : IVec S1x256x256x128 1 := cmpf .olt main_v0 main_v1
  let main_c : IVec S_ 1 := constantI S_ 1 1#1
  let main_v3 : IVec S_ 1 := (fun x v => Host.reduce IntOp.andi x v reducesTo_S1x256x256x128_S_d0_1_2_3 h_S_) main_v2 main_c
  let main_v4 : FVec F S1x1x256x256 .f32 := Host.absf main_arg1
  let main_cst_0 : FVec F S_ .f32 := constant S_ .f32 0x7F800000#32
  let main_v5 : FVec F S1x1x256x256 .f32 := broadcastInDim S1x1x256x256 ![] bcast_S_S1x1x256x256 main_cst_0
  let main_v6 : IVec S1x1x256x256 1 := cmpf .olt main_v4 main_v5
  let main_c_1 : IVec S_ 1 := constantI S_ 1 1#1
  let main_v7 : IVec S_ 1 := (fun x v => Host.reduce IntOp.andi x v reducesTo_S1x1x256x256_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S1x256x256x128 : Shape := ⟨4, ![1, 256, 256, 128]⟩
abbrev S1x1x256x256 : Shape := ⟨4, ![1, 1, 256, 256]⟩
abbrev S128 : Shape := ⟨1, ![128]⟩
abbrev S4x128 : Shape := ⟨2, ![4, 128]⟩
abbrev S128x128 : Shape := ⟨2, ![128, 128]⟩
abbrev S256x256x128 : Shape := ⟨3, ![256, 256, 128]⟩
abbrev S256x256 : Shape := ⟨2, ![256, 256]⟩
abbrev S512x128 : Shape := ⟨2, ![512, 128]⟩
abbrev S4x256x256 : Shape := ⟨3, ![4, 256, 256]⟩
abbrev S32x256x128 : Shape := ⟨3, ![32, 256, 128]⟩
abbrev S32x256 : Shape := ⟨2, ![32, 256]⟩
abbrev S4x32x256 : Shape := ⟨3, ![4, 32, 256]⟩
abbrev S32x256x1 : Shape := ⟨3, ![32, 256, 1]⟩
abbrev S1x1x128 : Shape := ⟨3, ![1, 1, 128]⟩
abbrev S8192x128 : Shape := ⟨2, ![8192, 128]⟩
abbrev S4x8192 : Shape := ⟨2, ![4, 8192]⟩
abbrev S1x32x256 : Shape := ⟨3, ![1, 32, 256]⟩
abbrev S8x256x128 : Shape := ⟨3, ![8, 256, 128]⟩
abbrev S2048x128 : Shape := ⟨2, ![2048, 128]⟩
abbrev S2048x512 : Shape := ⟨2, ![2048, 512]⟩
abbrev S2048x32 : Shape := ⟨2, ![2048, 32]⟩
abbrev S8x256x32 : Shape := ⟨3, ![8, 256, 32]⟩
abbrev S8x256x256 : Shape := ⟨3, ![8, 256, 256]⟩
abbrev S1x256x256 : Shape := ⟨3, ![1, 256, 256]⟩
abbrev S8x256 : Shape := ⟨2, ![8, 256]⟩
abbrev S8x256x1 : Shape := ⟨3, ![8, 256, 1]⟩

abbrev nBuf : Space → Nat
  | .hbm => 17
  | .vmem => 18
  | .smem => 0
  | _ => 0

abbrev bufTy : (tb : Table) → Fin (tcTables nBuf tb) → BufTy
  | .hbm, ⟨0, _⟩ => ⟨S1x256x256x128, .f32⟩
  | .hbm, ⟨1, _⟩ => ⟨S1x1x256x256, .f32⟩
  | .hbm, ⟨2, _⟩ => ⟨S128, .f32⟩
  | .hbm, ⟨3, _⟩ => ⟨S128, .f32⟩
  | .hbm, ⟨4, _⟩ => ⟨S4x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S256x256x128, .f32⟩
  | .hbm, ⟨11, _⟩ => ⟨S256x256, .f32⟩
  | .hbm, ⟨12, _⟩ => ⟨S512x128, .f32⟩
  | .hbm, ⟨13, _⟩ => ⟨S256x256x128, .bf16⟩
  | .hbm, ⟨14, _⟩ => ⟨S4x256x256, .f32⟩
  | .hbm, ⟨15, _⟩ => ⟨S256x256x128, .f32⟩
  | .hbm, ⟨16, _⟩ => ⟨S1x256x256x128, .f32⟩
  | .local _ .vmem, ⟨0, _⟩ => ⟨S32x256x128, .f32⟩
  | .local _ .vmem, ⟨1, _⟩ => ⟨S32x256x128, .f32⟩
  | .local _ .vmem, ⟨2, _⟩ => ⟨S128, .f32⟩
  | .local _ .vmem, ⟨3, _⟩ => ⟨S128, .f32⟩
  | .local _ .vmem, ⟨4, _⟩ => ⟨S4x128, .f32⟩
  | .local _ .vmem, ⟨5, _⟩ => ⟨S32x256, .f32⟩
  | .local _ .vmem, ⟨6, _⟩ => ⟨S32x256, .f32⟩
  | .local _ .vmem, ⟨7, _⟩ => ⟨S32x256x128, .bf16⟩
  | .local _ .vmem, ⟨8, _⟩ => ⟨S32x256x128, .bf16⟩
  | .local _ .vmem, ⟨9, _⟩ => ⟨S4x32x256, .f32⟩
  | .local _ .vmem, ⟨10, _⟩ => ⟨S4x32x256, .f32⟩
  | .local _ .vmem, ⟨11, _⟩ => ⟨S8x256x128, .bf16⟩
  | .local _ .vmem, ⟨12, _⟩ => ⟨S8x256x128, .bf16⟩
  | .local _ .vmem, ⟨13, _⟩ => ⟨S4x256x256, .f32⟩
  | .local _ .vmem, ⟨14, _⟩ => ⟨S512x128, .f32⟩
  | .local _ .vmem, ⟨15, _⟩ => ⟨S128x128, .f32⟩
  | .local _ .vmem, ⟨16, _⟩ => ⟨S8x256x128, .f32⟩
  | .local _ .vmem, ⟨17, _⟩ => ⟨S8x256x128, .f32⟩
  | _, _ => ⟨S1x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x256x256x128_S256x256x128 : S1x256x256x128.ShapeCasts S256x256x128
  shapeCasts_S1x1x256x256_S256x256 : S1x1x256x256.ShapeCasts S256x256
  concatenates_S128x128_S128x128_S128x128_S128x128_S512x128_d0 : Shape.Concatenates [S128x128, S128x128, S128x128, S128x128] S512x128 0
  inb_S32x256x128_S32x256x128_0_0_0 : ∀ a, (![0, 0, 0] : Fin 3 → Nat) a + S32x256x128.size a ≤ S32x256x128.size a
  h_S32x256x128 : 0 < S32x256x128.numel
  shapeCasts_S32x256x128_S32x256x128 : S32x256x128.ShapeCasts S32x256x128
  reduces_S32x256x128_S32x256 : S32x256x128.Reduces [2] S32x256
  shapeCasts_S32x256_S32x256x1 : S32x256.ShapeCasts S32x256x1
  broadcasts_S32x256x1_S32x256x128 : S32x256x1.Broadcasts S32x256x128
  inb_S128_S128_0 : ∀ a, (![0] : Fin 1 → Nat) a + S128.size a ≤ S128.size a
  h_S128 : 0 < S128.numel
  shapeCasts_S128_S1x1x128 : S128.ShapeCasts S1x1x128
  broadcasts_S1x1x128_S32x256x128 : S1x1x128.Broadcasts S32x256x128
  bitsLt_bf16_f32 : FTy.bits .bf16 < FTy.bits .f32
  packedbf16_S32x256x128_S32x256x128_0_0_0 : (Rect.unit (s := S32x256x128) ![0, 0, 0] S32x256x128.size inb_S32x256x128_S32x256x128_0_0_0).PackedRows (EltTy.packing .bf16)
  shapeCasts_S32x256x128_S8192x128 : S32x256x128.ShapeCasts S8192x128
  inb_S4x128_S4x128_0_0 : ∀ a, (![0, 0] : Fin 2 → Nat) a + S4x128.size a ≤ S4x128.size a
  h_S4x128 : 0 < S4x128.numel
  shapeCasts_S4x8192_S4x32x256 : S4x8192.ShapeCasts S4x32x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  shapeCasts_S32x256_S1x32x256 : S32x256.ShapeCasts S1x32x256
  broadcasts_S1x32x256_S4x32x256 : S1x32x256.Broadcasts S4x32x256
  inb_S4x32x256_S4x32x256_0_0_0 : ∀ a, (![0, 0, 0] : Fin 3 → Nat) a + S4x32x256.size a ≤ S4x32x256.size a
  h_S4x32x256 : 0 < S4x32x256.numel
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  shapeCasts_S8x256x128_S2048x128 : S8x256x128.ShapeCasts S2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  slices_S2048x512_o0_384_S2048x128 : S2048x512.Slices ![0, 384] S2048x128
  shapeCasts_S2048x128_S8x256x128 : S2048x128.ShapeCasts S8x256x128
  slices_S2048x512_o0_0_S2048x32 : S2048x512.Slices ![0, 0] S2048x32
  slices_S2048x512_o0_128_S2048x32 : S2048x512.Slices ![0, 128] S2048x32
  slices_S2048x512_o0_256_S2048x32 : S2048x512.Slices ![0, 256] S2048x32
  shapeCasts_S2048x32_S8x256x32 : S2048x32.ShapeCasts S8x256x32
  slices_S4x256x256_o0_0_0_S1x256x256 : S4x256x256.Slices ![0, 0, 0] S1x256x256
  shapeCasts_S1x256x256_S256x256 : S1x256x256.ShapeCasts S256x256
  shapeCasts_S256x256_S1x256x256 : S256x256.ShapeCasts S1x256x256
  broadcasts_S1x256x256_S8x256x256 : S1x256x256.Broadcasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  broadcasts_S8x256x1_S8x256x32 : S8x256x1.Broadcasts S8x256x32
  slices_S2048x512_o0_32_S2048x32 : S2048x512.Slices ![0, 32] S2048x32
  slices_S2048x512_o0_160_S2048x32 : S2048x512.Slices ![0, 160] S2048x32
  slices_S2048x512_o0_288_S2048x32 : S2048x512.Slices ![0, 288] S2048x32
  slices_S4x256x256_o1_0_0_S1x256x256 : S4x256x256.Slices ![1, 0, 0] S1x256x256
  slices_S2048x512_o0_64_S2048x32 : S2048x512.Slices ![0, 64] S2048x32
  slices_S2048x512_o0_192_S2048x32 : S2048x512.Slices ![0, 192] S2048x32
  slices_S2048x512_o0_320_S2048x32 : S2048x512.Slices ![0, 320] S2048x32
  slices_S4x256x256_o2_0_0_S1x256x256 : S4x256x256.Slices ![2, 0, 0] S1x256x256
  slices_S2048x512_o0_96_S2048x32 : S2048x512.Slices ![0, 96] S2048x32
  slices_S2048x512_o0_224_S2048x32 : S2048x512.Slices ![0, 224] S2048x32
  slices_S2048x512_o0_352_S2048x32 : S2048x512.Slices ![0, 352] S2048x32
  slices_S4x256x256_o3_0_0_S1x256x256 : S4x256x256.Slices ![3, 0, 0] S1x256x256
  concatenates_S8x256x32_S8x256x32_S8x256x32_S8x256x32_S8x256x128_d2 : Shape.Concatenates [S8x256x32, S8x256x32, S8x256x32, S8x256x32] S8x256x128 2
  bcast_S256x256x128_S1x256x256x128_1_2_3 : S256x256x128.BroadcastsInDim S1x256x256x128 (![1, 2, 3] : Fin 3 → Fin S1x256x256x128.rank)
  dot_S4x128_S8192x128_S4x8192_1_1_0_0_n_n_wf : DotDims.WF S4x128 S8192x128 S4x8192 [1] [1] [0] [0] [] []
  dot_S2048x128_S512x128_S2048x512_1_1_0_0_n_n_wf : DotDims.WF S2048x128 S512x128 S2048x512 [1] [1] [0] [0] [] []
  dot_S8x256x32_S8x256x32_S8x256x256_2_2_1_1_0_0_wf : DotDims.WF S8x256x32 S8x256x32 S8x256x256 [2] [2] [1] [1] [0] [0]
  dot_S8x256x256_S8x256x32_S8x256x32_2_1_1_2_0_0_wf : DotDims.WF S8x256x256 S8x256x32 S8x256x32 [2] [1] [1] [2] [0] [0]
  dot_S2048x128_S128x128_S2048x128_1_1_0_0_n_n_wf : DotDims.WF S2048x128 S128x128 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x128.size a ≤ S256x256x128.size a
  hwx0_0 : ∀ i : grid0.Coords, EltTy.bits .f32 = 32 ∨ (Rect.block (s := S256x256x128) S32x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S256x256.size a
  hwx0_4 : ∀ i : grid0.Coords, EltTy.bits .f32 = 32 ∨ (Rect.block (s := S256x256) S32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256x128.size a ≤ S256x256x128.size a
  hwx0_5 : ∀ i : grid0.Coords, EltTy.bits .bf16 = 32 ∨ (Rect.block (s := S256x256x128) S32x256x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x32x256.size a ≤ S4x256x256.size a
  hwx0_6 : ∀ i : grid0.Coords, EltTy.bits .f32 = 32 ∨ (Rect.block (s := S4x256x256) S4x32x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x128.size a ≤ S256x256x128.size a
  hwx1_0 : ∀ i : grid1.Coords, EltTy.bits .bf16 = 32 ∨ (Rect.block (s := S256x256x128) S8x256x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x256x256.size a ≤ S4x256x256.size a
  hwx1_1 : ∀ i : grid1.Coords, EltTy.bits .f32 = 32 ∨ (Rect.block (s := S4x256x256) S4x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256x128.size a ≤ S256x256x128.size a
  hwx1_4 : ∀ i : grid1.Coords, EltTy.bits .f32 = 32 ∨ (Rect.block (s := S256x256x128) S8x256x128.size (cc1_transform_4 i) (hinb1_4 i)).WholeWords (EltTy.packing .f32)

variable [Facts₀]

def dot_S4x128_S8192x128_S4x8192_1_1_0_0_n_n : DotDims S4x128 S8192x128 S4x8192 where
  lhsContracting := [1]
  rhsContracting := [1]
  lhsNonContracting := [0]
  rhsNonContracting := [0]
  lhsBatch := []
  rhsBatch := []
  wf := dot_S4x128_S8192x128_S4x8192_1_1_0_0_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S8x256x32_S8x256x32_S8x256x256_2_2_1_1_0_0 : DotDims S8x256x32 S8x256x32 S8x256x256 where
  lhsContracting := [2]
  rhsContracting := [2]
  lhsNonContracting := [1]
  rhsNonContracting := [1]
  lhsBatch := [0]
  rhsBatch := [0]
  wf := dot_S8x256x32_S8x256x32_S8x256x256_2_2_1_1_0_0_wf
def dot_S8x256x256_S8x256x32_S8x256x32_2_1_1_2_0_0 : DotDims S8x256x256 S8x256x32 S8x256x32 where
  lhsContracting := [2]
  rhsContracting := [1]
  lhsNonContracting := [1]
  rhsNonContracting := [2]
  lhsBatch := [0]
  rhsBatch := [0]
  wf := dot_S8x256x256_S8x256x32_S8x256x32_2_1_1_2_0_0_wf
def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf

abbrev win0_0 : Pipeline.Window sig grid0 :=
  Pipeline.Window.ofSpec (Memref.whole main_v0) S32x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S32x256x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S4x32x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S8x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S4x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S8x256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x256x256x128 : Shape := ⟨4, ![1, 256, 256, 128]⟩
abbrev S1x1x256x256 : Shape := ⟨4, ![1, 1, 256, 256]⟩
abbrev S128 : Shape := ⟨1, ![128]⟩
abbrev S4x128 : Shape := ⟨2, ![4, 128]⟩
abbrev S128x128 : Shape := ⟨2, ![128, 128]⟩
abbrev S256x256x128 : Shape := ⟨3, ![256, 256, 128]⟩
abbrev S_ : Shape := ⟨0, ![]⟩
abbrev S256x256 : Shape := ⟨2, ![256, 256]⟩
abbrev S256x256x1 : Shape := ⟨3, ![256, 256, 1]⟩
abbrev S1x1x128 : Shape := ⟨3, ![1, 1, 128]⟩
abbrev S4x256x256 : Shape := ⟨3, ![4, 256, 256]⟩
abbrev S1x4x256x256 : Shape := ⟨4, ![1, 4, 256, 256]⟩
abbrev S256x256x4x32 : Shape := ⟨4, ![256, 256, 4, 32]⟩
abbrev S256x4x256x32 : Shape := ⟨4, ![256, 4, 256, 32]⟩
abbrev S256x4x256x256 : Shape := ⟨4, ![256, 4, 256, 256]⟩
abbrev S256x4x256 : Shape := ⟨3, ![256, 4, 256]⟩
abbrev S256x4x256x1 : Shape := ⟨4, ![256, 4, 256, 1]⟩

abbrev nBuf : Space → Nat
  | .hbm => 88
  | .vmem => 0
  | .smem => 0
  | _ => 0

abbrev bufTy : (tb : Table) → Fin (tcTables nBuf tb) → BufTy
  | .hbm, ⟨0, _⟩ => ⟨S1x256x256x128, .f32⟩
  | .hbm, ⟨1, _⟩ => ⟨S1x1x256x256, .f32⟩
  | .hbm, ⟨2, _⟩ => ⟨S128, .f32⟩
  | .hbm, ⟨3, _⟩ => ⟨S128, .f32⟩
  | .hbm, ⟨4, _⟩ => ⟨S4x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S256x256x128, .f32⟩
  | .hbm, ⟨11, _⟩ => ⟨S_, .f32⟩
  | .hbm, ⟨12, _⟩ => ⟨S256x256, .f32⟩
  | .hbm, ⟨13, _⟩ => ⟨S256x256x1, .f32⟩
  | .hbm, ⟨14, _⟩ => ⟨S_, .f32⟩
  | .hbm, ⟨15, _⟩ => ⟨S256x256x1, .f32⟩
  | .hbm, ⟨16, _⟩ => ⟨S256x256x1, .f32⟩
  | .hbm, ⟨17, _⟩ => ⟨S256x256x128, .f32⟩
  | .hbm, ⟨18, _⟩ => ⟨S256x256x128, .f32⟩
  | .hbm, ⟨19, _⟩ => ⟨S256x256x128, .f32⟩
  | .hbm, ⟨20, _⟩ => ⟨S_, .f32⟩
  | .hbm, ⟨21, _⟩ => ⟨S256x256, .f32⟩
  | .hbm, ⟨22, _⟩ => ⟨S256x256x1, .f32⟩
  | .hbm, ⟨23, _⟩ => ⟨S_, .f32⟩
  | .hbm, ⟨24, _⟩ => ⟨S256x256x1, .f32⟩
  | .hbm, ⟨25, _⟩ => ⟨S256x256x1, .f32⟩
  | .hbm, ⟨26, _⟩ => ⟨S256x256x128, .f32⟩
  | .hbm, ⟨27, _⟩ => ⟨S256x256x128, .f32⟩
  | .hbm, ⟨28, _⟩ => ⟨S_, .f32⟩
  | .hbm, ⟨29, _⟩ => ⟨S256x256x1, .f32⟩
  | .hbm, ⟨30, _⟩ => ⟨S256x256x1, .f32⟩
  | .hbm, ⟨31, _⟩ => ⟨S256x256x1, .f32⟩
  | .hbm, ⟨32, _⟩ => ⟨S256x256x128, .f32⟩
  | .hbm, ⟨33, _⟩ => ⟨S256x256x128, .f32⟩
  | .hbm, ⟨34, _⟩ => ⟨S1x1x128, .f32⟩
  | .hbm, ⟨35, _⟩ => ⟨S256x256x128, .f32⟩
  | .hbm, ⟨36, _⟩ => ⟨S256x256x128, .f32⟩
  | .hbm, ⟨37, _⟩ => ⟨S1x1x128, .f32⟩
  | .hbm, ⟨38, _⟩ => ⟨S256x256x128, .f32⟩
  | .hbm, ⟨39, _⟩ => ⟨S256x256x128, .f32⟩
  | .hbm, ⟨40, _⟩ => ⟨S4x256x256, .f32⟩
  | .hbm, ⟨41, _⟩ => ⟨S1x4x256x256, .f32⟩
  | .hbm, ⟨42, _⟩ => ⟨S256x256x128, .f32⟩
  | .hbm, ⟨43, _⟩ => ⟨S256x256x4x32, .f32⟩
  | .hbm, ⟨44, _⟩ => ⟨S256x4x256x32, .f32⟩
  | .hbm, ⟨45, _⟩ => ⟨S256x256x128, .f32⟩
  | .hbm, ⟨46, _⟩ => ⟨S256x256x4x32, .f32⟩
  | .hbm, ⟨47, _⟩ => ⟨S256x4x256x32, .f32⟩
  | .hbm, ⟨48, _⟩ => ⟨S256x256x128, .f32⟩
  | .hbm, ⟨49, _⟩ => ⟨S256x256x4x32, .f32⟩
  | .hbm, ⟨50, _⟩ => ⟨S256x4x256x32, .f32⟩
  | .hbm, ⟨51, _⟩ => ⟨S256x4x256x256, .f32⟩
  | .hbm, ⟨52, _⟩ => ⟨S_, .f32⟩
  | .hbm, ⟨53, _⟩ => ⟨S256x4x256x256, .f32⟩
  | .hbm, ⟨54, _⟩ => ⟨S256x4x256x256, .f32⟩
  | .hbm, ⟨55, _⟩ => ⟨S256x4x256x256, .f32⟩
  | .hbm, ⟨56, _⟩ => ⟨S256x4x256x256, .f32⟩
  | .hbm, ⟨57, _⟩ => ⟨S256x4x256x256, .f32⟩
  | .hbm, ⟨58, _⟩ => ⟨S256x4x256x256, .f32⟩
  | .hbm, ⟨59, _⟩ => ⟨S_, .f32⟩
  | .hbm, ⟨60, _⟩ => ⟨S256x4x256, .f32⟩
  | .hbm, ⟨61, _⟩ => ⟨S_, .f32⟩
  | .hbm, ⟨62, _⟩ => ⟨S256x4x256, .f32⟩
  | .hbm, ⟨63, _⟩ => ⟨S256x4x256, .f32⟩
  | .hbm, ⟨64, _⟩ => ⟨S256x4x256x1, .f32⟩
  | .hbm, ⟨65, _⟩ => ⟨S256x4x256x256, .f32⟩
  | .hbm, ⟨66, _⟩ => ⟨S256x4x256x256, .f32⟩
  | .hbm, ⟨67, _⟩ => ⟨S256x4x256x256, .f32⟩
  | .hbm, ⟨68, _⟩ => ⟨S_, .f32⟩
  | .hbm, ⟨69, _⟩ => ⟨S256x4x256, .f32⟩
  | .hbm, ⟨70, _⟩ => ⟨S256x4x256x1, .f32⟩
  | .hbm, ⟨71, _⟩ => ⟨S256x4x256x256, .f32⟩
  | .hbm, ⟨72, _⟩ => ⟨S256x4x256x256, .f32⟩
  | .hbm, ⟨73, _⟩ => ⟨S256x4x256x32, .f32⟩
  | .hbm, ⟨74, _⟩ => ⟨S256x256x4x32, .f32⟩
  | .hbm, ⟨75, _⟩ => ⟨S256x256x128, .f32⟩
  | .hbm, ⟨76, _⟩ => ⟨S256x256x128, .f32⟩
  | .hbm, ⟨77, _⟩ => ⟨S256x256x128, .f32⟩
  | .hbm, ⟨78, _⟩ => ⟨S256x256x128, .f32⟩
  | .hbm, ⟨79, _⟩ => ⟨S_, .f32⟩
  | .hbm, ⟨80, _⟩ => ⟨S256x256x128, .f32⟩
  | .hbm, ⟨81, _⟩ => ⟨S256x256x128, .f32⟩
  | .hbm, ⟨82, _⟩ => ⟨S_, .f32⟩
  | .hbm, ⟨83, _⟩ => ⟨S256x256x128, .f32⟩
  | .hbm, ⟨84, _⟩ => ⟨S256x256x128, .f32⟩
  | .hbm, ⟨85, _⟩ => ⟨S256x256x128, .f32⟩
  | .hbm, ⟨86, _⟩ => ⟨S256x256x128, .f32⟩
  | .hbm, ⟨87, _⟩ => ⟨S1x256x256x128, .f32⟩
  | _, _ => ⟨S1x256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]

class Facts₀ : Prop where
  shapeCasts_S1x256x256x128_S256x256x128 : S1x256x256x128.ShapeCasts S256x256x128
  reducesTo_S256x256x128_S256x256_d2 : S256x256x128.ReducesTo [2] S256x256
  h_S_ : 0 < S_.numel
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S256x256x1_S256x256x128_0_1_2 : S256x256x1.BroadcastsInDim S256x256x128 (![0, 1, 2] : Fin 3 → Fin S256x256x128.rank)
  bcast_S128_S1x1x128_2 : S128.BroadcastsInDim S1x1x128 (![2] : Fin 1 → Fin S1x1x128.rank)
  bcast_S1x1x128_S256x256x128_0_1_2 : S1x1x128.BroadcastsInDim S256x256x128 (![0, 1, 2] : Fin 3 → Fin S256x256x128.rank)
  bcast_S4x256x256_S1x4x256x256_1_2_3 : S4x256x256.BroadcastsInDim S1x4x256x256 (![1, 2, 3] : Fin 3 → Fin S1x4x256x256.rank)
  shapeCasts_S256x256x128_S256x256x4x32 : S256x256x128.ShapeCasts S256x256x4x32
  transposes_S256x256x4x32_S256x4x256x32_0_2_1_3 : S256x256x4x32.Transposes [0, 2, 1, 3] S256x4x256x32
  bcast_S_S256x4x256x256 : S_.BroadcastsInDim S256x4x256x256 (![] : Fin 0 → Fin S256x4x256x256.rank)
  bcast_S1x4x256x256_S256x4x256x256_0_1_2_3 : S1x4x256x256.BroadcastsInDim S256x4x256x256 (![0, 1, 2, 3] : Fin 4 → Fin S256x4x256x256.rank)
  bcast_S1x1x256x256_S256x4x256x256_0_1_2_3 : S1x1x256x256.BroadcastsInDim S256x4x256x256 (![0, 1, 2, 3] : Fin 4 → Fin S256x4x256x256.rank)
  reducesTo_S256x4x256x256_S256x4x256_d3 : S256x4x256x256.ReducesTo [3] S256x4x256
  bcast_S_S256x4x256 : S_.BroadcastsInDim S256x4x256 (![] : Fin 0 → Fin S256x4x256.rank)
  bcast_S256x4x256_S256x4x256x1_0_1_2 : S256x4x256.BroadcastsInDim S256x4x256x1 (![0, 1, 2] : Fin 3 → Fin S256x4x256x1.rank)
  bcast_S256x4x256x1_S256x4x256x256_0_1_2_3 : S256x4x256x1.BroadcastsInDim S256x4x256x256 (![0, 1, 2, 3] : Fin 4 → Fin S256x4x256x256.rank)
  transposes_S256x4x256x32_S256x256x4x32_0_2_1_3 : S256x4x256x32.Transposes [0, 2, 1, 3] S256x256x4x32
  shapeCasts_S256x256x4x32_S256x256x128 : S256x256x4x32.ShapeCasts S256x256x128
  bcast_S_S256x256x128 : S_.BroadcastsInDim S256x256x128 (![] : Fin 0 → Fin S256x256x128.rank)
  bcast_S256x256x128_S1x256x256x128_1_2_3 : S256x256x128.BroadcastsInDim S1x256x256x128 (![1, 2, 3] : Fin 3 → Fin S1x256x256x128.rank)
  dot_S4x128_S256x256x128_S4x256x256_1_2_0_01_n_n_wf : DotDims.WF S4x128 S256x256x128 S4x256x256 [1] [2] [0] [0, 1] [] []
  dot_S256x256x128_S128x128_S256x256x128_2_1_01_0_n_n_wf : DotDims.WF S256x256x128 S128x128 S256x256x128 [2] [1] [0, 1] [0] [] []
  dot_S256x4x256x32_S256x4x256x32_S256x4x256x256_3_3_2_2_01_01_wf : DotDims.WF S256x4x256x32 S256x4x256x32 S256x4x256x256 [3] [3] [2] [2] [0, 1] [0, 1]
  dot_S256x4x256x256_S256x4x256x32_S256x4x256x32_3_2_2_3_01_01_wf : DotDims.WF S256x4x256x256 S256x4x256x32 S256x4x256x32 [3] [2] [2] [3] [0, 1] [0, 1]

variable [Facts₀]

def dot_S4x128_S256x256x128_S4x256x256_1_2_0_01_n_n : DotDims S4x128 S256x256x128 S4x256x256 where
  lhsContracting := [1]
  rhsContracting := [2]
  lhsNonContracting := [0]
  rhsNonContracting := [0, 1]
  lhsBatch := []
  rhsBatch := []
  wf := dot_S4x128_S256x256x128_S4x256x256_1_2_0_01_n_n_wf
def dot_S256x256x128_S128x128_S256x256x128_2_1_01_0_n_n : DotDims S256x256x128 S128x128 S256x256x128 where
  lhsContracting := [2]
  rhsContracting := [1]
  lhsNonContracting := [0, 1]
  rhsNonContracting := [0]
  lhsBatch := []
  rhsBatch := []
  wf := dot_S256x256x128_S128x128_S256x256x128_2_1_01_0_n_n_wf
def dot_S256x4x256x32_S256x4x256x32_S256x4x256x256_3_3_2_2_01_01 : DotDims S256x4x256x32 S256x4x256x32 S256x4x256x256 where
  lhsContracting := [3]
  rhsContracting := [3]
  lhsNonContracting := [2]
  rhsNonContracting := [2]
  lhsBatch := [0, 1]
  rhsBatch := [0, 1]
  wf := dot_S256x4x256x32_S256x4x256x32_S256x4x256x256_3_3_2_2_01_01_wf
def dot_S256x4x256x256_S256x4x256x32_S256x4x256x32_3_2_2_3_01_01 : DotDims S256x4x256x256 S256x4x256x32 S256x4x256x32 where
  lhsContracting := [3]
  rhsContracting := [2]
  lhsNonContracting := [2]
  rhsNonContracting := [3]
  lhsBatch := [0, 1]
  rhsBatch := [0, 1]
  wf := dot_S256x4x256x256_S256x4x256x32_S256x4x256x32_3_2_2_3_01_01_wf

class Facts : Prop extends Facts₀ where

variable [Facts]
-- ==== Proof.Stored.lean ====
/-
  What each of the two kernels writes into its output blocks at one grid point, as a pure function of the blocks it
  loads — the terms the frame's proof data and the value lemmas are both stated over.

  * first kernel, first output (the normalised rows, narrowed): a function of a block of 32 x 256 rows of x, the gain
    and the shift;
  * first kernel, second output (the pair bias of those rows with the mask block added): also of the bias projection
    and a 32 x 256 block of the mask;
  * second kernel's output (gated attention of 8 batch rows, projected): a function of the 8 x 256 normalised rows,
    the whole pair bias, the four stacked projection matrices and the output projection.
-/
import proofs.«148970_j49744311222640_2_alg».proof.Proof.Gen.KernelIdeal.Skeleton

noncomputable section

namespace Cert.Attn.KI

open Idealize.ShloMosaic Cert.KernelIdeal Cert.KernelIdeal.Gen

variable {F : FTy → Type} [FloatOps F]

/-- The normalised rows of one block of x. -/
def xnStore (x0 : Vec F S32x256x128 .f32) (w bb : Vec F S128 .f32) : FVec F S32x256x128 .bf16 :=
  k0_pay2 x0 w bb

/-- The pair bias of one block of rows, mask block added. -/
def biasStore (x0 : Vec F S32x256x128 .f32) (w bb : Vec F S128 .f32) (wb : Vec F S4x128 .f32) (mk : Vec F S32x256 .f32) :
    FVec F S4x32x256 .f32 :=
  k0_pay3 x0 w bb wb mk

/-- The gated, projected attention output of one block of 8 batch rows. -/
def attnStore (xb : Vec F S8x256x128 .bf16) (bs : Vec F S4x256x256 .f32) (wc : Vec F S512x128 .f32) (wo : Vec F S128x128 .f32) :
    FVec F S8x256x128 .f32 :=
  k1_pay1 (k1_pay2 wo) (k1_pay3 bs) (k1_pay4 xb wc) (k1_pay5 xb wc) (k1_pay6 xb wc) (k1_pay7 xb wc bs)
    (k1_pay9 (k1_pay3 bs) (k1_pay5 xb wc) (k1_pay8 xb wc) (Scalar.ofBits .f32 0x3E3504F3#32))
    (k1_pay10 (k1_pay3 bs) (k1_pay4 xb wc) (k1_pay5 xb wc))

end Cert.Attn.KI

end
-- ==== Proof.KFrame0.lean ====
/-
  The first kernel region (layer norm and pair bias) at a parameter V, the contents of the core's buffers when the
  region is entered: each window's block at a grid point, what the body leaves in its two output buffers as a
  function of the five input blocks (the terms of Stored.lean), the body's triple, the proof data and the body
  obligation at every point.
-/
import proofs.«148970_j49744311222640_2_alg».proof.Proof.Gen.KernelIdeal.Launch
import proofs.«148970_j49744311222640_2_alg».proof.Proof.Gen.KernelIdeal.Skeleton
import proofs.«148970_j49744311222640_2_alg».proof.Proof.Gen.KernelIdeal.Points
import proofs.«148970_j49744311222640_2_alg».proof.Proof.Stored
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Attn.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-buffer rectangles the body loads and stores through -/

abbrev rX : Rect S32x256x128 := Rect.unit (s := S32x256x128) ![0, 0, 0] S32x256x128.size inb_S32x256x128_S32x256x128_0_0_0
abbrev rG : Rect S128 := Rect.unit (s := S128) ![0] S128.size inb_S128_S128_0
abbrev rW : Rect S4x128 := Rect.unit (s := S4x128) ![0, 0] S4x128.size inb_S4x128_S4x128_0_0
abbrev rM : Rect S32x256 := Rect.unit (s := S32x256) ![0, 0] S32x256.size inb_S32x256_S32x256_0_0
abbrev rB : Rect S4x32x256 := Rect.unit (s := S4x32x256) ![0, 0, 0] S4x32x256.size inb_S4x32x256_S4x32x256_0_0_0

theorem zeros3 : (![0, 0, 0] : Fin 3 → Nat) = fun _ => 0 := by funext a; fin_cases a <;> rfl
theorem zeros2 : (![0, 0] : Fin 2 → Nat) = fun _ => 0 := by funext a; fin_cases a <;> rfl
theorem zeros1 : (![0] : Fin 1 → Nat) = fun _ => 0 := by funext a; fin_cases a <;> rfl

/-! ## What the body leaves in each output buffer -/

/-- The first output's buffer after the body: its one store, through the whole buffer. -/
def out0_5 (x0 : Vec F S32x256x128 .f32) (w bb : Vec F S128 .f32) : Vec F S32x256x128 .bf16 :=
  View.canon [⟨rX, k0_pay2 (View.ld x0 rX) (View.ld w rG) (View.ld bb rG)⟩]

/-- The second output's buffer after the body: its one store, through the whole buffer. -/
def out0_6 (x0 : Vec F S32x256x128 .f32) (w bb : Vec F S128 .f32) (wb : Vec F S4x128 .f32) (mk : Vec F S32x256 .f32) : Vec F S4x32x256 .f32 :=
  View.canon [⟨rB, k0_pay3 (View.ld x0 rX) (View.ld w rG) (View.ld bb rG) (View.ld wb rW) (View.ld mk rM)⟩]

/-- One store through the whole buffer leaves its payload, and a load through the whole buffer reads the contents:
    the first output is the normalised rows of the x block. -/
theorem out0_5_eq (x0 : Vec F S32x256x128 .f32) (w bb : Vec F S128 .f32) : out0_5 x0 w bb = xnStore x0 w bb := by
  unfold out0_5 xnStore
  rw [View.canon_unit_zero zeros3 inb_S32x256x128_S32x256x128_0_0_0, View.ld_unit_zero zeros3 inb_S32x256x128_S32x256x128_0_0_0,
    View.ld_unit_zero zeros1 inb_S128_S128_0, View.ld_unit_zero zeros1 inb_S128_S128_0]

/-- Likewise the second output is the pair bias of the block's rows with the mask block added. -/
theorem out0_6_eq (x0 : Vec F S32x256x128 .f32) (w bb : Vec F S128 .f32) (wb : Vec F S4x128 .f32) (mk : Vec F S32x256 .f32) :
    out0_6 x0 w bb wb mk = biasStore x0 w bb wb mk := by
  unfold out0_6 biasStore
  rw [View.canon_unit_zero zeros3 inb_S4x32x256_S4x32x256_0_0_0, View.ld_unit_zero zeros3 inb_S32x256x128_S32x256x128_0_0_0,
    View.ld_unit_zero zeros1 inb_S128_S128_0, View.ld_unit_zero zeros1 inb_S128_S128_0,
    View.ld_unit_zero zeros2 inb_S4x128_S4x128_0_0, View.ld_unit_zero zeros2 inb_S32x256_S32x256_0_0]

/-- Each store covers its buffer. -/
theorem cover0_5 (p0 : Vec F S32x256x128 .bf16) (y : S32x256x128.Idx) :
    ∃ pc ∈ ([⟨rX, p0⟩] : List (View.Piece (Elt F) S32x256x128 .bf16)), y ∈ pc.1.set :=
  ⟨_, List.mem_singleton_self _, View.mem_set_unit_zero zeros3 inb_S32x256x128_S32x256x128_0_0_0 y⟩
theorem cover0_6 (p0 : Vec F S4x32x256 .f32) (y : S4x32x256.Idx) :
    ∃ pc ∈ ([⟨rB, p0⟩] : List (View.Piece (Elt F) S4x32x256 .f32)), y ∈ pc.1.set :=
  ⟨_, List.mem_singleton_self _, View.mem_set_unit_zero zeros3 inb_S4x32x256_S4x32x256_0_0_0 y⟩

/-! ## The body's triple -/

set_option maxHeartbeats 4000000 in
/-- The kernel body on whole staging memrefs, the five inputs' at read contents and the two outputs' at anything, runs to
    the continuation holding the inputs' as they were and each output's at its store over the inputs. -/
theorem sound_kernel0 (c : Dev nD) (E : Set ℕ) (i : grid0.Coords)
    (arg1 : Memref sig .tc .vmem S32x256x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S4x128 .f32) (harg4 : arg4.IsWhole)
    (arg5 : Memref sig .tc .vmem S32x256 .f32) (harg5 : arg5.IsWhole) (arg6 : Memref sig .tc .vmem S32x256x128 .bf16) (harg6 : arg6.IsWhole)
    (arg7 : Memref sig .tc .vmem S4x32x256 .f32) (harg7 : arg7.IsWhole)
    (x0 : Vec F S32x256x128 .f32) (w bb : Vec F S128 .f32) (wb : Vec F S4x128 .f32) (mk : Vec F S32x256 .f32) (K : PUnit → sProp 𝕄) :
    iprop(owns (c : Thread nD τ) arg1 fullShare x0 ∗ owns (c : Thread nD τ) arg2 fullShare w ∗ owns (c : Thread nD τ) arg3 fullShare bb
        ∗ owns (c : Thread nD τ) arg4 fullShare wb ∗ owns (c : Thread nD τ) arg5 fullShare mk
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w ∗ owns (c : Thread nD τ) arg3 fullShare bb
            ∗ owns (c : Thread nD τ) arg4 fullShare wb ∗ owns (c : Thread nD τ) arg5 fullShare mk
            ∗ owns (c : Thread nD τ) arg6 fullShare (out0_5 x0 w bb) ∗ owns (c : Thread nD τ) arg7 fullShare (out0_6 x0 w bb wb mk)) -∗ K ⟨⟩))
      ⊢ wp frame (wpE (defs₀ (F := F)) Variants.none c none) E (cc0__ln_bias_kernel i arg1 harg1 arg2 harg2 arg3 harg3 arg4 harg4 arg5 harg5 arg6 harg6 arg7 harg7) K := by
  simp only [cc0__ln_bias_kernel_eq_skeleton]; unfold cc0__ln_bias_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_5 _)
  iexists _; isplitr
  swap; · iexact H7
  ipureintro
  exact View.read_writes_eq_canon _ _ _ (cover0_6 _)

/-! ## The pipeline's proof data -/

/-- An input window's current staging buffer holds its block at every point, fetched there or not, for any proof
    data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core c: the arrays as the region finds them; after the body at point t each
    input's buffer at its block, the first output's at the normalised rows of the x block and the second's at the pair
    bias of those rows with the mask block added; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => xnStore (iblk0 V c 0 t) (iblk0 V c 1 t) (iblk0 V c 2 t)
    | ⟨6, _⟩ => biasStore (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = xnStore (iblk0 V c 0 t) (iblk0 V c 1 t) (iblk0 V c 2 t) := by dsimp only [dat0]
theorem after0_6 (c : Dev nD) (t : Fin cfg0.N) :
    (dat0 V c).after 6 t = biasStore (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, ← out0_5_eq, ← out0_6_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Attn.KI

end
-- ==== Proof.KFrame1.lean ====
/-
  The second kernel region (gated attention of 8 batch rows, projected) at a parameter V, the contents of the core's
  buffers when the region is entered: each window's block at a grid point, what the body leaves in its output buffer
  as a function of the four input blocks (the term of Stored.lean), the body's triple, the proof data and the body
  obligation at every point.
-/
import proofs.«148970_j49744311222640_2_alg».proof.Proof.Gen.KernelIdeal.Launch
import proofs.«148970_j49744311222640_2_alg».proof.Proof.Gen.KernelIdeal.Skeleton
import proofs.«148970_j49744311222640_2_alg».proof.Proof.Gen.KernelIdeal.Points
import proofs.«148970_j49744311222640_2_alg».proof.Proof.Stored
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Attn.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The whole-buffer rectangles the body loads and stores through -/

abbrev rRows : Rect S8x256x128 := Rect.unit (s := S8x256x128) ![0, 0, 0] S8x256x128.size inb_S8x256x128_S8x256x128_0_0_0
abbrev rBias : Rect S4x256x256 := Rect.unit (s := S4x256x256) ![0, 0, 0] S4x256x256.size inb_S4x256x256_S4x256x256_0_0_0
abbrev rWc : Rect S512x128 := Rect.unit (s := S512x128) ![0, 0] S512x128.size inb_S512x128_S512x128_0_0
abbrev rWo : Rect S128x128 := Rect.unit (s := S128x128) ![0, 0] S128x128.size inb_S128x128_S128x128_0_0

theorem zeros3' : (![0, 0, 0] : Fin 3 → Nat) = fun _ => 0 := by funext a; fin_cases a <;> rfl
theorem zeros2' : (![0, 0] : Fin 2 → Nat) = fun _ => 0 := by funext a; fin_cases a <;> rfl

/-! ## What the body leaves in the output buffer -/

/-- The output's buffer after the body: its one store, through the whole buffer. -/
def out1_4 (xb : Vec F S8x256x128 .bf16) (bs : Vec F S4x256x256 .f32) (wc : Vec F S512x128 .f32) (wo : Vec F S128x128 .f32) : Vec F S8x256x128 .f32 :=
  View.canon [⟨rRows, attnStore (View.ld xb rRows) (View.ld bs rBias) (View.ld wc rWc) (View.ld wo rWo)⟩]

/-- One store through the whole buffer leaves its payload, and a load through the whole buffer reads the contents. -/
theorem out1_4_eq (xb : Vec F S8x256x128 .bf16) (bs : Vec F S4x256x256 .f32) (wc : Vec F S512x128 .f32) (wo : Vec F S128x128 .f32) :
    out1_4 xb bs wc wo = attnStore xb bs wc wo := by
  unfold out1_4
  rw [View.canon_unit_zero zeros3' inb_S8x256x128_S8x256x128_0_0_0, View.ld_unit_zero zeros3' inb_S8x256x128_S8x256x128_0_0_0,
    View.ld_unit_zero zeros3' inb_S4x256x256_S4x256x256_0_0_0, View.ld_unit_zero zeros2' inb_S512x128_S512x128_0_0,
    View.ld_unit_zero zeros2' inb_S128x128_S128x128_0_0]

/-- The store covers the buffer. -/
theorem cover1_4 (p0 : Vec F S8x256x128 .f32) (y : S8x256x128.Idx) :
    ∃ pc ∈ ([⟨rRows, p0⟩] : List (View.Piece (Elt F) S8x256x128 .f32)), y ∈ pc.1.set :=
  ⟨_, List.mem_singleton_self _, View.mem_set_unit_zero zeros3' inb_S8x256x128_S8x256x128_0_0_0 y⟩

/-! ## The body's triple -/

set_option maxHeartbeats 4000000 in
/-- The kernel body on whole staging memrefs, the four inputs' at read contents and the output's at anything, runs to
    the continuation holding the inputs' as they were and the output's at its store over the inputs. -/
theorem sound_kernel1 (c : Dev nD) (E : Set ℕ) (i : grid1.Coords)
    (arg1 : Memref sig .tc .vmem S8x256x128 .bf16) (harg1 : arg1.IsWhole) (arg2 : Memref sig .tc .vmem S4x256x256 .f32) (harg2 : arg2.IsWhole)
    (arg3 : Memref sig .tc .vmem S512x128 .f32) (harg3 : arg3.IsWhole) (arg4 : Memref sig .tc .vmem S128x128 .f32) (harg4 : arg4.IsWhole)
    (arg5 : Memref sig .tc .vmem S8x256x128 .f32) (harg5 : arg5.IsWhole)
    (xb : Vec F S8x256x128 .bf16) (bs : Vec F S4x256x256 .f32) (wc : Vec F S512x128 .f32) (wo : Vec F S128x128 .f32) (K : PUnit → sProp 𝕄) :
    iprop(owns (c : Thread nD τ) arg1 fullShare xb ∗ owns (c : Thread nD τ) arg2 fullShare bs ∗ owns (c : Thread nD τ) arg3 fullShare wc ∗ owns (c : Thread nD τ) arg4 fullShare wo
        ∗ (∃ d, owns (c : Thread nD τ) arg5 fullShare d)
        ∗ (iprop(owns (c : Thread nD τ) arg1 fullShare xb ∗ owns (c : Thread nD τ) arg2 fullShare bs ∗ owns (c : Thread nD τ) arg3 fullShare wc ∗ owns (c : Thread nD τ) arg4 fullShare wo
            ∗ owns (c : Thread nD τ) arg5 fullShare (out1_4 xb bs wc wo)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_4 _)

/-! ## The pipeline's proof data -/

/-- An input window's current staging buffer holds its block at every point, fetched there or not, for any proof
    data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core c: the arrays as the region finds them; after the body at point t each
    input's buffer at its block and the output's at the gated, projected attention of the block's 8 batch rows; the
    class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => attnStore (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = attnStore (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, ← out1_4_eq]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Attn.KI

end
-- ==== Proof.KFrameCond.lean ====
/-
  The conditional run of the program with its result: the generated conditional frame's statement with one more
  conjunct, the result buffer's final contents read off the last boundary's contents, under the same hypotheses (one
  segment record per kernel region, entered from and left at the generated boundary contents): the last thread state is
  read at one more buffer.
-/
import proofs.«148970_j49744311222640_2_alg».proof.Proof.Gen.KernelIdeal.Regions

noncomputable section

namespace Cert.Attn.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

set_option backward.isDefEq.respectTransparency.types false in
/-- Given, per region, a segment record entered from the boundary contents before it and left at those after it, every
    weakly fair execution of the program from memory m with zero counters terminates, and every final memory holds the
    result buffer at the last boundary's contents and each argument as launched. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v5) = V4 m outs c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => s.mem ((c.tc : Thread nD τ).loc main_v5) = V4 m outs c main_v5 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v5) (Finset.mem_filter.mpr ⟨StableHlo.devRef_mem_tcRefs main_v5, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_arg5) (Finset.mem_filter.mpr ⟨StableHlo.devRef_mem_tcRefs main_arg5, by decide⟩)).trans (V4_main_arg5 m outs c),
        (h (Proc.devRef .tc main_arg6) (Finset.mem_filter.mpr ⟨StableHlo.devRef_mem_tcRefs main_arg6, by decide⟩)).trans (V4_main_arg6 m outs c),
        (h (Proc.devRef .tc main_arg7) (Finset.mem_filter.mpr ⟨StableHlo.devRef_mem_tcRefs main_arg7, by decide⟩)).trans (V4_main_arg7 m outs c),
        (h (Proc.devRef .tc main_arg8) (Finset.mem_filter.mpr ⟨StableHlo.devRef_mem_tcRefs main_arg8, by decide⟩)).trans (V4_main_arg8 m outs c),
        (h (Proc.devRef .tc main_arg9) (Finset.mem_filter.mpr ⟨StableHlo.devRef_mem_tcRefs main_arg9, by decide⟩)).trans (V4_main_arg9 m outs c)⟩
    · iexact HSI

end Cert.Attn.KI

end
-- ==== Proof.KFrameRun.lean ====
/-
  The run of the whole program through its two kernel regions: the contents of the core's buffers at each boundary
  (after the host stretch before the first region; after the first region, its two outputs written back; after the
  second region, its output written back), the proof data of both pipelines at those contents, each region as a
  segment over the thread state "every unscoped buffer at the boundary's contents, the generator register at some
  state, nothing owed", and the frame claim from the conditional frame of the generated Regions module.
-/
import proofs.«148970_j49744311222640_2_alg».proof.Proof.KFrame0
import proofs.«148970_j49744311222640_2_alg».proof.Proof.KFrame1
import proofs.«148970_j49744311222640_2_alg».proof.Proof.Gen.KernelIdeal.Regions
import proofs.«148970_j49744311222640_2_alg».proof.Proof.KFrameCond

set_option maxRecDepth 16384

noncomputable section

namespace Cert.Attn.KI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- What the first region is entered from, at the TensorCore's references: the launch memory after the first host stretch. -/
abbrev enter0 : (c : Dev nD) → (b : Ref sig .tc) → Buf (Elt F) ((c : Thread nD τ).loc b) := fun c b => V1 m c b

/-- The normalised rows as the first region leaves them: every point's store written back. -/
def xnArr (c : Dev nD) : Buf (Elt F) ((c : Thread nD τ).loc main_v3_0) := (dat0 (enter0 m) c).arrAt 5 cfg0.N
/-- The pair bias as the first region leaves it. -/
def biasArr (c : Dev nD) : Buf (Elt F) ((c : Thread nD τ).loc main_v3_1) := (dat0 (enter0 m) c).arrAt 6 cfg0.N

/-- The buffers at the first region's exit: its two outputs at what it leaves, every other buffer as entered. -/
def leave0 (c : Dev nD) : Valuation τ sig (Elt F) :=
  Function.update (Function.update (V1 m c) main_v3_0 (xnArr m c)) main_v3_1 (biasArr m c)

/-- What the second region is entered from, at the TensorCore's references: the first region's exit contents. -/
abbrev enter1 : (c : Dev nD) → (b : Ref sig .tc) → Buf (Elt F) ((c : Thread nD τ).loc b) := fun c b => leave0 m c b

/-- The attention output as the second region leaves it. -/
def attnArr (c : Dev nD) : Buf (Elt F) ((c : Thread nD τ).loc main_v4) := (dat1 (enter1 m) c).arrAt 4 cfg1.N

/-- The buffers at the second region's exit: its output at what it leaves, every other buffer as entered. -/
def leave1 (c : Dev nD) : Valuation τ sig (Elt F) := Function.update (leave0 m c) main_v4 (attnArr m c)

/-- At the first region's exit: the two outputs, -/
theorem leave0_v3_0 (c : Dev nD) : leave0 m c main_v3_0 = xnArr m c := by
  unfold leave0
  rw [Function.update_of_ne (StableHlo.devRef_ne_of_ne (by decide) : (Proc.devRef .tc main_v3_0 : DevRef τ sig) ≠ Proc.devRef .tc main_v3_1), Function.update_self]
theorem leave0_v3_1 (c : Dev nD) : leave0 m c main_v3_1 = biasArr m c := by
  unfold leave0; rw [Function.update_self]
/-- and every other buffer as entered. -/
theorem leave0_of_ne (c : Dev nD) (b : Ref sig .tc) (h0 : b ≠ main_v3_0) (h1 : b ≠ main_v3_1) : leave0 m c b = V1 m c b := by
  unfold leave0
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]
/-- At the second region's exit: its output, -/
theorem leave1_v4 (c : Dev nD) : leave1 m c main_v4 = attnArr m c := by
  unfold leave1; rw [Function.update_self]
/-- and every other buffer as entered. -/
theorem leave1_of_ne (c : Dev nD) (b : Ref sig .tc) (h : b ≠ main_v4) : leave1 m c b = leave0 m c b := by
  unfold leave1
  rw [Function.update_of_ne (StableHlo.devRef_ne_of_ne h : (Proc.devRef .tc b : DevRef τ sig) ≠ Proc.devRef .tc main_v4)]

/-- What the regions leave in the buffers they may change, for the generated boundary contents: the exit contents above. -/
def outs : Outs (F := F) := fun _ r c => leave1 m c r

/-- The generated contents after the first region are its exit contents, -/
theorem V2_eq (c : Dev nD) : V2 m (outs m) c = leave0 m c := by
  show Function.update (Function.update (V1 m c) main_v3_0 (leave1 m c main_v3_0)) main_v3_1 (leave1 m c main_v3_1) = leave0 m c
  rw [leave1_of_ne m c main_v3_0 (by decide), leave1_of_ne m c main_v3_1 (by decide), leave0_v3_0, leave0_v3_1]; rfl
/-- and after the second region, its exit contents. -/
theorem V3_eq (c : Dev nD) : V3 m (outs m) c = leave1 m c := by
  show Function.update (V2 m (outs m) c) main_v4 (leave1 m c main_v4) = leave1 m c
  rw [V2_eq, leave1_v4]; rfl

/-- The program's result: the one host operation after the regions, a broadcast into a leading axis of length one,
    applied to the attention output. -/
def resultArr (c : Dev nD) : Buf (Elt F) ((c : Thread nD τ).loc main_v5) :=
  (broadcastInDim S1x256x256x128 ![1, 2, 3] bcast_S256x256x128_S1x256x256x128_1_2_3 : (⟨S256x256x128, .f32⟩ : BufTy).Contents (Elt F) → (⟨S1x256x256x128, .f32⟩ : BufTy).Contents (Elt F)) (attnArr m c)

/-- The last generated contents hold the result in the result's buffer. -/
theorem V4_main_v5 (c : Dev nD) : V4 m (outs m) c main_v5 = resultArr m c := by
  show StableHlo.after [StableHlo.unary main_v4 main_v5 _] (V3 m (outs m) c) main_v5 = resultArr m c
  rw [StableHlo.after_cons, StableHlo.after_nil, StableHlo.unary_result, V3_eq, leave1_v4]; rfl

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (enter0 m) c
  | ⟨1, _⟩ => fun c => dat1 (enter1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- At the first region's exit each of its arrays holds what the pipeline leaves — an input what it held at entry, an
    output its write-backs — -/
theorem hF0 (c : Dev nD) (w : Fin cfg0.W) : (dat0 (enter0 m) c).arrAt w cfg0.N = enter1 m c (Pipeline.arrRef spec0 w) := by
  fin_cases w
  · exact ((dat0 (enter0 m) c).arrAt_in 0 rfl _).trans ((A_eq0 (enter0 m) c 0).trans (leave0_of_ne m c _ (by decide) (by decide)).symm)
  · exact ((dat0 (enter0 m) c).arrAt_in 1 rfl _).trans ((A_eq0 (enter0 m) c 1).trans (leave0_of_ne m c _ (by decide) (by decide)).symm)
  · exact ((dat0 (enter0 m) c).arrAt_in 2 rfl _).trans ((A_eq0 (enter0 m) c 2).trans (leave0_of_ne m c _ (by decide) (by decide)).symm)
  · exact ((dat0 (enter0 m) c).arrAt_in 3 rfl _).trans ((A_eq0 (enter0 m) c 3).trans (leave0_of_ne m c _ (by decide) (by decide)).symm)
  · exact ((dat0 (enter0 m) c).arrAt_in 4 rfl _).trans ((A_eq0 (enter0 m) c 4).trans (leave0_of_ne m c _ (by decide) (by decide)).symm)
  · exact (leave0_v3_0 m c).symm
  · exact (leave0_v3_1 m c).symm
/-- and every other buffer what it held at entry. -/
theorem hrest0 (c : Dev nD) : ∀ b, b ∉ Finset.univ.image (Pipeline.arrRef spec0) → enter1 m c b = enter0 m c b :=
  fun b hb => leave0_of_ne m c b (fun h => hb (h ▸ Finset.mem_image.mpr ⟨5, Finset.mem_univ _, rfl⟩))
    (fun h => hb (h ▸ Finset.mem_image.mpr ⟨6, Finset.mem_univ _, rfl⟩))

/-- The buffers at the second region's exit, at the TensorCore's references. -/
abbrev exit1 : (c : Dev nD) → (b : Ref sig .tc) → Buf (Elt F) ((c : Thread nD τ).loc b) := fun c b => leave1 m c b

/-- Likewise at the second region's exit. -/
theorem hF1 (c : Dev nD) (w : Fin cfg1.W) : (dat1 (enter1 m) c).arrAt w cfg1.N = exit1 m c (Pipeline.arrRef spec1 w) := by
  fin_cases w
  · exact ((dat1 (enter1 m) c).arrAt_in 0 rfl _).trans ((A_eq1 (enter1 m) c 0).trans (leave1_of_ne m c _ (by decide)).symm)
  · exact ((dat1 (enter1 m) c).arrAt_in 1 rfl _).trans ((A_eq1 (enter1 m) c 1).trans (leave1_of_ne m c _ (by decide)).symm)
  · exact ((dat1 (enter1 m) c).arrAt_in 2 rfl _).trans ((A_eq1 (enter1 m) c 2).trans (leave1_of_ne m c _ (by decide)).symm)
  · exact ((dat1 (enter1 m) c).arrAt_in 3 rfl _).trans ((A_eq1 (enter1 m) c 3).trans (leave1_of_ne m c _ (by decide)).symm)
  · exact (leave1_v4 m c).symm
theorem hrest1 (c : Dev nD) : ∀ b, b ∉ Finset.univ.image (Pipeline.arrRef spec1) → exit1 m c b = enter1 m c b :=
  fun b hb => leave1_of_ne m c b (fun h => hb (h ▸ Finset.mem_image.mpr ⟨4, Finset.mem_univ _, rfl⟩))

/-! ## The regions as segments -/

set_option backward.isDefEq.respectTransparency.types false in
/-- Region 0 over the thread state: its arrays split out of the unscoped buffers at the entry contents and put back at the
    exit contents; the generator register into the class invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (enter0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (leave0 m c) ∗ R c)
  X c := iprop(∃ r, prngReg c r)
  Y c := iprop(∃ r, prngReg c r)
  Z c := Pipeline.unscopedRest (Ix := Unit) (Name := ℕ) (U := UR sig nD τ) (Lvl := ℕ) spec0 c (enter0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (enter0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (enter0 m c) (enter1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at the entry contents and put back at the
    exit contents; the generator register into the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (enter1 m) c).loose
  hwaits := Pipeline.hwaits_of_owed_zero _ _ _ _ L lv 1 fun _ _ => rfl
  pre c := iprop(StableHlo.held (c : Thread nD τ) (Pipeline.ucRefs τ sig) (leave0 m c) ∗ R c)
  post c := iprop(StableHlo.held (c : Thread nD τ) (Pipeline.ucRefs τ sig) (leave1 m c) ∗ R c)
  X c := iprop(∃ r, prngReg c r)
  Y c := iprop(∃ r, prngReg c r)
  Z c := Pipeline.unscopedRest (Ix := Unit) (Name := ℕ) (U := UR sig nD τ) (Lvl := ℕ) spec1 c (enter1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (enter1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (enter1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side of the conditional frame -/

/-- The launch element yields the pipeline library's at every staging cell, and nothing per core. -/
theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the state that rides along: the generator register and the dues, at nothing. -/
theorem launch_rest : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-! ## The frame, and the run with its result -/

set_option backward.isDefEq.respectTransparency.types false in
/-- THE FRAME: from any memory with zero counters every weakly fair execution of the program terminates, nothing
    faulting, and every final memory holds the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) launch_own
    (fun _ c => R c) (launch_rest ρ) (fun c => by iintro ⟨-, H⟩; iexact H)
    (reg0 m) (fun c => .rfl) (fun c => by rw [V2_eq]; exact .rfl)
    (reg1 m) (fun c => by rw [V2_eq]; exact .rfl) (fun c => by rw [V3_eq]; exact .rfl)

set_option backward.isDefEq.respectTransparency.types false in
/-- THE RUN WITH ITS RESULT: moreover every final memory holds, in the result's buffer, the broadcast of the attention
    output the second region leaves. -/
theorem run_value : θ_run defs (onTc (τ := τ) (main (F := F))) ⟨m, fun _ => 0, ρ⟩ (fun r => ∀ c : Dev nD,
      r.2.mem ((c.tc : Thread nD τ).loc main_v5) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have h := run_cond m emb₁ () 𝒱₀ L lv (fun _ _ => rfl) ρ (outs m) (pdats m) 0 (fun _ => (BI.emp : sProp 𝕄))
    (initOf (Pipeline.cells cfgs cellOf_inj) (Pipeline.launchToks cfgs cellOf_inj)) launch_own
    (fun _ c => R c) (launch_rest ρ) (fun c => by iintro ⟨-, H⟩; iexact H)
    (reg0 m) (fun c => .rfl) (fun c => by rw [V2_eq]; exact .rfl)
    (reg1 m) (fun c => by rw [V2_eq]; exact .rfl) (fun c => by rw [V3_eq]; exact .rfl)
  exact (θ_run defs _ _).mono (fun r hr c => ⟨(hr c).1.trans (V4_main_v5 m c), (hr c).2⟩) h

end Cert.Attn.KI

end
-- ==== Proof.StoredBits.lean ====
/-
  What each of the two kernels writes into its output blocks at one grid point, as a pure function of the blocks it
  loads — the terms the frame's proof data and the value lemmas are both stated over.

  * first kernel, first output (the normalised rows, narrowed): a function of a block of 32 x 256 rows of x, the gain
    and the shift;
  * first kernel, second output (the pair bias of those rows with the mask block added): also of the bias projection
    and a 32 x 256 block of the mask;
  * second kernel's output (gated attention of 8 batch rows, projected): a function of the 8 x 256 normalised rows,
    the whole pair bias, the four stacked projection matrices and the output projection.
  This module is about the word-level program: the program as printed, read at any float instance. The argument is
  the one given for the idealized program, which has the same text.
-/
import proofs.«148970_j49744311222640_2_alg».proof.Proof.Gen.Kernel.Skeleton

noncomputable section

namespace Cert.Attn.KB

open Idealize.ShloMosaic Cert.Kernel Cert.Kernel.Gen

variable {F : FTy → Type} [FloatOps F]

/-- The normalised rows of one block of x. -/
def xnStore (x0 : Vec F S32x256x128 .f32) (w bb : Vec F S128 .f32) : FVec F S32x256x128 .bf16 :=
  k0_pay2 x0 w bb

/-- The pair bias of one block of rows, mask block added. -/
def biasStore (x0 : Vec F S32x256x128 .f32) (w bb : Vec F S128 .f32) (wb : Vec F S4x128 .f32) (mk : Vec F S32x256 .f32) :
    FVec F S4x32x256 .f32 :=
  k0_pay3 x0 w bb wb mk

/-- The gated, projected attention output of one block of 8 batch rows. -/
def attnStore (xb : Vec F S8x256x128 .bf16) (bs : Vec F S4x256x256 .f32) (wc : Vec F S512x128 .f32) (wo : Vec F S128x128 .f32) :
    FVec F S8x256x128 .f32 :=
  k1_pay1 (k1_pay2 wo) (k1_pay3 bs) (k1_pay4 xb wc) (k1_pay5 xb wc) (k1_pay6 xb wc) (k1_pay7 xb wc bs)
    (k1_pay9 (k1_pay3 bs) (k1_pay5 xb wc) (k1_pay8 xb wc) (Scalar.ofBits .f32 0x3E3504F3#32))
    (k1_pay10 (k1_pay3 bs) (k1_pay4 xb wc) (k1_pay5 xb wc))

end Cert.Attn.KB

end
-- ==== Proof.KFrameBits0.lean ====
/-
  The first kernel region (layer norm and pair bias) at a parameter V, the contents of the core's buffers when the
  region is entered: each window's block at a grid point, what the body leaves in its two output buffers as a
  function of the five input blocks (the stored terms), the body's triple, the proof data and the body
  obligation at every point.
  This module is about the word-level program: the program as printed, read at any float instance. The argument is
  the one given for the idealized program, which has the same text.
-/
import proofs.«148970_j49744311222640_2_alg».proof.Proof.Gen.Kernel.Launch
import proofs.«148970_j49744311222640_2_alg».proof.Proof.Gen.Kernel.Skeleton
import proofs.«148970_j49744311222640_2_alg».proof.Proof.Gen.Kernel.Points
import proofs.«148970_j49744311222640_2_alg».proof.Proof.StoredBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Attn.KB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-buffer rectangles the body loads and stores through -/

abbrev rX : Rect S32x256x128 := Rect.unit (s := S32x256x128) ![0, 0, 0] S32x256x128.size inb_S32x256x128_S32x256x128_0_0_0
abbrev rG : Rect S128 := Rect.unit (s := S128) ![0] S128.size inb_S128_S128_0
abbrev rW : Rect S4x128 := Rect.unit (s := S4x128) ![0, 0] S4x128.size inb_S4x128_S4x128_0_0
abbrev rM : Rect S32x256 := Rect.unit (s := S32x256) ![0, 0] S32x256.size inb_S32x256_S32x256_0_0
abbrev rB : Rect S4x32x256 := Rect.unit (s := S4x32x256) ![0, 0, 0] S4x32x256.size inb_S4x32x256_S4x32x256_0_0_0

theorem zeros3 : (![0, 0, 0] : Fin 3 → Nat) = fun _ => 0 := by funext a; fin_cases a <;> rfl
theorem zeros2 : (![0, 0] : Fin 2 → Nat) = fun _ => 0 := by funext a; fin_cases a <;> rfl
theorem zeros1 : (![0] : Fin 1 → Nat) = fun _ => 0 := by funext a; fin_cases a <;> rfl

/-! ## What the body leaves in each output buffer -/

/-- The first output's buffer after the body: its one store, through the whole buffer. -/
def out0_5 (x0 : Vec F S32x256x128 .f32) (w bb : Vec F S128 .f32) : Vec F S32x256x128 .bf16 :=
  View.canon [⟨rX, k0_pay2 (View.ld x0 rX) (View.ld w rG) (View.ld bb rG)⟩]

/-- The second output's buffer after the body: its one store, through the whole buffer. -/
def out0_6 (x0 : Vec F S32x256x128 .f32) (w bb : Vec F S128 .f32) (wb : Vec F S4x128 .f32) (mk : Vec F S32x256 .f32) : Vec F S4x32x256 .f32 :=
  View.canon [⟨rB, k0_pay3 (View.ld x0 rX) (View.ld w rG) (View.ld bb rG) (View.ld wb rW) (View.ld mk rM)⟩]

/-- One store through the whole buffer leaves its payload, and a load through the whole buffer reads the contents:
    the first output is the normalised rows of the x block. -/
theorem out0_5_eq (x0 : Vec F S32x256x128 .f32) (w bb : Vec F S128 .f32) : out0_5 x0 w bb = xnStore x0 w bb := by
  unfold out0_5 xnStore
  rw [View.canon_unit_zero zeros3 inb_S32x256x128_S32x256x128_0_0_0, View.ld_unit_zero zeros3 inb_S32x256x128_S32x256x128_0_0_0,
    View.ld_unit_zero zeros1 inb_S128_S128_0, View.ld_unit_zero zeros1 inb_S128_S128_0]

/-- Likewise the second output is the pair bias of the block's rows with the mask block added. -/
theorem out0_6_eq (x0 : Vec F S32x256x128 .f32) (w bb : Vec F S128 .f32) (wb : Vec F S4x128 .f32) (mk : Vec F S32x256 .f32) :
    out0_6 x0 w bb wb mk = biasStore x0 w bb wb mk := by
  unfold out0_6 biasStore
  rw [View.canon_unit_zero zeros3 inb_S4x32x256_S4x32x256_0_0_0, View.ld_unit_zero zeros3 inb_S32x256x128_S32x256x128_0_0_0,
    View.ld_unit_zero zeros1 inb_S128_S128_0, View.ld_unit_zero zeros1 inb_S128_S128_0,
    View.ld_unit_zero zeros2 inb_S4x128_S4x128_0_0, View.ld_unit_zero zeros2 inb_S32x256_S32x256_0_0]

/-- Each store covers its buffer. -/
theorem cover0_5 (p0 : Vec F S32x256x128 .bf16) (y : S32x256x128.Idx) :
    ∃ pc ∈ ([⟨rX, p0⟩] : List (View.Piece (Elt F) S32x256x128 .bf16)), y ∈ pc.1.set :=
  ⟨_, List.mem_singleton_self _, View.mem_set_unit_zero zeros3 inb_S32x256x128_S32x256x128_0_0_0 y⟩
theorem cover0_6 (p0 : Vec F S4x32x256 .f32) (y : S4x32x256.Idx) :
    ∃ pc ∈ ([⟨rB, p0⟩] : List (View.Piece (Elt F) S4x32x256 .f32)), y ∈ pc.1.set :=
  ⟨_, List.mem_singleton_self _, View.mem_set_unit_zero zeros3 inb_S4x32x256_S4x32x256_0_0_0 y⟩

/-! ## The body's triple -/

set_option maxHeartbeats 4000000 in
/-- The kernel body on whole staging memrefs, the five inputs' at read contents and the two outputs' at anything, runs to
    the continuation holding the inputs' as they were and each output's at its store over the inputs. -/
theorem sound_kernel0 (c : Dev nD) (E : Set ℕ) (i : grid0.Coords)
    (arg1 : Memref sig .tc .vmem S32x256x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S4x128 .f32) (harg4 : arg4.IsWhole)
    (arg5 : Memref sig .tc .vmem S32x256 .f32) (harg5 : arg5.IsWhole) (arg6 : Memref sig .tc .vmem S32x256x128 .bf16) (harg6 : arg6.IsWhole)
    (arg7 : Memref sig .tc .vmem S4x32x256 .f32) (harg7 : arg7.IsWhole)
    (x0 : Vec F S32x256x128 .f32) (w bb : Vec F S128 .f32) (wb : Vec F S4x128 .f32) (mk : Vec F S32x256 .f32) (K : PUnit → sProp 𝕄) :
    iprop(owns (c : Thread nD τ) arg1 fullShare x0 ∗ owns (c : Thread nD τ) arg2 fullShare w ∗ owns (c : Thread nD τ) arg3 fullShare bb
        ∗ owns (c : Thread nD τ) arg4 fullShare wb ∗ owns (c : Thread nD τ) arg5 fullShare mk
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w ∗ owns (c : Thread nD τ) arg3 fullShare bb
            ∗ owns (c : Thread nD τ) arg4 fullShare wb ∗ owns (c : Thread nD τ) arg5 fullShare mk
            ∗ owns (c : Thread nD τ) arg6 fullShare (out0_5 x0 w bb) ∗ owns (c : Thread nD τ) arg7 fullShare (out0_6 x0 w bb wb mk)) -∗ K ⟨⟩))
      ⊢ wp frame (wpE (defs₀ (F := F)) Variants.none c none) E (cc0__ln_bias_kernel i arg1 harg1 arg2 harg2 arg3 harg3 arg4 harg4 arg5 harg5 arg6 harg6 arg7 harg7) K := by
  simp only [cc0__ln_bias_kernel_eq_skeleton]; unfold cc0__ln_bias_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_5 _)
  iexists _; isplitr
  swap; · iexact H7
  ipureintro
  exact View.read_writes_eq_canon _ _ _ (cover0_6 _)

/-! ## The pipeline's proof data -/

/-- An input window's current staging buffer holds its block at every point, fetched there or not, for any proof
    data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core c: the arrays as the region finds them; after the body at point t each
    input's buffer at its block, the first output's at the normalised rows of the x block and the second's at the pair
    bias of those rows with the mask block added; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => xnStore (iblk0 V c 0 t) (iblk0 V c 1 t) (iblk0 V c 2 t)
    | ⟨6, _⟩ => biasStore (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = xnStore (iblk0 V c 0 t) (iblk0 V c 1 t) (iblk0 V c 2 t) := by dsimp only [dat0]
theorem after0_6 (c : Dev nD) (t : Fin cfg0.N) :
    (dat0 V c).after 6 t = biasStore (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, ← out0_5_eq, ← out0_6_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Attn.KB

end
-- ==== Proof.KFrameBits1.lean ====
/-
  The second kernel region (gated attention of 8 batch rows, projected) at a parameter V, the contents of the core's
  buffers when the region is entered: each window's block at a grid point, what the body leaves in its output buffer
  as a function of the four input blocks (the stored term), the body's triple, the proof data and the body
  obligation at every point.
  This module is about the word-level program: the program as printed, read at any float instance. The argument is
  the one given for the idealized program, which has the same text.
-/
import proofs.«148970_j49744311222640_2_alg».proof.Proof.Gen.Kernel.Launch
import proofs.«148970_j49744311222640_2_alg».proof.Proof.Gen.Kernel.Skeleton
import proofs.«148970_j49744311222640_2_alg».proof.Proof.Gen.Kernel.Points
import proofs.«148970_j49744311222640_2_alg».proof.Proof.StoredBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Attn.KB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The whole-buffer rectangles the body loads and stores through -/

abbrev rRows : Rect S8x256x128 := Rect.unit (s := S8x256x128) ![0, 0, 0] S8x256x128.size inb_S8x256x128_S8x256x128_0_0_0
abbrev rBias : Rect S4x256x256 := Rect.unit (s := S4x256x256) ![0, 0, 0] S4x256x256.size inb_S4x256x256_S4x256x256_0_0_0
abbrev rWc : Rect S512x128 := Rect.unit (s := S512x128) ![0, 0] S512x128.size inb_S512x128_S512x128_0_0
abbrev rWo : Rect S128x128 := Rect.unit (s := S128x128) ![0, 0] S128x128.size inb_S128x128_S128x128_0_0

theorem zeros3' : (![0, 0, 0] : Fin 3 → Nat) = fun _ => 0 := by funext a; fin_cases a <;> rfl
theorem zeros2' : (![0, 0] : Fin 2 → Nat) = fun _ => 0 := by funext a; fin_cases a <;> rfl

/-! ## What the body leaves in the output buffer -/

/-- The output's buffer after the body: its one store, through the whole buffer. -/
def out1_4 (xb : Vec F S8x256x128 .bf16) (bs : Vec F S4x256x256 .f32) (wc : Vec F S512x128 .f32) (wo : Vec F S128x128 .f32) : Vec F S8x256x128 .f32 :=
  View.canon [⟨rRows, attnStore (View.ld xb rRows) (View.ld bs rBias) (View.ld wc rWc) (View.ld wo rWo)⟩]

/-- One store through the whole buffer leaves its payload, and a load through the whole buffer reads the contents. -/
theorem out1_4_eq (xb : Vec F S8x256x128 .bf16) (bs : Vec F S4x256x256 .f32) (wc : Vec F S512x128 .f32) (wo : Vec F S128x128 .f32) :
    out1_4 xb bs wc wo = attnStore xb bs wc wo := by
  unfold out1_4
  rw [View.canon_unit_zero zeros3' inb_S8x256x128_S8x256x128_0_0_0, View.ld_unit_zero zeros3' inb_S8x256x128_S8x256x128_0_0_0,
    View.ld_unit_zero zeros3' inb_S4x256x256_S4x256x256_0_0_0, View.ld_unit_zero zeros2' inb_S512x128_S512x128_0_0,
    View.ld_unit_zero zeros2' inb_S128x128_S128x128_0_0]

/-- The store covers the buffer. -/
theorem cover1_4 (p0 : Vec F S8x256x128 .f32) (y : S8x256x128.Idx) :
    ∃ pc ∈ ([⟨rRows, p0⟩] : List (View.Piece (Elt F) S8x256x128 .f32)), y ∈ pc.1.set :=
  ⟨_, List.mem_singleton_self _, View.mem_set_unit_zero zeros3' inb_S8x256x128_S8x256x128_0_0_0 y⟩

/-! ## The body's triple -/

set_option maxHeartbeats 4000000 in
/-- The kernel body on whole staging memrefs, the four inputs' at read contents and the output's at anything, runs to
    the continuation holding the inputs' as they were and the output's at its store over the inputs. -/
theorem sound_kernel1 (c : Dev nD) (E : Set ℕ) (i : grid1.Coords)
    (arg1 : Memref sig .tc .vmem S8x256x128 .bf16) (harg1 : arg1.IsWhole) (arg2 : Memref sig .tc .vmem S4x256x256 .f32) (harg2 : arg2.IsWhole)
    (arg3 : Memref sig .tc .vmem S512x128 .f32) (harg3 : arg3.IsWhole) (arg4 : Memref sig .tc .vmem S128x128 .f32) (harg4 : arg4.IsWhole)
    (arg5 : Memref sig .tc .vmem S8x256x128 .f32) (harg5 : arg5.IsWhole)
    (xb : Vec F S8x256x128 .bf16) (bs : Vec F S4x256x256 .f32) (wc : Vec F S512x128 .f32) (wo : Vec F S128x128 .f32) (K : PUnit → sProp 𝕄) :
    iprop(owns (c : Thread nD τ) arg1 fullShare xb ∗ owns (c : Thread nD τ) arg2 fullShare bs ∗ owns (c : Thread nD τ) arg3 fullShare wc ∗ owns (c : Thread nD τ) arg4 fullShare wo
        ∗ (∃ d, owns (c : Thread nD τ) arg5 fullShare d)
        ∗ (iprop(owns (c : Thread nD τ) arg1 fullShare xb ∗ owns (c : Thread nD τ) arg2 fullShare bs ∗ owns (c : Thread nD τ) arg3 fullShare wc ∗ owns (c : Thread nD τ) arg4 fullShare wo
            ∗ owns (c : Thread nD τ) arg5 fullShare (out1_4 xb bs wc wo)) -∗ K ⟨⟩))
      ⊢ wp frame (wpE (defs₀ (F := F)) Variants.none c none) E (cc1__attn_kernel i arg1 harg1 arg2 harg2 arg3 harg3 arg4 harg4 arg5 harg5) K := by
  simp only [cc1__attn_kernel_eq_skeleton]; unfold cc1__attn_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_4 _)

/-! ## The pipeline's proof data -/

/-- An input window's current staging buffer holds its block at every point, fetched there or not, for any proof
    data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core c: the arrays as the region finds them; after the body at point t each
    input's buffer at its block and the output's at the gated, projected attention of the block's 8 batch rows; the
    class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => attnStore (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = attnStore (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, ← out1_4_eq]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Attn.KB

end
-- ==== Proof.KFrameBitsCond.lean ====
/-
  The conditional run of the program with its result: the generated conditional frame's statement with one more
  conjunct, the result buffer's final contents read off the last boundary's contents, under the same hypotheses (one
  segment record per kernel region, entered from and left at the generated boundary contents): the last thread state is
  read at one more buffer.
  This module is about the word-level program: the program as printed, read at any float instance. The argument is
  the one given for the idealized program, which has the same text.
-/
import proofs.«148970_j49744311222640_2_alg».proof.Proof.Gen.Kernel.Regions

noncomputable section

namespace Cert.Attn.KB

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

set_option backward.isDefEq.respectTransparency.types false in
/-- Given, per region, a segment record entered from the boundary contents before it and left at those after it, every
    weakly fair execution of the program from memory m with zero counters terminates, and every final memory holds the
    result buffer at the last boundary's contents and each argument as launched. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v5) = V4 m outs c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => s.mem ((c.tc : Thread nD τ).loc main_v5) = V4 m outs c main_v5 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v5) (Finset.mem_filter.mpr ⟨StableHlo.devRef_mem_tcRefs main_v5, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_arg5) (Finset.mem_filter.mpr ⟨StableHlo.devRef_mem_tcRefs main_arg5, by decide⟩)).trans (V4_main_arg5 m outs c),
        (h (Proc.devRef .tc main_arg6) (Finset.mem_filter.mpr ⟨StableHlo.devRef_mem_tcRefs main_arg6, by decide⟩)).trans (V4_main_arg6 m outs c),
        (h (Proc.devRef .tc main_arg7) (Finset.mem_filter.mpr ⟨StableHlo.devRef_mem_tcRefs main_arg7, by decide⟩)).trans (V4_main_arg7 m outs c),
        (h (Proc.devRef .tc main_arg8) (Finset.mem_filter.mpr ⟨StableHlo.devRef_mem_tcRefs main_arg8, by decide⟩)).trans (V4_main_arg8 m outs c),
        (h (Proc.devRef .tc main_arg9) (Finset.mem_filter.mpr ⟨StableHlo.devRef_mem_tcRefs main_arg9, by decide⟩)).trans (V4_main_arg9 m outs c)⟩
    · iexact HSI

end Cert.Attn.KB

end
-- ==== Proof.KFrameBitsRun.lean ====
/-
  The run of the whole program through its two kernel regions: the contents of the core's buffers at each boundary
  (after the host stretch before the first region; after the first region, its two outputs written back; after the
  second region, its output written back), the proof data of both pipelines at those contents, each region as a
  segment over the thread state "every unscoped buffer at the boundary's contents, the generator register at some
  state, nothing owed", and the frame claim from the conditional frame of the generated Regions module.
  This module is about the word-level program: the program as printed, read at any float instance. The argument is
  the one given for the idealized program, which has the same text.
-/
import proofs.«148970_j49744311222640_2_alg».proof.Proof.KFrameBits0
import proofs.«148970_j49744311222640_2_alg».proof.Proof.KFrameBits1
import proofs.«148970_j49744311222640_2_alg».proof.Proof.Gen.Kernel.Regions
import proofs.«148970_j49744311222640_2_alg».proof.Proof.KFrameBitsCond

set_option maxRecDepth 16384

noncomputable section

namespace Cert.Attn.KB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- What the first region is entered from, at the TensorCore's references: the launch memory after the first host stretch. -/
abbrev enter0 : (c : Dev nD) → (b : Ref sig .tc) → Buf (Elt F) ((c : Thread nD τ).loc b) := fun c b => V1 m c b

/-- The normalised rows as the first region leaves them: every point's store written back. -/
def xnArr (c : Dev nD) : Buf (Elt F) ((c : Thread nD τ).loc main_v3_0) := (dat0 (enter0 m) c).arrAt 5 cfg0.N
/-- The pair bias as the first region leaves it. -/
def biasArr (c : Dev nD) : Buf (Elt F) ((c : Thread nD τ).loc main_v3_1) := (dat0 (enter0 m) c).arrAt 6 cfg0.N

/-- The buffers at the first region's exit: its two outputs at what it leaves, every other buffer as entered. -/
def leave0 (c : Dev nD) : Valuation τ sig (Elt F) :=
  Function.update (Function.update (V1 m c) main_v3_0 (xnArr m c)) main_v3_1 (biasArr m c)

/-- What the second region is entered from, at the TensorCore's references: the first region's exit contents. -/
abbrev enter1 : (c : Dev nD) → (b : Ref sig .tc) → Buf (Elt F) ((c : Thread nD τ).loc b) := fun c b => leave0 m c b

/-- The attention output as the second region leaves it. -/
def attnArr (c : Dev nD) : Buf (Elt F) ((c : Thread nD τ).loc main_v4) := (dat1 (enter1 m) c).arrAt 4 cfg1.N

/-- The buffers at the second region's exit: its output at what it leaves, every other buffer as entered. -/
def leave1 (c : Dev nD) : Valuation τ sig (Elt F) := Function.update (leave0 m c) main_v4 (attnArr m c)

/-- At the first region's exit: the two outputs, -/
theorem leave0_v3_0 (c : Dev nD) : leave0 m c main_v3_0 = xnArr m c := by
  unfold leave0
  rw [Function.update_of_ne (StableHlo.devRef_ne_of_ne (by decide) : (Proc.devRef .tc main_v3_0 : DevRef τ sig) ≠ Proc.devRef .tc main_v3_1), Function.update_self]
theorem leave0_v3_1 (c : Dev nD) : leave0 m c main_v3_1 = biasArr m c := by
  unfold leave0; rw [Function.update_self]
/-- and every other buffer as entered. -/
theorem leave0_of_ne (c : Dev nD) (b : Ref sig .tc) (h0 : b ≠ main_v3_0) (h1 : b ≠ main_v3_1) : leave0 m c b = V1 m c b := by
  unfold leave0
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]
/-- At the second region's exit: its output, -/
theorem leave1_v4 (c : Dev nD) : leave1 m c main_v4 = attnArr m c := by
  unfold leave1; rw [Function.update_self]
/-- and every other buffer as entered. -/
theorem leave1_of_ne (c : Dev nD) (b : Ref sig .tc) (h : b ≠ main_v4) : leave1 m c b = leave0 m c b := by
  unfold leave1
  rw [Function.update_of_ne (StableHlo.devRef_ne_of_ne h : (Proc.devRef .tc b : DevRef τ sig) ≠ Proc.devRef .tc main_v4)]

/-- What the regions leave in the buffers they may change, for the generated boundary contents: the exit contents above. -/
def outs : Outs (F := F) := fun _ r c => leave1 m c r

/-- The generated contents after the first region are its exit contents, -/
theorem V2_eq (c : Dev nD) : V2 m (outs m) c = leave0 m c := by
  show Function.update (Function.update (V1 m c) main_v3_0 (leave1 m c main_v3_0)) main_v3_1 (leave1 m c main_v3_1) = leave0 m c
  rw [leave1_of_ne m c main_v3_0 (by decide), leave1_of_ne m c main_v3_1 (by decide), leave0_v3_0, leave0_v3_1]; rfl
/-- and after the second region, its exit contents. -/
theorem V3_eq (c : Dev nD) : V3 m (outs m) c = leave1 m c := by
  show Function.update (V2 m (outs m) c) main_v4 (leave1 m c main_v4) = leave1 m c
  rw [V2_eq, leave1_v4]; rfl

/-- The program's result: the one host operation after the regions, a broadcast into a leading axis of length one,
    applied to the attention output. -/
def resultArr (c : Dev nD) : Buf (Elt F) ((c : Thread nD τ).loc main_v5) :=
  (broadcastInDim S1x256x256x128 ![1, 2, 3] bcast_S256x256x128_S1x256x256x128_1_2_3 : (⟨S256x256x128, .f32⟩ : BufTy).Contents (Elt F) → (⟨S1x256x256x128, .f32⟩ : BufTy).Contents (Elt F)) (attnArr m c)

/-- The last generated contents hold the result in the result's buffer. -/
theorem V4_main_v5 (c : Dev nD) : V4 m (outs m) c main_v5 = resultArr m c := by
  show StableHlo.after [StableHlo.unary main_v4 main_v5 _] (V3 m (outs m) c) main_v5 = resultArr m c
  rw [StableHlo.after_cons, StableHlo.after_nil, StableHlo.unary_result, V3_eq, leave1_v4]; rfl

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (enter0 m) c
  | ⟨1, _⟩ => fun c => dat1 (enter1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)

/-- At the first region's exit each of its arrays holds what the pipeline leaves — an input what it held at entry, an
    output its write-backs — -/
theorem hF0 (c : Dev nD) (w : Fin cfg0.W) : (dat0 (enter0 m) c).arrAt w cfg0.N = enter1 m c (Pipeline.arrRef spec0 w) := by
  fin_cases w
  · exact ((dat0 (enter0 m) c).arrAt_in 0 rfl _).trans ((A_eq0 (enter0 m) c 0).trans (leave0_of_ne m c _ (by decide) (by decide)).symm)
  · exact ((dat0 (enter0 m) c).arrAt_in 1 rfl _).trans ((A_eq0 (enter0 m) c 1).trans (leave0_of_ne m c _ (by decide) (by decide)).symm)
  · exact ((dat0 (enter0 m) c).arrAt_in 2 rfl _).trans ((A_eq0 (enter0 m) c 2).trans (leave0_of_ne m c _ (by decide) (by decide)).symm)
  · exact ((dat0 (enter0 m) c).arrAt_in 3 rfl _).trans ((A_eq0 (enter0 m) c 3).trans (leave0_of_ne m c _ (by decide) (by decide)).symm)
  · exact ((dat0 (enter0 m) c).arrAt_in 4 rfl _).trans ((A_eq0 (enter0 m) c 4).trans (leave0_of_ne m c _ (by decide) (by decide)).symm)
  · exact (leave0_v3_0 m c).symm
  · exact (leave0_v3_1 m c).symm
/-- and every other buffer what it held at entry. -/
theorem hrest0 (c : Dev nD) : ∀ b, b ∉ Finset.univ.image (Pipeline.arrRef spec0) → enter1 m c b = enter0 m c b :=
  fun b hb => leave0_of_ne m c b (fun h => hb (h ▸ Finset.mem_image.mpr ⟨5, Finset.mem_univ _, rfl⟩))
    (fun h => hb (h ▸ Finset.mem_image.mpr ⟨6, Finset.mem_univ _, rfl⟩))

/-- The buffers at the second region's exit, at the TensorCore's references. -/
abbrev exit1 : (c : Dev nD) → (b : Ref sig .tc) → Buf (Elt F) ((c : Thread nD τ).loc b) := fun c b => leave1 m c b

/-- Likewise at the second region's exit. -/
theorem hF1 (c : Dev nD) (w : Fin cfg1.W) : (dat1 (enter1 m) c).arrAt w cfg1.N = exit1 m c (Pipeline.arrRef spec1 w) := by
  fin_cases w
  · exact ((dat1 (enter1 m) c).arrAt_in 0 rfl _).trans ((A_eq1 (enter1 m) c 0).trans (leave1_of_ne m c _ (by decide)).symm)
  · exact ((dat1 (enter1 m) c).arrAt_in 1 rfl _).trans ((A_eq1 (enter1 m) c 1).trans (leave1_of_ne m c _ (by decide)).symm)
  · exact ((dat1 (enter1 m) c).arrAt_in 2 rfl _).trans ((A_eq1 (enter1 m) c 2).trans (leave1_of_ne m c _ (by decide)).symm)
  · exact ((dat1 (enter1 m) c).arrAt_in 3 rfl _).trans ((A_eq1 (enter1 m) c 3).trans (leave1_of_ne m c _ (by decide)).symm)
  · exact (leave1_v4 m c).symm
theorem hrest1 (c : Dev nD) : ∀ b, b ∉ Finset.univ.image (Pipeline.arrRef spec1) → exit1 m c b = enter1 m c b :=
  fun b hb => leave1_of_ne m c b (fun h => hb (h ▸ Finset.mem_image.mpr ⟨4, Finset.mem_univ _, rfl⟩))

/-! ## The regions as segments -/

set_option backward.isDefEq.respectTransparency.types false in
/-- Region 0 over the thread state: its arrays split out of the unscoped buffers at the entry contents and put back at the
    exit contents; the generator register into the class invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (enter0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (leave0 m c) ∗ R c)
  X c := iprop(∃ r, prngReg c r)
  Y c := iprop(∃ r, prngReg c r)
  Z c := Pipeline.unscopedRest (Ix := Unit) (Name := ℕ) (U := UR sig nD τ) (Lvl := ℕ) spec0 c (enter0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (enter0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (enter0 m c) (enter1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at the entry contents and put back at the
    exit contents; the generator register into the class invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (enter1 m) c).loose
  hwaits := Pipeline.hwaits_of_owed_zero _ _ _ _ L lv 1 fun _ _ => rfl
  pre c := iprop(StableHlo.held (c : Thread nD τ) (Pipeline.ucRefs τ sig) (leave0 m c) ∗ R c)
  post c := iprop(StableHlo.held (c : Thread nD τ) (Pipeline.ucRefs τ sig) (leave1 m c) ∗ R c)
  X c := iprop(∃ r, prngReg c r)
  Y c := iprop(∃ r, prngReg c r)
  Z c := Pipeline.unscopedRest (Ix := Unit) (Name := ℕ) (U := UR sig nD τ) (Lvl := ℕ) spec1 c (enter1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (enter1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (enter1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side of the conditional frame -/

/-- The launch element yields the pipeline library's at every staging cell, and nothing per core. -/
theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the state that rides along: the generator register and the dues, at nothing. -/
theorem launch_rest : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-! ## The frame, and the run with its result -/

set_option backward.isDefEq.respectTransparency.types false in
/-- THE FRAME: from any memory with zero counters every weakly fair execution of the program terminates, nothing
    faulting, and every final memory holds the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) launch_own
    (fun _ c => R c) (launch_rest ρ) (fun c => by iintro ⟨-, H⟩; iexact H)
    (reg0 m) (fun c => .rfl) (fun c => by rw [V2_eq]; exact .rfl)
    (reg1 m) (fun c => by rw [V2_eq]; exact .rfl) (fun c => by rw [V3_eq]; exact .rfl)

set_option backward.isDefEq.respectTransparency.types false in
/-- THE RUN WITH ITS RESULT: moreover every final memory holds, in the result's buffer, the broadcast of the attention
    output the second region leaves. -/
theorem run_value : θ_run defs (onTc (τ := τ) (main (F := F))) ⟨m, fun _ => 0, ρ⟩ (fun r => ∀ c : Dev nD,
      r.2.mem ((c.tc : Thread nD τ).loc main_v5) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have h := run_cond m emb₁ () 𝒱₀ L lv (fun _ _ => rfl) ρ (outs m) (pdats m) 0 (fun _ => (BI.emp : sProp 𝕄))
    (initOf (Pipeline.cells cfgs cellOf_inj) (Pipeline.launchToks cfgs cellOf_inj)) launch_own
    (fun _ c => R c) (launch_rest ρ) (fun c => by iintro ⟨-, H⟩; iexact H)
    (reg0 m) (fun c => .rfl) (fun c => by rw [V2_eq]; exact .rfl)
    (reg1 m) (fun c => by rw [V2_eq]; exact .rfl) (fun c => by rw [V3_eq]; exact .rfl)
  exact (θ_run defs _ _).mono (fun r hr c => ⟨(hr c).1.trans (V4_main_v5 m c), (hr c).2⟩) h

end Cert.Attn.KB

end
-- ==== Proof.Spec.lean ====
/-
  The function both programs compute, written twice: once in the kernel's arrangement and once in the reference's.

  Data: a pair representation x[b,q,d] (256 x 256 rows of 128 features), an additive mask[q,k], layer-norm gain and
  shift, a bias projection Wb[h,d] (4 heads) and five 128 x 128 weight matrices. Every row x[b,q,:] is layer-normalised
  (mean and variance over its 128 features, inverse root of variance + eps, gain, shift). From the normalised rows:
  a pair bias  bias[h,q,k] = sum_d Wb[h,d] * xn[q,k,d];  per "batch row" b the projections Q, K, V, G of its 256
  normalised rows; per head h (feature columns 32h .. 32h+31) scores over key positions k, a softmax over k, the
  mix of the value rows; a logistic gate; the output projection.

  The two arrangements differ in three places only.
  * the score: the kernel scales Q before the product and adds (bias + mask) as one term; the reference scales the
    product and adds bias, then mask;
  * the softmax: the kernel mixes the unnormalised weights exp(s - max) with V and divides the 32-wide result by
    their total; the reference divides each weight by the total, then mixes (and takes max(-inf, rowmax));
  * the gate: one logistic against 1 / (1 + exp(-g)) spelt with the float word for 1.
  Sums are plain finite sums, a row maximum is the fold of max from the word for -inf: the forms the vector unit's
  and the host's reductions read as on the extended reals.
-/
import Idealize.ShloMosaic.PureOps.Ideal
import Idealize.ShloMosaic.Lib.ValueIdx

noncomputable section

open scoped BigOperators

namespace Cert.Attn

open Idealize.ShloMosaic

/-! ## The float words both programs carry -/

/-- 128.0, the row length the mean and the variance divide by. -/
abbrev c128 : EReal := Ideal.ofBits .f32 0x43000000#32
/-- The layer norm's epsilon (the float nearest 1e-5). -/
abbrev cEps : EReal := Ideal.ofBits .f32 0x3727C5AC#32
/-- The score scale (the float nearest 1/sqrt 32). -/
abbrev cScale : EReal := Ideal.ofBits .f32 0x3E3504F3#32
/-- Minus infinity, the value a row maximum is folded from. -/
abbrev cNegInf : EReal := Ideal.ofBits .f32 0xFF800000#32
/-- 1.0. -/
abbrev cOne : EReal := Ideal.ofBits .f32 0x3F800000#32

/-- Feature column `32 h + d`: head `h`'s `d`-th feature. -/
def hd (h : Fin 4) (d : Fin 32) : Fin 128 := ⟨32 * h.val + d.val, by omega⟩
/-- The head a feature column belongs to. -/
def hOf (e : Fin 128) : Fin 4 := ⟨e.val / 32, by omega⟩
/-- A feature column's position inside its head. -/
def dOf (e : Fin 128) : Fin 32 := ⟨e.val % 32, by omega⟩

/-! ## Layer normalisation of one row of 128 features -/

def rowMean (r : Fin 128 → EReal) : EReal := Ideal.div (∑ k, r k) c128

def rowVar (r : Fin 128 → EReal) : EReal :=
  Ideal.div (∑ k, (r k - rowMean r) * (r k - rowMean r)) c128

/-- (r d - mean) * rsqrt (var + eps) * gain d + shift d. -/
def lnRow (r lw lb : Fin 128 → EReal) (d : Fin 128) : EReal :=
  (r d - rowMean r) * Ideal.rsqrt (rowVar r + cEps) * lw d + lb d

/-! ## Pieces shared by the two arrangements -/

/-- Row `q` of a block of 256 normalised rows against row `e` of a weight matrix: sum_d xr q d * W e d. -/
def proj (xr : Fin 256 → Fin 128 → EReal) (W : Fin 128 → Fin 128 → EReal) (q : Fin 256) (e : Fin 128) : EReal :=
  ∑ d, xr q d * W e d

/-- The pair bias: sum_d Wb h d * xn q k d. -/
def pairBias (xn : Fin 256 → Fin 256 → Fin 128 → EReal) (Wb : Fin 4 → Fin 128 → EReal) (h : Fin 4) (q k : Fin 256) : EReal :=
  ∑ d, Wb h d * xn q k d

/-- A row maximum over 256 key positions: the fold of max from minus infinity. -/
def rowMax (s : Fin 256 → EReal) : EReal := (Finset.univ : Finset (Fin 256)).fold max cNegInf s

/-! ## The kernel's arrangement -/

/-- Scores with Q scaled before the product and one additive term `bm` (bias with the mask folded in). -/
def scoreK (xr : Fin 256 → Fin 128 → EReal) (Wq Wk : Fin 128 → Fin 128 → EReal) (bm : Fin 4 → Fin 256 → Fin 256 → EReal)
    (h : Fin 4) (q k : Fin 256) : EReal :=
  (∑ d : Fin 32, (proj xr Wq q (hd h d) * cScale) * proj xr Wk k (hd h d)) + bm h q k

/-- Unnormalised weights mixed with V, then one division by their total. -/
def headK (xr : Fin 256 → Fin 128 → EReal) (Wq Wk Wv : Fin 128 → Fin 128 → EReal) (bm : Fin 4 → Fin 256 → Fin 256 → EReal)
    (h : Fin 4) (q : Fin 256) (d : Fin 32) : EReal :=
  Ideal.div
    (∑ k, Ideal.exp (scoreK xr Wq Wk bm h q k - rowMax (scoreK xr Wq Wk bm h q)) * proj xr Wv k (hd h d))
    (∑ k, Ideal.exp (scoreK xr Wq Wk bm h q k - rowMax (scoreK xr Wq Wk bm h q)))

/-- One batch row's output at query `q`, output feature `f`: heads laid side by side, gated, projected. -/
def attnK (xr : Fin 256 → Fin 128 → EReal) (Wq Wk Wv Wg Wo : Fin 128 → Fin 128 → EReal) (bm : Fin 4 → Fin 256 → Fin 256 → EReal)
    (q : Fin 256) (f : Fin 128) : EReal :=
  ∑ e : Fin 128, (headK xr Wq Wk Wv bm (hOf e) q (dOf e) * Ideal.logistic (proj xr Wg q e)) * Wo f e

/-- The kernel's whole function of the argument arrays. -/
def GK (x : Fin 256 → Fin 256 → Fin 128 → EReal) (mask : Fin 256 → Fin 256 → EReal) (lw lb : Fin 128 → EReal)
    (Wb : Fin 4 → Fin 128 → EReal) (Wq Wk Wv Wg Wo : Fin 128 → Fin 128 → EReal) (b q : Fin 256) (f : Fin 128) : EReal :=
  attnK (fun q' d => lnRow (x b q') lw lb d) Wq Wk Wv Wg Wo
    (fun h q' k => pairBias (fun b' q'' d => lnRow (x b' q'') lw lb d) Wb h q' k + mask q' k) q f

/-! ## The reference's arrangement -/

def scoreR (xr : Fin 256 → Fin 128 → EReal) (Wq Wk : Fin 128 → Fin 128 → EReal) (bias : Fin 4 → Fin 256 → Fin 256 → EReal)
    (mask : Fin 256 → Fin 256 → EReal) (h : Fin 4) (q k : Fin 256) : EReal :=
  ((∑ d : Fin 32, proj xr Wq q (hd h d) * proj xr Wk k (hd h d)) * cScale + bias h q k) + mask q k

/-- The reference's row maximum: max (-inf) (fold of max from -inf). -/
def maxR (s : Fin 256 → EReal) : EReal := max cNegInf (rowMax s)

def headR (xr : Fin 256 → Fin 128 → EReal) (Wq Wk Wv : Fin 128 → Fin 128 → EReal) (bias : Fin 4 → Fin 256 → Fin 256 → EReal)
    (mask : Fin 256 → Fin 256 → EReal) (h : Fin 4) (q : Fin 256) (d : Fin 32) : EReal :=
  ∑ k, Ideal.div (Ideal.exp (scoreR xr Wq Wk bias mask h q k - maxR (scoreR xr Wq Wk bias mask h q)))
        (∑ k', Ideal.exp (scoreR xr Wq Wk bias mask h q k' - maxR (scoreR xr Wq Wk bias mask h q)))
      * proj xr Wv k (hd h d)

def attnR (xr : Fin 256 → Fin 128 → EReal) (Wq Wk Wv Wg Wo : Fin 128 → Fin 128 → EReal) (bias : Fin 4 → Fin 256 → Fin 256 → EReal)
    (mask : Fin 256 → Fin 256 → EReal) (q : Fin 256) (f : Fin 128) : EReal :=
  ∑ e : Fin 128, (headR xr Wq Wk Wv bias mask (hOf e) q (dOf e)
      * Ideal.div cOne (cOne + Ideal.exp (-(proj xr Wg q e)))) * Wo f e

/-- The reference's whole function of the argument arrays. -/
def GR (x : Fin 256 → Fin 256 → Fin 128 → EReal) (mask : Fin 256 → Fin 256 → EReal) (lw lb : Fin 128 → EReal)
    (Wb : Fin 4 → Fin 128 → EReal) (Wq Wk Wv Wg Wo : Fin 128 → Fin 128 → EReal) (b q : Fin 256) (f : Fin 128) : EReal :=
  attnR (fun q' d => lnRow (x b q') lw lb d) Wq Wk Wv Wg Wo
    (pairBias (fun b' q'' d => lnRow (x b' q'') lw lb d) Wb) mask q f

end Cert.Attn

end
-- ==== Proof.RefValueNorm.lean ====
/-
  The reference's layer normalisation read one row at a time: the array the reference normalises into holds, at
  (b, q, d), the normalised row `lnRow` of row (b, q) of the input, at feature d. The mean and the variance are each a
  sum over the 128 features started from the zero word, divided by the word for 128.
-/
import proofs.«148970_j49744311222640_2_alg».proof.Proof.Gen.ReferenceIdeal.Read
import proofs.«148970_j49744311222640_2_alg».proof.Proof.Spec

noncomputable section

open scoped BigOperators

namespace Cert.Attn.Ref

open Idealize.ShloMosaic Idealize.ShloMosaic.ValueIdx Cert.ReferenceIdeal Cert.ReferenceIdeal.Read

/-! ## The argument arrays as functions of their coordinates -/

/-- The input array without its leading unit axis: (b, q, d) ↦ entry (0, b, q, d). -/
abbrev arr3 (x0 : (⟨S1x256x256x128, .f32⟩ : BufTy).Contents (Elt Ideal)) : Fin 256 → Fin 256 → Fin 128 → EReal :=
  fun b q d => x0 (ix4 (0 : Fin 1) b q d)

/-- The mask without its two leading unit axes. -/
abbrev mask2 (x1 : (⟨S1x1x256x256, .f32⟩ : BufTy).Contents (Elt Ideal)) : Fin 256 → Fin 256 → EReal :=
  fun q k => x1 (ix4 (0 : Fin 1) (0 : Fin 1) q k)

/-- A rank-1 array as a function of its one coordinate. -/
abbrev vec1 (v : (⟨S128, .f32⟩ : BufTy).Contents (Elt Ideal)) : Fin 128 → EReal := fun d => v (ix1 d)

/-- The bias projection's 4 x 128 matrix as a function of row and column. -/
abbrev matB (w : (⟨S4x128, .f32⟩ : BufTy).Contents (Elt Ideal)) : Fin 4 → Fin 128 → EReal := fun h d => w (ix2 h d)

/-- A 128 x 128 weight matrix as a function of row and column. -/
abbrev matW (w : (⟨S128x128, .f32⟩ : BufTy).Contents (Elt Ideal)) : Fin 128 → Fin 128 → EReal := fun e d => w (ix2 e d)

/-- Every normalised row: (b, q, d) ↦ the layer norm of input row (b, q) at feature d. -/
abbrev xnAll (x0 : (⟨S1x256x256x128, .f32⟩ : BufTy).Contents (Elt Ideal)) (x2 x3 : (⟨S128, .f32⟩ : BufTy).Contents (Elt Ideal)) :
    Fin 256 → Fin 256 → Fin 128 → EReal :=
  fun b q d => lnRow (arr3 x0 b q) (vec1 x2) (vec1 x3) d

/-- The 256 normalised rows of batch row b. -/
abbrev xnB (x0 : (⟨S1x256x256x128, .f32⟩ : BufTy).Contents (Elt Ideal)) (x2 x3 : (⟨S128, .f32⟩ : BufTy).Contents (Elt Ideal))
    (b : Fin 256) : Fin 256 → Fin 128 → EReal :=
  fun q d => lnRow (arr3 x0 b q) (vec1 x2) (vec1 x3) d

/-! ## The normalisation -/

variable (x0 : (⟨S1x256x256x128, .f32⟩ : BufTy).Contents (Elt Ideal))
  (x2 x3 : (⟨S128, .f32⟩ : BufTy).Contents (Elt Ideal))

/-- Dropping the leading unit axis: entry (b, q, d) of the reshaped input is entry (0, b, q, d). -/
theorem v0_at (b q : Fin 256) (d : Fin 128) :
    val_main_v0 (F := Ideal) x0 (ix3 b q d) = arr3 x0 b q d := by
  rw [val_main_v0_apply]
  refine congrArg x0 (funext fun a => Fin.ext ?_)
  have hb := b.isLt
  have hq := q.isLt
  have hd := d.isLt
  match a with
  | ⟨0, _⟩ => rfl
  | ⟨1, _⟩ => show ((b.val * 256 + q.val) * 128 + d.val) / 32768 % 256 = b.val; omega
  | ⟨2, _⟩ => show ((b.val * 256 + q.val) * 128 + d.val) / 128 % 256 = q.val; omega
  | ⟨3, _⟩ => show ((b.val * 256 + q.val) * 128 + d.val) % 128 = d.val; omega

/-- The mean of row (b, q). -/
theorem mean_at (b q : Fin 256) :
    val_main_v4 (F := Ideal) x0 (ix3 b q (0 : Fin 1)) = rowMean (arr3 x0 b q) := by
  rw [val_main_v4_apply, val_main_v2_apply, val_main_v3_apply, val_main_cst_0_apply, val_main_v1_apply, val_main_cst_apply]
  simp only [Ideal.hostDivf_def, Ideal.ofBits_def, Ideal.ofBits_zero_f32, zero_add]
  unfold rowMean
  refine congrArg (fun s => Ideal.div s c128) (Finset.sum_congr rfl fun k _ => ?_)
  exact (congrArg (val_main_v0 (F := Ideal) x0)
    (funext fun a => Fin.ext (by match a with | ⟨0, _⟩ => rfl | ⟨1, _⟩ => rfl | ⟨2, _⟩ => rfl))).trans (v0_at x0 b q k)

/-- The centred entry: the input minus its row's mean (the reference forms it twice, once for the variance, once for the result). -/
theorem v6_at (b q : Fin 256) (d : Fin 128) :
    val_main_v6 (F := Ideal) x0 (ix3 b q d) = arr3 x0 b q d - rowMean (arr3 x0 b q) := by
  rw [val_main_v6_apply, val_main_v5_apply, v0_at]
  simp only [Ideal.subf_def]
  refine congrArg (fun s => arr3 x0 b q d - s) ?_
  exact (congrArg (val_main_v4 (F := Ideal) x0)
    (funext fun a => Fin.ext (by match a with | ⟨0, _⟩ => rfl | ⟨1, _⟩ => rfl | ⟨2, _⟩ => rfl))).trans (mean_at x0 b q)

theorem v13_at (b q : Fin 256) (d : Fin 128) :
    val_main_v13 (F := Ideal) x0 (ix3 b q d) = arr3 x0 b q d - rowMean (arr3 x0 b q) := by
  rw [val_main_v13_apply, val_main_v12_apply, v0_at]
  simp only [Ideal.subf_def]
  refine congrArg (fun s => arr3 x0 b q d - s) ?_
  exact (congrArg (val_main_v4 (F := Ideal) x0)
    (funext fun a => Fin.ext (by match a with | ⟨0, _⟩ => rfl | ⟨1, _⟩ => rfl | ⟨2, _⟩ => rfl))).trans (mean_at x0 b q)

/-- The variance of row (b, q). -/
theorem var_at (b q : Fin 256) :
    val_main_v11 (F := Ideal) x0 (ix3 b q (0 : Fin 1)) = rowVar (arr3 x0 b q) := by
  rw [val_main_v11_apply, val_main_v9_apply, val_main_v10_apply, val_main_cst_2_apply, val_main_v8_apply, val_main_cst_1_apply]
  simp only [Ideal.hostDivf_def, Ideal.ofBits_def, Ideal.ofBits_zero_f32, zero_add]
  unfold rowVar
  refine congrArg (fun s => Ideal.div s c128) (Finset.sum_congr rfl fun k _ => ?_)
  have e : idx_main_v8 (idx_main_v9 (ix3 b q (0 : Fin 1))) k = ix3 b q k :=
    funext fun a => Fin.ext (by match a with | ⟨0, _⟩ => rfl | ⟨1, _⟩ => rfl | ⟨2, _⟩ => rfl)
  rw [e, val_main_v7_apply, v6_at]
  rfl

/-- The normalised row: entry (b, q, d) of the array every projection reads. -/
theorem xn_at (b q : Fin 256) (d : Fin 128) :
    val_main_v24 (F := Ideal) x0 x2 x3 (ix3 b q d) = lnRow (arr3 x0 b q) (vec1 x2) (vec1 x3) d := by
  rw [val_main_v24_apply, val_main_v21_apply, val_main_v18_apply, v13_at, val_main_v17_apply, val_main_v16_apply,
    val_main_v15_apply, val_main_v14_apply, val_main_cst_3_apply, val_main_v20_apply, val_main_v19_apply,
    val_main_v23_apply, val_main_v22_apply]
  have e17 : idx_main_v17 (ix3 b q d) = ix3 b q (0 : Fin 1) :=
    funext fun a => Fin.ext (by match a with | ⟨0, _⟩ => rfl | ⟨1, _⟩ => rfl | ⟨2, _⟩ => rfl)
  have e19 : idx_main_v19 (idx_main_v20 (ix3 b q d)) = ix1 d :=
    funext fun a => Fin.ext (by match a with | ⟨0, _⟩ => rfl)
  have e22 : idx_main_v22 (idx_main_v23 (ix3 b q d)) = ix1 d :=
    funext fun a => Fin.ext (by match a with | ⟨0, _⟩ => rfl)
  rw [e17, var_at, e19, e22]
  simp only [Ideal.addf_def, Ideal.mulf_def, Ideal.hostUnary_rsqrt_def, Ideal.ofBits_def]
  rfl

end Cert.Attn.Ref

end
-- ==== Proof.RefValueProj.lean ====
/-
  The reference's six contractions of the normalised rows read at an index: the pair bias (the 4 x 128 matrix against
  every normalised row) and, for each of the four 128 x 128 weight matrices, row q of batch row b against row e of the
  matrix. For Q, K and V the 128 output features are then split into 4 heads of 32 and the head axis is moved in front of
  the row axis: entry (b, h, q, d) of the result is feature column 32 h + d of the projection of row (b, q).
-/
import proofs.«148970_j49744311222640_2_alg».proof.Proof.RefValueNorm

noncomputable section

open scoped BigOperators

namespace Cert.Attn.Ref

open Idealize.ShloMosaic Idealize.ShloMosaic.ValueIdx Cert.ReferenceIdeal Cert.ReferenceIdeal.Read

variable (x0 : (⟨S1x256x256x128, .f32⟩ : BufTy).Contents (Elt Ideal))
  (x2 x3 : (⟨S128, .f32⟩ : BufTy).Contents (Elt Ideal)) (x4 : (⟨S4x128, .f32⟩ : BufTy).Contents (Elt Ideal))
  (w : (⟨S128x128, .f32⟩ : BufTy).Contents (Elt Ideal))

/-- The pair bias at (h, q, k): the bias matrix's row h against the normalised row (q, k). -/
theorem bias_at (h : Fin 4) (q k : Fin 256) :
    val_main_v25 (F := Ideal) x0 x2 x3 x4 (ix3 h q k) = pairBias (xnAll x0 x2 x3) (matB x4) h q k := by
  rw [val_main_v25_apply]
  unfold pairBias
  refine Finset.sum_congr rfl fun d _ => ?_
  have el : lidx_main_v25 (ix3 h q k) d = ix2 h d :=
    funext fun a => Fin.ext (by match a with | ⟨0, _⟩ => rfl | ⟨1, _⟩ => rfl)
  have er : ridx_main_v25 (ix3 h q k) d = ix3 q k d :=
    funext fun a => Fin.ext (by match a with | ⟨0, _⟩ => rfl | ⟨1, _⟩ => rfl | ⟨2, _⟩ => rfl)
  rw [el, er, xn_at]

/-- The Q projection before the split into heads. -/
theorem v27_at (b q : Fin 256) (e : Fin 128) :
    val_main_v27 (F := Ideal) x0 x2 x3 w (ix3 b q e) = proj (xnB x0 x2 x3 b) (matW w) q e := by
  rw [val_main_v27_apply]
  unfold proj
  refine Finset.sum_congr rfl fun d _ => ?_
  have el : lidx_main_v27 (ix3 b q e) d = ix3 b q d :=
    funext fun a => Fin.ext (by match a with | ⟨0, _⟩ => rfl | ⟨1, _⟩ => rfl | ⟨2, _⟩ => rfl)
  have er : ridx_main_v27 (ix3 b q e) d = ix2 e d :=
    funext fun a => Fin.ext (by match a with | ⟨0, _⟩ => rfl | ⟨1, _⟩ => rfl)
  rw [el, er, xn_at]

/-- The K projection before the split into heads. -/
theorem v30_at (b q : Fin 256) (e : Fin 128) :
    val_main_v30 (F := Ideal) x0 x2 x3 w (ix3 b q e) = proj (xnB x0 x2 x3 b) (matW w) q e := by
  rw [val_main_v30_apply]
  unfold proj
  refine Finset.sum_congr rfl fun d _ => ?_
  have el : lidx_main_v30 (ix3 b q e) d = ix3 b q d :=
    funext fun a => Fin.ext (by match a with | ⟨0, _⟩ => rfl | ⟨1, _⟩ => rfl | ⟨2, _⟩ => rfl)
  have er : ridx_main_v30 (ix3 b q e) d = ix2 e d :=
    funext fun a => Fin.ext (by match a with | ⟨0, _⟩ => rfl | ⟨1, _⟩ => rfl)
  rw [el, er, xn_at]

/-- The V projection before the split into heads. -/
theorem v33_at (b q : Fin 256) (e : Fin 128) :
    val_main_v33 (F := Ideal) x0 x2 x3 w (ix3 b q e) = proj (xnB x0 x2 x3 b) (matW w) q e := by
  rw [val_main_v33_apply]
  unfold proj
  refine Finset.sum_congr rfl fun d _ => ?_
  have el : lidx_main_v33 (ix3 b q e) d = ix3 b q d :=
    funext fun a => Fin.ext (by match a with | ⟨0, _⟩ => rfl | ⟨1, _⟩ => rfl | ⟨2, _⟩ => rfl)
  have er : ridx_main_v33 (ix3 b q e) d = ix2 e d :=
    funext fun a => Fin.ext (by match a with | ⟨0, _⟩ => rfl | ⟨1, _⟩ => rfl)
  rw [el, er, xn_at]

/-- The gate's projection. -/
theorem v57_at (b q : Fin 256) (e : Fin 128) :
    val_main_v57 (F := Ideal) x0 x2 x3 w (ix3 b q e) = proj (xnB x0 x2 x3 b) (matW w) q e := by
  rw [val_main_v57_apply]
  unfold proj
  refine Finset.sum_congr rfl fun d _ => ?_
  have el : lidx_main_v57 (ix3 b q e) d = ix3 b q d :=
    funext fun a => Fin.ext (by match a with | ⟨0, _⟩ => rfl | ⟨1, _⟩ => rfl | ⟨2, _⟩ => rfl)
  have er : ridx_main_v57 (ix3 b q e) d = ix2 e d :=
    funext fun a => Fin.ext (by match a with | ⟨0, _⟩ => rfl | ⟨1, _⟩ => rfl)
  rw [el, er, xn_at]

/-- Splitting 128 features into 4 x 32 and moving the head axis forward sends (b, h, q, d) back to (b, q, 32 h + d). -/
theorem split_idx (b : Fin 256) (h : Fin 4) (q : Fin 256) (d : Fin 32) :
    idx_main_v28 (idx_main_v29 (ix4 b h q d)) = ix3 b q (hd h d) := by
  refine funext fun a => Fin.ext ?_
  have hb := b.isLt
  have hh := h.isLt
  have hq := q.isLt
  have hd' := d.isLt
  match a with
  | ⟨0, _⟩ => show (((b.val * 256 + q.val) * 4 + h.val) * 32 + d.val) / 32768 = b.val; omega
  | ⟨1, _⟩ => show (((b.val * 256 + q.val) * 4 + h.val) * 32 + d.val) / 128 % 256 = q.val; omega
  | ⟨2, _⟩ => show (((b.val * 256 + q.val) * 4 + h.val) * 32 + d.val) % 128 = 32 * h.val + d.val; omega

/-- Q by heads. -/
theorem v29_at (b : Fin 256) (h : Fin 4) (q : Fin 256) (d : Fin 32) :
    val_main_v29 (F := Ideal) x0 x2 x3 w (ix4 b h q d) = proj (xnB x0 x2 x3 b) (matW w) q (hd h d) := by
  rw [val_main_v29_apply, val_main_v28_apply, split_idx, v27_at]

/-- K by heads. -/
theorem v32_at (b : Fin 256) (h : Fin 4) (q : Fin 256) (d : Fin 32) :
    val_main_v32 (F := Ideal) x0 x2 x3 w (ix4 b h q d) = proj (xnB x0 x2 x3 b) (matW w) q (hd h d) := by
  rw [val_main_v32_apply, val_main_v31_apply]
  exact (congrArg (val_main_v30 (F := Ideal) x0 x2 x3 w) (split_idx b h q d)).trans (v30_at x0 x2 x3 w b q (hd h d))

/-- V by heads. -/
theorem v35_at (b : Fin 256) (h : Fin 4) (q : Fin 256) (d : Fin 32) :
    val_main_v35 (F := Ideal) x0 x2 x3 w (ix4 b h q d) = proj (xnB x0 x2 x3 b) (matW w) q (hd h d) := by
  rw [val_main_v35_apply, val_main_v34_apply]
  exact (congrArg (val_main_v33 (F := Ideal) x0 x2 x3 w) (split_idx b h q d)).trans (v33_at x0 x2 x3 w b q (hd h d))

end Cert.Attn.Ref

end
-- ==== Proof.RefValueScore.lean ====
/-
  The reference's attention scores read at an index: for batch row b, head h, query q and key k, the 32-term product of
  the head's Q and K features, times the scale word, plus the pair bias at (h, q, k), plus the mask at (q, k) — the
  bias and the mask each broadcast over the batch rows (and the mask over the heads).
-/
import proofs.«148970_j49744311222640_2_alg».proof.Proof.RefValueProj

noncomputable section

open scoped BigOperators

namespace Cert.Attn.Ref

open Idealize.ShloMosaic Idealize.ShloMosaic.ValueIdx Cert.ReferenceIdeal Cert.ReferenceIdeal.Read

/-- Batch row b's scores (h, q, k) in the reference's arrangement, as a function of the argument arrays. -/
abbrev scoreB (x0 : (⟨S1x256x256x128, .f32⟩ : BufTy).Contents (Elt Ideal)) (x1 : (⟨S1x1x256x256, .f32⟩ : BufTy).Contents (Elt Ideal))
    (x2 x3 : (⟨S128, .f32⟩ : BufTy).Contents (Elt Ideal)) (x4 : (⟨S4x128, .f32⟩ : BufTy).Contents (Elt Ideal))
    (x5 x6 : (⟨S128x128, .f32⟩ : BufTy).Contents (Elt Ideal)) (b : Fin 256) : Fin 4 → Fin 256 → Fin 256 → EReal :=
  scoreR (xnB x0 x2 x3 b) (matW x5) (matW x6) (pairBias (xnAll x0 x2 x3) (matB x4)) (mask2 x1)

variable (x0 : (⟨S1x256x256x128, .f32⟩ : BufTy).Contents (Elt Ideal)) (x1 : (⟨S1x1x256x256, .f32⟩ : BufTy).Contents (Elt Ideal))
  (x2 x3 : (⟨S128, .f32⟩ : BufTy).Contents (Elt Ideal)) (x4 : (⟨S4x128, .f32⟩ : BufTy).Contents (Elt Ideal))
  (x5 x6 : (⟨S128x128, .f32⟩ : BufTy).Contents (Elt Ideal))

theorem v42_at (b : Fin 256) (h : Fin 4) (q k : Fin 256) :
    val_main_v42 (F := Ideal) x0 x1 x2 x3 x4 x5 x6 (ix4 b h q k) = scoreB x0 x1 x2 x3 x4 x5 x6 b h q k := by
  rw [val_main_v42_apply, val_main_v40_apply, val_main_v38_apply, val_main_v36_apply, val_main_v37_apply,
    val_main_cst_4_apply, val_main_v39_apply, val_main_v26_apply, val_main_v41_apply]
  have e39 : idx_main_v26 (idx_main_v39 (ix4 b h q k)) = ix3 h q k :=
    funext fun a => Fin.ext (by match a with | ⟨0, _⟩ => rfl | ⟨1, _⟩ => rfl | ⟨2, _⟩ => rfl)
  have e41 : idx_main_v41 (ix4 b h q k) = ix4 (0 : Fin 1) (0 : Fin 1) q k :=
    funext fun a => Fin.ext (by match a with | ⟨0, _⟩ => rfl | ⟨1, _⟩ => rfl | ⟨2, _⟩ => rfl | ⟨3, _⟩ => rfl)
  rw [e39, bias_at, e41]
  simp only [Ideal.addf_def, Ideal.mulf_def, Ideal.ofBits_def]
  unfold scoreB scoreR
  refine congrArg (fun s => s * cScale + pairBias (xnAll x0 x2 x3) (matB x4) h q k + mask2 x1 q k)
    (Finset.sum_congr rfl fun d _ => ?_)
  have el : lidx_main_v36 (ix4 b h q k) d = ix4 b h q d :=
    funext fun a => Fin.ext (by match a with | ⟨0, _⟩ => rfl | ⟨1, _⟩ => rfl | ⟨2, _⟩ => rfl | ⟨3, _⟩ => rfl)
  have er : ridx_main_v36 (ix4 b h q k) d = ix4 b h k d :=
    funext fun a => Fin.ext (by match a with | ⟨0, _⟩ => rfl | ⟨1, _⟩ => rfl | ⟨2, _⟩ => rfl | ⟨3, _⟩ => rfl)
  rw [el, er, v29_at, v32_at]

end Cert.Attn.Ref

end
-- ==== Proof.RefValueSoft.lean ====
/-
  The reference's softmax over the key positions read at an index. The row maximum is the host's reduction with a
  maximum body from the word for minus infinity — the fold of max over the 256 key positions — taken once more against
  minus infinity; the weights are exp (score - maximum) divided by their total, a sum from the zero word.
-/
import proofs.«148970_j49744311222640_2_alg».proof.Proof.RefValueScore

noncomputable section

open scoped BigOperators

namespace Cert.Attn.Ref

open Idealize.ShloMosaic Idealize.ShloMosaic.ValueIdx Cert.ReferenceIdeal Cert.ReferenceIdeal.Gen Cert.ReferenceIdeal.Read

/-- The host's maximum-reduction over the last axis of a [256, 4, 256, 256] array, from minus infinity, at (b, h, q):
    the fold of max over the key positions k of the entries (b, h, q, k). -/
theorem max_read (y : FVec Ideal S256x4x256x256 .f32) (b : Fin 256) (h : Fin 4) (q : Fin 256) :
    Host.reduce (FloatOps.maximumf (F := Ideal) (φ := .f32)) y (val_main_cst_5 (F := Ideal))
        reducesTo_S256x4x256x256_S256x4x256_d3 h_S_ (ix3 b h q)
      = rowMax (fun k => y (ix4 b h q k)) := by
  have hr : S256x4x256x256.Reduces [3] S256x4x256 := by decide
  rw [Host.reduce_eq_fold_single (FloatOps.maximumf (F := Ideal) (φ := .f32)) y _ reducesTo_S256x4x256x256_S256x4x256_d3 hr h_S_]
  unfold rowMax
  have hf : (y ∘ hr.lift (ix3 b h q)) = fun k : Fin 256 => y (ix4 b h q k) :=
    funext fun k => congrArg y (funext fun a => Fin.ext (by
      match a with | ⟨0, _⟩ => rfl | ⟨1, _⟩ => rfl | ⟨2, _⟩ => rfl | ⟨3, _⟩ => rfl))
  exact congrArg (fun f => Finset.fold max cNegInf f (Finset.univ : Finset (Fin 256))) hf

variable (x0 : (⟨S1x256x256x128, .f32⟩ : BufTy).Contents (Elt Ideal)) (x1 : (⟨S1x1x256x256, .f32⟩ : BufTy).Contents (Elt Ideal))
  (x2 x3 : (⟨S128, .f32⟩ : BufTy).Contents (Elt Ideal)) (x4 : (⟨S4x128, .f32⟩ : BufTy).Contents (Elt Ideal))
  (x5 x6 : (⟨S128x128, .f32⟩ : BufTy).Contents (Elt Ideal))

theorem v43_at (b : Fin 256) (h : Fin 4) (q : Fin 256) :
    val_main_v43 (F := Ideal) x0 x1 x2 x3 x4 x5 x6 (ix3 b h q) = rowMax (scoreB x0 x1 x2 x3 x4 x5 x6 b h q) := by
  unfold val_main_v43
  exact (max_read (val_main_v42 (F := Ideal) x0 x1 x2 x3 x4 x5 x6) b h q).trans
    (congrArg rowMax (funext fun k => v42_at x0 x1 x2 x3 x4 x5 x6 b h q k))

/-- The maximum the reference subtracts: max of minus infinity and the row maximum. -/
theorem v45_at (b : Fin 256) (h : Fin 4) (q : Fin 256) :
    val_main_v45 (F := Ideal) x0 x1 x2 x3 x4 x5 x6 (ix3 b h q) = maxR (scoreB x0 x1 x2 x3 x4 x5 x6 b h q) := by
  rw [val_main_v45_apply, val_main_v44_apply, val_main_cst_6_apply, v43_at]
  rfl

/-- The unnormalised weight. -/
theorem v49_at (b : Fin 256) (h : Fin 4) (q k : Fin 256) :
    val_main_v49 (F := Ideal) x0 x1 x2 x3 x4 x5 x6 (ix4 b h q k)
      = Ideal.exp (scoreB x0 x1 x2 x3 x4 x5 x6 b h q k - maxR (scoreB x0 x1 x2 x3 x4 x5 x6 b h q)) := by
  rw [val_main_v49_apply, val_main_v48_apply, v42_at, val_main_v47_apply, val_main_v46_apply]
  have e : idx_main_v46 (idx_main_v47 (ix4 b h q k)) = ix3 b h q :=
    funext fun a => Fin.ext (by match a with | ⟨0, _⟩ => rfl | ⟨1, _⟩ => rfl | ⟨2, _⟩ => rfl)
  rw [e, v45_at]
  rfl

/-- The weights' total. -/
theorem v50_at (b : Fin 256) (h : Fin 4) (q : Fin 256) :
    val_main_v50 (F := Ideal) x0 x1 x2 x3 x4 x5 x6 (ix3 b h q)
      = ∑ k, Ideal.exp (scoreB x0 x1 x2 x3 x4 x5 x6 b h q k - maxR (scoreB x0 x1 x2 x3 x4 x5 x6 b h q)) := by
  rw [val_main_v50_apply, val_main_cst_7_apply]
  simp only [Ideal.ofBits_def, Ideal.ofBits_zero_f32, zero_add]
  refine Finset.sum_congr rfl fun k _ => ?_
  have e : idx_main_v50 (ix3 b h q) k = ix4 b h q k :=
    funext fun a => Fin.ext (by match a with | ⟨0, _⟩ => rfl | ⟨1, _⟩ => rfl | ⟨2, _⟩ => rfl | ⟨3, _⟩ => rfl)
  rw [e, v49_at]

/-- The softmax weight. -/
theorem v53_at (b : Fin 256) (h : Fin 4) (q k : Fin 256) :
    val_main_v53 (F := Ideal) x0 x1 x2 x3 x4 x5 x6 (ix4 b h q k)
      = Ideal.div (Ideal.exp (scoreB x0 x1 x2 x3 x4 x5 x6 b h q k - maxR (scoreB x0 x1 x2 x3 x4 x5 x6 b h q)))
          (∑ k', Ideal.exp (scoreB x0 x1 x2 x3 x4 x5 x6 b h q k' - maxR (scoreB x0 x1 x2 x3 x4 x5 x6 b h q))) := by
  rw [val_main_v53_apply, v49_at, val_main_v52_apply, val_main_v51_apply]
  have e : idx_main_v51 (idx_main_v52 (ix4 b h q k)) = ix3 b h q :=
    funext fun a => Fin.ext (by match a with | ⟨0, _⟩ => rfl | ⟨1, _⟩ => rfl | ⟨2, _⟩ => rfl)
  rw [e, v50_at]
  rfl

end Cert.Attn.Ref

end
-- ==== Proof.RefValueHead.lean ====
/-
  The reference's mixed heads, gate and output projection read at an index. The softmax weights are contracted with the
  head's V rows over the key positions; the head axis is moved back behind the row axis and the 4 x 32 features are laid
  side by side again, so that feature column e of row (b, q) is head e / 32 at position e mod 32; the gate is
  1 / (1 + exp (-g)) with both ones the float word for 1; the product of the two is contracted with the output matrix.
-/
import proofs.«148970_j49744311222640_2_alg».proof.Proof.RefValueSoft

noncomputable section

open scoped BigOperators

namespace Cert.Attn.Ref

open Idealize.ShloMosaic Idealize.ShloMosaic.ValueIdx Cert.ReferenceIdeal Cert.ReferenceIdeal.Read

variable (x0 : (⟨S1x256x256x128, .f32⟩ : BufTy).Contents (Elt Ideal)) (x1 : (⟨S1x1x256x256, .f32⟩ : BufTy).Contents (Elt Ideal))
  (x2 x3 : (⟨S128, .f32⟩ : BufTy).Contents (Elt Ideal)) (x4 : (⟨S4x128, .f32⟩ : BufTy).Contents (Elt Ideal))
  (x5 x6 x7 x8 x9 : (⟨S128x128, .f32⟩ : BufTy).Contents (Elt Ideal))

/-- One head's mix of the value rows. -/
theorem v54_at (b : Fin 256) (h : Fin 4) (q : Fin 256) (d : Fin 32) :
    val_main_v54 (F := Ideal) x0 x1 x2 x3 x4 x5 x6 x7 (ix4 b h q d)
      = headR (xnB x0 x2 x3 b) (matW x5) (matW x6) (matW x7) (pairBias (xnAll x0 x2 x3) (matB x4)) (mask2 x1) h q d := by
  rw [val_main_v54_apply]
  unfold headR
  refine Finset.sum_congr rfl fun k _ => ?_
  have el : lidx_main_v54 (ix4 b h q d) k = ix4 b h q k :=
    funext fun a => Fin.ext (by match a with | ⟨0, _⟩ => rfl | ⟨1, _⟩ => rfl | ⟨2, _⟩ => rfl | ⟨3, _⟩ => rfl)
  have er : ridx_main_v54 (ix4 b h q d) k = ix4 b h k d :=
    funext fun a => Fin.ext (by match a with | ⟨0, _⟩ => rfl | ⟨1, _⟩ => rfl | ⟨2, _⟩ => rfl | ⟨3, _⟩ => rfl)
  rw [el, er, v53_at, v35_at]

/-- Laying the heads side by side again sends (b, q, e) back to head e / 32, position e mod 32. -/
theorem merge_idx (b q : Fin 256) (e : Fin 128) :
    idx_main_v55 (idx_main_v56 (ix3 b q e)) = ix4 b (hOf e) q (dOf e) := by
  refine funext fun a => Fin.ext ?_
  have hb := b.isLt
  have hq := q.isLt
  have he := e.isLt
  match a with
  | ⟨0, _⟩ => show ((b.val * 256 + q.val) * 128 + e.val) / 32768 = b.val; omega
  | ⟨1, _⟩ => show ((b.val * 256 + q.val) * 128 + e.val) / 32 % 4 = e.val / 32; omega
  | ⟨2, _⟩ => show ((b.val * 256 + q.val) * 128 + e.val) / 128 % 256 = q.val; omega
  | ⟨3, _⟩ => show ((b.val * 256 + q.val) * 128 + e.val) % 32 = e.val % 32; omega

/-- The mixed heads, side by side. -/
theorem v56_at (b q : Fin 256) (e : Fin 128) :
    val_main_v56 (F := Ideal) x0 x1 x2 x3 x4 x5 x6 x7 (ix3 b q e)
      = headR (xnB x0 x2 x3 b) (matW x5) (matW x6) (matW x7) (pairBias (xnAll x0 x2 x3) (matB x4)) (mask2 x1)
          (hOf e) q (dOf e) := by
  rw [val_main_v56_apply, val_main_v55_apply, merge_idx, v54_at]

/-- The gate. -/
theorem v63_at (b q : Fin 256) (e : Fin 128) :
    val_main_v63 (F := Ideal) x0 x2 x3 x8 (ix3 b q e)
      = Ideal.div cOne (cOne + Ideal.exp (-(proj (xnB x0 x2 x3 b) (matW x8) q e))) := by
  rw [val_main_v63_apply, val_main_v62_apply, val_main_cst_9_apply, val_main_v61_apply, val_main_v60_apply,
    val_main_cst_8_apply, val_main_v59_apply, val_main_v58_apply, v57_at]
  rfl

/-- The gated heads against the output matrix. -/
theorem v65_at (b q : Fin 256) (f : Fin 128) :
    val_main_v65 (F := Ideal) x0 x1 x2 x3 x4 x5 x6 x7 x8 x9 (ix3 b q f)
      = attnR (xnB x0 x2 x3 b) (matW x5) (matW x6) (matW x7) (matW x8) (matW x9)
          (pairBias (xnAll x0 x2 x3) (matB x4)) (mask2 x1) q f := by
  rw [val_main_v65_apply]
  unfold attnR
  refine Finset.sum_congr rfl fun e _ => ?_
  have el : lidx_main_v65 (ix3 b q f) e = ix3 b q e :=
    funext fun a => Fin.ext (by match a with | ⟨0, _⟩ => rfl | ⟨1, _⟩ => rfl | ⟨2, _⟩ => rfl)
  have er : ridx_main_v65 (ix3 b q f) e = ix2 f e :=
    funext fun a => Fin.ext (by match a with | ⟨0, _⟩ => rfl | ⟨1, _⟩ => rfl)
  rw [el, er, val_main_v64_apply, v56_at, v63_at]
  rfl

end Cert.Attn.Ref

end
-- ==== Proof.RefValue.lean ====
/-
  The reference's run read one operation at a time: its result array, index by index, is the reference's arrangement
  `Cert.Attn.GR` of the argument arrays. Nothing here uses finiteness: every step unfolds one operation at an index or
  renames an index; the normalisation, the contractions, the scores, the softmax and the gated heads are read in the
  modules this one imports, and the last operation only puts the leading unit axis back.
-/
import proofs.«148970_j49744311222640_2_alg».proof.Proof.Gen.ReferenceIdeal.Read
import proofs.«148970_j49744311222640_2_alg».proof.Proof.Spec
import proofs.«148970_j49744311222640_2_alg».proof.Proof.RefValueHead

noncomputable section

namespace Cert.Attn.Ref

open Idealize.ShloMosaic Idealize.ShloMosaic.ValueIdx Cert.ReferenceIdeal Cert.ReferenceIdeal.Read

/-- Over ten array variables: the last stage at (0, b, q, f) is the reference's arrangement of the arrays read by
    coordinates. -/
theorem ref_value_arrays (x0 : (⟨S1x256x256x128, .f32⟩ : BufTy).Contents (Elt Ideal)) (x1 : (⟨S1x1x256x256, .f32⟩ : BufTy).Contents (Elt Ideal))
    (x2 x3 : (⟨S128, .f32⟩ : BufTy).Contents (Elt Ideal)) (x4 : (⟨S4x128, .f32⟩ : BufTy).Contents (Elt Ideal))
    (x5 x6 x7 x8 x9 : (⟨S128x128, .f32⟩ : BufTy).Contents (Elt Ideal)) (b q : Fin 256) (f : Fin 128) :
    val_main_v66 (F := Ideal) x0 x1 x2 x3 x4 x5 x6 x7 x8 x9 (ix4 (0 : Fin 1) b q f)
      = Cert.Attn.GR (fun b q d => x0 (ix4 (0 : Fin 1) b q d)) (fun q k => x1 (ix4 (0 : Fin 1) (0 : Fin 1) q k))
          (fun d => x2 (ix1 d)) (fun d => x3 (ix1 d)) (fun h d => x4 (ix2 h d)) (fun e d => x5 (ix2 e d))
          (fun e d => x6 (ix2 e d)) (fun e d => x7 (ix2 e d)) (fun e d => x8 (ix2 e d)) (fun e d => x9 (ix2 e d)) b q f := by
  rw [val_main_v66_apply]
  have e : idx_main_v66 (ix4 (0 : Fin 1) b q f) = ix3 b q f :=
    funext fun a => Fin.ext (by match a with | ⟨0, _⟩ => rfl | ⟨1, _⟩ => rfl | ⟨2, _⟩ => rfl)
  rw [e, v65_at]
  rfl

/-- The reference's result at (0, b, q, f) is `GR` of the argument arrays at (b, q, f). -/
theorem ref_value (m : (ℓ : Loc nD τ sig) → Buf (Elt Ideal) ℓ) (c : Dev nD) (b q : Fin 256) (f : Fin 128) :
    Cert.ReferenceIdeal.Value.res_main_v66 (F := Ideal) m c (ix4 (0 : Fin 1) b q f)
      = Cert.Attn.GR
          (fun b q d => m ((c.tc : Thread nD τ).loc main_arg0) (ix4 (0 : Fin 1) b q d))
          (fun q k => m ((c.tc : Thread nD τ).loc main_arg1) (ix4 (0 : Fin 1) (0 : Fin 1) q k))
          (fun d => m ((c.tc : Thread nD τ).loc main_arg2) (ix1 d))
          (fun d => m ((c.tc : Thread nD τ).loc main_arg3) (ix1 d))
          (fun h d => m ((c.tc : Thread nD τ).loc main_arg4) (ix2 h d))
          (fun e d => m ((c.tc : Thread nD τ).loc main_arg5) (ix2 e d))
          (fun e d => m ((c.tc : Thread nD τ).loc main_arg6) (ix2 e d))
          (fun e d => m ((c.tc : Thread nD τ).loc main_arg7) (ix2 e d))
          (fun e d => m ((c.tc : Thread nD τ).loc main_arg8) (ix2 e d))
          (fun e d => m ((c.tc : Thread nD τ).loc main_arg9) (ix2 e d)) b q f := by
  rw [val_main_v66_eq]
  exact ref_value_arrays _ _ _ _ _ _ _ _ _ _ b q f

end Cert.Attn.Ref

end
-- ==== Proof.LnBlock.lean ====
/-
  The first kernel's two stored blocks read at one index, at the exact extended reals.

  The kernel loads a block of 32 x 256 rows of 128 entries, the gain and the shift, the bias projection and a
  32 x 256 block of the mask. It stores (i) the rows layer-normalised and narrowed, and (ii) the pair bias of those
  rows with the mask block added. Read at an index, (i) is the layer normalisation of row (r, s) at lane d, and (ii)
  is the sum over d of the projection's entry (h, d) times that normalised row's entry d, plus the mask's entry (r, s).

  First the layout steps, each read at an index written by coordinates: a [32,256] array of row statistics is viewed
  as a [32,256,1] column and broadcast along the 128 lanes; a [128] gain or shift vector is viewed as [1,1,128] and
  broadcast over the 32 x 256 rows; a sum along the lanes at (r, s) is the plain sum over k of the entries (r, s, k).
  Then the normalised block; then the product [4,128] x [8192,128] over the flattened rows (row (r, s) sits at the
  row-major position 256 r + s), its view as [4,32,256], and the mask block broadcast over the 4 heads.
  Nothing here needs an entry to be finite.
-/
import proofs.«148970_j49744311222640_2_alg».proof.Proof.Stored
import proofs.«148970_j49744311222640_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Attn.K0

open Idealize.ShloMosaic Idealize.ShloMosaic.ValueIdx Cert.KernelIdeal Cert.KernelIdeal.Gen Cert.Attn Cert.Attn.KI

variable {α : Type}

/-- A [32,256] array viewed as a [32,256,1] column reads, at (r, s, u), the array at (r, s). -/
theorem col_apply (v : S32x256.Idx → α) (r : Fin 32) (s : Fin 256) (u : Fin 1) :
    shapeCast S32x256x1 v shapeCasts_S32x256_S32x256x1 (ix3 r s u) = v (ix2 r s) :=
  shapeCast_apply v shapeCasts_S32x256_S32x256x1 (ix3 r s u) (ix2 r s) (by
    have hu : u.val = 0 := by omega
    rw [Shape.rowMajor_val_two, Shape.rowMajor_val_three]
    show r.val * 256 + s.val = (r.val * 256 + s.val) * 1 + u.val
    omega)

/-- A [32,256,1] column broadcast along the 128 lanes reads, at (r, s, d), the column at (r, s, 0). -/
theorem bcol_apply (v : S32x256x1.Idx → α) (r : Fin 32) (s : Fin 256) (d : Fin 128) :
    broadcastTo S32x256x128 v broadcasts_S32x256x1_S32x256x128 (ix3 r s d) = v (ix3 r s (0 : Fin 1)) :=
  broadcastTo_apply v broadcasts_S32x256x1_S32x256x128 (ix3 r s d) (ix3 r s (0 : Fin 1)) fun a => by
    match a with
    | ⟨0, _⟩ => rfl
    | ⟨1, _⟩ => rfl
    | ⟨2, _⟩ => rfl

/-- A [128] vector viewed as [1,1,128] and broadcast over the 32 x 256 rows reads, at (r, s, d), the vector at d. -/
theorem brow_apply (v : S128.Idx → α) (r : Fin 32) (s : Fin 256) (d : Fin 128) :
    broadcastTo S32x256x128 (shapeCast S1x1x128 v shapeCasts_S128_S1x1x128) broadcasts_S1x1x128_S32x256x128 (ix3 r s d)
      = v (ix1 d) := by
  refine (broadcastTo_apply _ broadcasts_S1x1x128_S32x256x128 (ix3 r s d) (ix3 (0 : Fin 1) (0 : Fin 1) d) fun a => ?_).trans ?_
  · match a with
    | ⟨0, _⟩ => rfl
    | ⟨1, _⟩ => rfl
    | ⟨2, _⟩ => rfl
  · exact shapeCast_apply v shapeCasts_S128_S1x1x128 (ix3 (0 : Fin 1) (0 : Fin 1) d) (ix1 d) (by
      rw [Shape.rowMajor_val_one, Shape.rowMajor_val_three]
      show d.val = (0 * 1 + 0) * 128 + d.val
      omega)

/-- A sum along the lanes of a [32,256,128] block, read at (r, s), is the sum over k of the entries (r, s, k),
    whatever proofs of the format and accumulator side conditions the term carries. -/
theorem laneSum_apply (v : FVec Ideal S32x256x128 .f32) (hφ : FTy.f32 = FTy.f32 ∨ FTy.f32 = FTy.bf16)
    (hacc : (0x00000000#32 : BitVec 32) = 0x00000000#32) (r : Fin 32) (s : Fin 256) :
    multiReduction (F := Ideal) .add [2] S32x256 v 0x00000000#32 reduces_S32x256x128_S32x256 hφ hacc (ix2 r s)
      = ∑ k : Fin 128, v (ix3 r s k) := by
  refine (Ideal.multiReduction_add_single v 0x00000000#32 reduces_S32x256x128_S32x256 hφ hacc (ix2 r s)).trans ?_
  refine Finset.sum_congr rfl fun k _ => congrArg v (funext fun a => Fin.ext ?_)
  match a with
  | ⟨0, _⟩ => rfl
  | ⟨1, _⟩ => rfl
  | ⟨2, _⟩ => rfl

/-- The inverse square root of a vector, read at an index, is the inverse square root of the entry. -/
theorem rsqrt_apply {s : Shape} {φ : FTy} (a : FVec Ideal s φ) (i : s.Idx) : rsqrt a i = Ideal.rsqrt (a i) := rfl

/-! ## The normalised block -/

/-- The block before narrowing, at row (r, s) and lane d: the layer normalisation of that row of 128 entries. -/
theorem pay1_apply (x0 : Vec Ideal S32x256x128 .f32) (w bb : Vec Ideal S128 .f32) (r : Fin 32) (s : Fin 256) (d : Fin 128) :
    k0_pay1 (F := Ideal) x0 w bb (ix3 r s d)
      = lnRow (fun k => x0 (ix3 r s k)) (fun k => w (ix1 k)) (fun k => bb (ix1 k)) d := by
  unfold k0_pay1
  simp only [addf_apply, mulf_apply, subf_apply, divf_apply, rsqrt_apply, brow_apply, bcol_apply, col_apply,
    shapeCast_self, broadcast_apply]
  -- the row's total, then the total of the squared deviations
  rw [laneSum_apply, laneSum_apply]
  simp only [mulf_apply, subf_apply, divf_apply, bcol_apply, col_apply, broadcast_apply]
  -- the row's total again, inside each squared deviation
  rw [laneSum_apply]
  rfl

/-- The stored block of normalised rows: narrowing is the identity on extended reals. -/
theorem xn_block (x0 : Vec Ideal S32x256x128 .f32) (w bb : Vec Ideal S128 .f32) (r : Fin 32) (s : Fin 256) (d : Fin 128) :
    xnStore (F := Ideal) x0 w bb (ix3 r s d)
      = lnRow (fun k => x0 (ix3 r s k)) (fun k => w (ix1 k)) (fun k => bb (ix1 k)) d :=
  pay1_apply x0 w bb r s d

/-! ## The pair-bias block -/

/-- Row (r, s) of a [32,256] arrangement at its row-major position among 8192 rows. -/
def flat (r : Fin 32) (s : Fin 256) : Fin 8192 := ⟨256 * r.val + s.val, by omega⟩

/-- A [4,8192] array viewed as [4,32,256] reads, at (h, r, s), the array at (h, 256 r + s). -/
theorem unflat_apply (v : S4x8192.Idx → α) (h : Fin 4) (r : Fin 32) (s : Fin 256) :
    shapeCast S4x32x256 v shapeCasts_S4x8192_S4x32x256 (ix3 h r s) = v (ix2 h (flat r s)) :=
  shapeCast_apply v shapeCasts_S4x8192_S4x32x256 (ix3 h r s) (ix2 h (flat r s)) (by
    rw [Shape.rowMajor_val_two, Shape.rowMajor_val_three]
    show h.val * 8192 + (256 * r.val + s.val) = (h.val * 32 + r.val) * 256 + s.val
    omega)

/-- A [32,256,128] block viewed as 8192 rows of 128 reads, at (256 r + s, k), the block at (r, s, k). -/
theorem rows_apply (v : S32x256x128.Idx → α) (r : Fin 32) (s : Fin 256) (k : Fin 128) :
    shapeCast S8192x128 v shapeCasts_S32x256x128_S8192x128 (ix2 (flat r s) k) = v (ix3 r s k) :=
  shapeCast_apply v shapeCasts_S32x256x128_S8192x128 (ix2 (flat r s) k) (ix3 r s k) (by
    rw [Shape.rowMajor_val_three, Shape.rowMajor_val_two]
    show (r.val * 256 + s.val) * 128 + k.val = (256 * r.val + s.val) * 128 + k.val
    omega)

/-- The [32,256] mask block, viewed as [1,32,256] and broadcast over the 4 heads, reads at (h, r, s) the block at (r, s). -/
theorem maskB_apply (v : S32x256.Idx → α) (h : Fin 4) (r : Fin 32) (s : Fin 256) :
    broadcastTo S4x32x256
        (shapeCast S1x32x256 (shapeCast S32x256 v shapeCasts_S32x256_S32x256) shapeCasts_S32x256_S1x32x256)
        broadcasts_S1x32x256_S4x32x256 (ix3 h r s)
      = v (ix2 r s) := by
  rw [shapeCast_self]
  refine (broadcastTo_apply _ broadcasts_S1x32x256_S4x32x256 (ix3 h r s) (ix3 (0 : Fin 1) r s) fun a => ?_).trans ?_
  · match a with
    | ⟨0, _⟩ => rfl
    | ⟨1, _⟩ => rfl
    | ⟨2, _⟩ => rfl
  · exact shapeCast_ab_1ab_apply v shapeCasts_S32x256_S1x32x256 (0 : Fin 1) r s

/-! The product [4,128] x [8192,128] contracting both last axes: the operand indices at output (h, p) and
contraction position q are (h, q) and (p, q). -/

theorem mm_lhs_0 (i : S4x8192.Idx) (q : dot_S4x128_S8192x128_S4x8192_1_1_0_0_n_n.contr.Idx) :
    (dot_S4x128_S8192x128_S4x8192_1_1_0_0_n_n.lhsIdx i q 0).val = (i 0).val := by
  unfold DotDims.lhsIdx
  rw [dif_neg (show ¬(0 : Fin S4x128.rank) ∈ dot_S4x128_S8192x128_S4x8192_1_1_0_0_n_n.lhsBatch by decide),
    dif_pos (show (0 : Fin S4x128.rank) ∈ dot_S4x128_S8192x128_S4x8192_1_1_0_0_n_n.lhsNonContracting by decide)]
  rfl
theorem mm_lhs_1 (i : S4x8192.Idx) (q : dot_S4x128_S8192x128_S4x8192_1_1_0_0_n_n.contr.Idx) :
    (dot_S4x128_S8192x128_S4x8192_1_1_0_0_n_n.lhsIdx i q 1).val = (q ⟨0, by decide⟩).val :=
  dot_S4x128_S8192x128_S4x8192_1_1_0_0_n_n.lhsIdx_val_of_single rfl i q
theorem mm_rhs_0 (i : S4x8192.Idx) (q : dot_S4x128_S8192x128_S4x8192_1_1_0_0_n_n.contr.Idx) :
    (dot_S4x128_S8192x128_S4x8192_1_1_0_0_n_n.rhsIdx i q 0).val = (i 1).val := by
  unfold DotDims.rhsIdx
  rw [dif_neg (show ¬(0 : Fin S8192x128.rank) ∈ dot_S4x128_S8192x128_S4x8192_1_1_0_0_n_n.rhsBatch by decide),
    dif_pos (show (0 : Fin S8192x128.rank) ∈ dot_S4x128_S8192x128_S4x8192_1_1_0_0_n_n.rhsNonContracting by decide)]
  rfl
theorem mm_rhs_1 (i : S4x8192.Idx) (q : dot_S4x128_S8192x128_S4x8192_1_1_0_0_n_n.contr.Idx) :
    (dot_S4x128_S8192x128_S4x8192_1_1_0_0_n_n.rhsIdx i q 1).val = (q ⟨0, by decide⟩).val :=
  dot_S4x128_S8192x128_S4x8192_1_1_0_0_n_n.rhsIdx_val_of_single rfl i q

/-- That product into a zero accumulator, read at (h, p): the sum over k of a (h, k) * b (p, k). -/
theorem mm_apply (a : FVec Ideal S4x128 .bf16) (b : FVec Ideal S8192x128 .bf16) (h : Fin 4) (p : Fin 8192) :
    matmul (F := Ideal) dot_S4x128_S8192x128_S4x8192_1_1_0_0_n_n none a b (constant (F := Ideal) S4x8192 .f32 0x00000000#32) (ix2 h p)
      = ∑ k : Fin 128, a (ix2 h k) * b (ix2 p k) := by
  simp only [matmul]
  rw [Ideal.matmul_constant_zero_apply,
    ← Equiv.sum_comp (contrEquiv1 dot_S4x128_S8192x128_S4x8192_1_1_0_0_n_n 128 rfl rfl).symm]
  refine Finset.sum_congr rfl fun k _ => ?_
  have hk := contrEquiv1_symm_val dot_S4x128_S8192x128_S4x8192_1_1_0_0_n_n 128 rfl rfl k
  have el : dot_S4x128_S8192x128_S4x8192_1_1_0_0_n_n.lhsIdx (ix2 h p)
      ((contrEquiv1 dot_S4x128_S8192x128_S4x8192_1_1_0_0_n_n 128 rfl rfl).symm k) = ix2 h k :=
    funext fun c => Fin.ext (by
      match c with
      | ⟨0, _⟩ => exact mm_lhs_0 _ _
      | ⟨1, _⟩ => exact (mm_lhs_1 _ _).trans hk)
  have er : dot_S4x128_S8192x128_S4x8192_1_1_0_0_n_n.rhsIdx (ix2 h p)
      ((contrEquiv1 dot_S4x128_S8192x128_S4x8192_1_1_0_0_n_n 128 rfl rfl).symm k) = ix2 p k :=
    funext fun c => Fin.ext (by
      match c with
      | ⟨0, _⟩ => exact mm_rhs_0 _ _
      | ⟨1, _⟩ => exact (mm_rhs_1 _ _).trans hk)
  rw [el, er]

/-- The stored pair-bias block at head h and row (r, s): the bias projection's row h against the normalised row,
    plus the mask block's entry. -/
theorem bias_block (x0 : Vec Ideal S32x256x128 .f32) (w bb : Vec Ideal S128 .f32) (wb : Vec Ideal S4x128 .f32)
    (mk : Vec Ideal S32x256 .f32) (h : Fin 4) (r : Fin 32) (s : Fin 256) :
    biasStore (F := Ideal) x0 w bb wb mk (ix3 h r s)
      = (∑ d : Fin 128, wb (ix2 h d) * lnRow (fun k => x0 (ix3 r s k)) (fun k => w (ix1 k)) (fun k => bb (ix1 k)) d)
          + mk (ix2 r s) := by
  unfold biasStore k0_pay3
  simp only [addf_apply]
  rw [unflat_apply, maskB_apply, mm_apply]
  refine congrArg (· + mk (ix2 r s)) (Finset.sum_congr rfl fun k _ => ?_)
  -- narrowing is the identity; the flattened row 256 r + s is row (r, s) of the block
  rw [truncf_apply, truncf_apply, rows_apply, pay1_apply]

end Cert.Attn.K0

end
-- ==== Proof.Cover0.lean ====
/-
  The first kernel's two output arrays after all 8 grid points, as whole-array functions of the region's inputs.

  Point t of the grid works on rows 32 t .. 32 t + 31 of the pair representation: it loads that block of x and of the
  mask, the whole gain, shift and bias projection, and writes back block t of the normalised rows and block t (along
  the query axis) of the pair bias. Read through the windows, each written block is the matching block of ONE function
  of the arrays: the layer normalisation of row (b, q), and the bias projection against that normalised row plus the
  mask. The 8 blocks tile both arrays (row b lies in block b / 32), so each array ends holding that function.
-/
import proofs.«148970_j49744311222640_2_alg».proof.Proof.KFrame0
import proofs.«148970_j49744311222640_2_alg».proof.Proof.LnBlock
import proofs.«148970_j49744311222640_2_alg».proof.Proof.Spec
import Idealize.ShloMosaic.Lib.ValueIdx

set_option maxRecDepth 16384

noncomputable section

open scoped BigOperators

namespace Cert.Attn.KI

open Idealize.ShloMosaic Idealize.ShloMosaic.TcCoe Idealize.ShloMosaic.ValueIdx
open Idealize.ShloMosaic.Pipeline (Dat Cfg Window)
open Cert.KernelIdeal Cert.KernelIdeal.Gen Cert.Attn

variable (V : (c : Dev nD) → (b : Ref sig .tc) → Buf (Elt Ideal) ((c : Thread nD τ).loc b))

/-! ## Where each window's block sits in its array -/

/-- The first kernel's index maps over its 8 grid points: the x block, the mask block and the two output blocks move
    with the point along their row axis; gain, shift and bias projection stay. -/
theorem idx0 : ∀ t : Fin cfg0.N,
    win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 3) = 0 ∧ win0_6.index t (1 : Fin 3) = t.val ∧ win0_6.index t (2 : Fin 3) = 0 :=
  (by decide +kernel : ∀ t : Fin grid0.N, _)

/-- The grid has 8 points. -/
theorem tlt (t : Fin cfg0.N) : t.val < 8 := lt_of_lt_of_eq t.isLt N_0

/-- Row r of block t is row 32 t + r of the array. -/
def rowOf (t : Fin cfg0.N) (r : Fin 32) : Fin 256 := ⟨32 * t.val + r.val, by have := tlt t; omega⟩

/-- The x block at point t reads rows 32 t .. 32 t + 31 of x. -/
theorem iblk0_x (c : Dev nD) (t : Fin cfg0.N) (r : Fin 32) (s : Fin 256) (k : Fin 128) :
    iblk0 V c 0 t (ix3 r s k) = V c main_v0 (ix3 (rowOf t r) s k) := by
  obtain ⟨e0, e1, e2, -⟩ := idx0 t
  show V c main_v0 (((cfg0.win 0).blk t).view.emb (ix3 r s k)) = _
  refine congrArg _ (funext fun a => Fin.ext ?_)
  match a with
  | ⟨0, _⟩ => show win0_0.index t (0 : Fin 3) * 32 + 1 * r.val = 32 * t.val + r.val; omega
  | ⟨1, _⟩ => show win0_0.index t (1 : Fin 3) * 256 + 1 * s.val = s.val; omega
  | ⟨2, _⟩ => show win0_0.index t (2 : Fin 3) * 128 + 1 * k.val = k.val; omega

/-- The gain block is the whole gain at every point. -/
theorem iblk0_g (c : Dev nD) (t : Fin cfg0.N) (k : Fin 128) :
    iblk0 V c 1 t (ix1 k) = V c main_arg2 (ix1 k) := by
  obtain ⟨-, -, -, e3, -⟩ := idx0 t
  show V c main_arg2 (((cfg0.win 1).blk t).view.emb (ix1 k)) = _
  refine congrArg _ (funext fun a => Fin.ext ?_)
  match a with
  | ⟨0, _⟩ => show win0_1.index t (0 : Fin 1) * 128 + 1 * k.val = k.val; omega

/-- The shift block is the whole shift at every point. -/
theorem iblk0_b (c : Dev nD) (t : Fin cfg0.N) (k : Fin 128) :
    iblk0 V c 2 t (ix1 k) = V c main_arg3 (ix1 k) := by
  obtain ⟨-, -, -, -, e4, -⟩ := idx0 t
  show V c main_arg3 (((cfg0.win 2).blk t).view.emb (ix1 k)) = _
  refine congrArg _ (funext fun a => Fin.ext ?_)
  match a with
  | ⟨0, _⟩ => show win0_2.index t (0 : Fin 1) * 128 + 1 * k.val = k.val; omega

/-- The bias projection's block is the whole projection at every point. -/
theorem iblk0_w (c : Dev nD) (t : Fin cfg0.N) (h : Fin 4) (d : Fin 128) :
    iblk0 V c 3 t (ix2 h d) = V c main_arg4 (ix2 h d) := by
  obtain ⟨-, -, -, -, -, e5, e6, -⟩ := idx0 t
  show V c main_arg4 (((cfg0.win 3).blk t).view.emb (ix2 h d)) = _
  refine congrArg _ (funext fun a => Fin.ext ?_)
  match a with
  | ⟨0, _⟩ => show win0_3.index t (0 : Fin 2) * 4 + 1 * h.val = h.val; omega
  | ⟨1, _⟩ => show win0_3.index t (1 : Fin 2) * 128 + 1 * d.val = d.val; omega

/-- The mask block at point t reads rows 32 t .. 32 t + 31 of the mask. -/
theorem iblk0_m (c : Dev nD) (t : Fin cfg0.N) (r : Fin 32) (s : Fin 256) :
    iblk0 V c 4 t (ix2 r s) = V c main_v1 (ix2 (rowOf t r) s) := by
  obtain ⟨-, -, -, -, -, -, -, e7, e8, -⟩ := idx0 t
  show V c main_v1 (((cfg0.win 4).blk t).view.emb (ix2 r s)) = _
  refine congrArg _ (funext fun a => Fin.ext ?_)
  match a with
  | ⟨0, _⟩ => show win0_4.index t (0 : Fin 2) * 32 + 1 * r.val = 32 * t.val + r.val; omega
  | ⟨1, _⟩ => show win0_4.index t (1 : Fin 2) * 256 + 1 * s.val = s.val; omega

/-- Entry (r, s, d) of the first output's block t is entry (32 t + r, s, d) of its array. -/
theorem emb5 (t : Fin cfg0.N) (r : Fin 32) (s : Fin 256) (d : Fin 128) :
    ((cfg0.win 5).blk t).view.emb (ix3 r s d) = ix3 (rowOf t r) s d := by
  obtain ⟨-, -, -, -, -, -, -, -, -, e9, e10, e11, -⟩ := idx0 t
  refine funext fun a => Fin.ext ?_
  match a with
  | ⟨0, _⟩ => show win0_5.index t (0 : Fin 3) * 32 + 1 * r.val = 32 * t.val + r.val; omega
  | ⟨1, _⟩ => show win0_5.index t (1 : Fin 3) * 256 + 1 * s.val = s.val; omega
  | ⟨2, _⟩ => show win0_5.index t (2 : Fin 3) * 128 + 1 * d.val = d.val; omega

/-- Entry (h, r, s) of the second output's block t is entry (h, 32 t + r, s) of its array. -/
theorem emb6 (t : Fin cfg0.N) (h : Fin 4) (r : Fin 32) (s : Fin 256) :
    ((cfg0.win 6).blk t).view.emb (ix3 h r s) = ix3 h (rowOf t r) s := by
  obtain ⟨-, -, -, -, -, -, -, -, -, -, -, -, e12, e13, e14⟩ := idx0 t
  refine funext fun a => Fin.ext ?_
  match a with
  | ⟨0, _⟩ => show win0_6.index t (0 : Fin 3) * 4 + 1 * h.val = h.val; omega
  | ⟨1, _⟩ => show win0_6.index t (1 : Fin 3) * 32 + 1 * r.val = 32 * t.val + r.val; omega
  | ⟨2, _⟩ => show win0_6.index t (2 : Fin 3) * 256 + 1 * s.val = s.val; omega

/-! ## The two whole-array functions -/

/-- The normalised row (b, q) at feature d, of the arrays as the region finds them. -/
def xnAll (c : Dev nD) (b q : Fin 256) (d : Fin 128) : EReal :=
  lnRow (fun k => V c main_v0 (ix3 b q k)) (fun k => V c main_arg2 (ix1 k)) (fun k => V c main_arg3 (ix1 k)) d

/-- The bias projection as the region finds it, read into the extended reals. -/
def projIn (c : Dev nD) (h : Fin 4) (d : Fin 128) : EReal := V c main_arg4 (ix2 h d)
/-- The mask as the region finds it, read into the extended reals. -/
def maskIn (c : Dev nD) (q k : Fin 256) : EReal := V c main_v1 (ix2 q k)

theorem projIn_eq (c : Dev nD) (h : Fin 4) (d : Fin 128) : projIn V c h d = V c main_arg4 (ix2 h d) := rfl
theorem maskIn_eq (c : Dev nD) (q k : Fin 256) : maskIn V c q k = V c main_v1 (ix2 q k) := rfl

/-- The pair bias with the mask added at head h, query q, key k. -/
def biasAll (c : Dev nD) (h : Fin 4) (q k : Fin 256) : EReal :=
  (∑ d : Fin 128, projIn V c h d * xnAll V c q k d) + maskIn V c q k

/-- The first output array as one function of its index. -/
def G5 (c : Dev nD) : S256x256x128.Idx → EReal :=
  fun i => xnAll V c ⟨(i 0).val, (i 0).isLt⟩ ⟨(i 1).val, (i 1).isLt⟩ ⟨(i 2).val, (i 2).isLt⟩

/-- The second output array as one function of its index. -/
def G6 (c : Dev nD) : S4x256x256.Idx → EReal :=
  fun i => biasAll V c ⟨(i 0).val, (i 0).isLt⟩ ⟨(i 1).val, (i 1).isLt⟩ ⟨(i 2).val, (i 2).isLt⟩

theorem G5_apply (c : Dev nD) (b q : Fin 256) (d : Fin 128) : G5 V c (ix3 b q d) = xnAll V c b q d := rfl
theorem G6_apply (c : Dev nD) (h : Fin 4) (q k : Fin 256) : G6 V c (ix3 h q k) = biasAll V c h q k := rfl

/-! ## What each point writes back -/

/-- Point t writes back block t of the normalised rows. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  funext j
  obtain ⟨r, s, d, rfl⟩ : ∃ (r : Fin 32) (s : Fin 256) (d : Fin 128), j = ix3 r s d := ⟨j 0, j 1, j 2, eq_ix3 j⟩
  show xnStore (F := Ideal) (iblk0 V c 0 t) (iblk0 V c 1 t) (iblk0 V c 2 t) (ix3 r s d)
    = G5 V c (((cfg0.win 5).blk t).view.emb (ix3 r s d))
  refine (K0.xn_block (iblk0 V c 0 t) (iblk0 V c 1 t) (iblk0 V c 2 t) r s d).trans ?_
  rw [emb5, G5_apply]
  simp only [iblk0_x, iblk0_g, iblk0_b]
  rfl

/-- Point t writes back block t, along the query axis, of the pair bias with the mask added. -/
theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  funext j
  obtain ⟨h, r, s, rfl⟩ : ∃ (h : Fin 4) (r : Fin 32) (s : Fin 256), j = ix3 h r s := ⟨j 0, j 1, j 2, eq_ix3 j⟩
  show biasStore (F := Ideal) (iblk0 V c 0 t) (iblk0 V c 1 t) (iblk0 V c 2 t) (iblk0 V c 3 t) (iblk0 V c 4 t) (ix3 h r s)
    = G6 V c (((cfg0.win 6).blk t).view.emb (ix3 h r s))
  refine (K0.bias_block (iblk0 V c 0 t) (iblk0 V c 1 t) (iblk0 V c 2 t) (iblk0 V c 3 t) (iblk0 V c 4 t) h r s).trans ?_
  rw [emb6, G6_apply]
  simp only [iblk0_x, iblk0_g, iblk0_b, iblk0_w, iblk0_m]
  rfl

/-! ## The blocks tile the arrays -/

/-- An index of the first output array is in point t's block iff each coordinate is in the block's range on its axis. -/
theorem mem_blk5 (t : Fin cfg0.N) (i : S256x256x128.Idx) :
    i ∈ ((cfg0.win 5).blk t).view.set ↔ ∀ a : Fin 3, win0_5.index t a * S32x256x128.size a ≤ (i a).val
      ∧ (i a).val < win0_5.index t a * S32x256x128.size a + S32x256x128.size a := by
  show i ∈ ((View.whole main_v3_0).slice (win0_5.rect t)).set ↔ _
  rw [View.set_slice_whole, Rect.mem_set_unit]
  exact Iff.rfl

/-- Likewise for the second output array. -/
theorem mem_blk6 (t : Fin cfg0.N) (i : S4x256x256.Idx) :
    i ∈ ((cfg0.win 6).blk t).view.set ↔ ∀ a : Fin 3, win0_6.index t a * S4x32x256.size a ≤ (i a).val
      ∧ (i a).val < win0_6.index t a * S4x32x256.size a + S4x32x256.size a := by
  show i ∈ ((View.whole main_v3_1).slice (win0_6.rect t)).set ↔ _
  rw [View.set_slice_whole, Rect.mem_set_unit]
  exact Iff.rfl

/-- Row b of the first output lies in the block of point b / 32, and every point writes its block back. -/
theorem cover5 (i : S256x256x128.Idx) :
    ∃ t : Fin cfg0.N, (cfg0.win 5).flush t = true ∧ i ∈ ((cfg0.win 5).blk t).view.set := by
  have hi0 : (i 0).val < 256 := (i 0).isLt
  have hi1 : (i 1).val < 256 := (i 1).isLt
  have hi2 : (i 2).val < 128 := (i 2).isLt
  obtain ⟨t, ht⟩ : ∃ t : Fin cfg0.N, t.val = (i 0).val / 32 := ⟨⟨(i 0).val / 32, (show (i 0).val / 32 < 8 by omega).trans_eq N_0.symm⟩, rfl⟩
  obtain ⟨-, -, -, -, -, -, -, -, -, e9, e10, e11, -⟩ := idx0 t
  refine ⟨t, flush0_5 t, ?_⟩
  rw [mem_blk5]
  intro a
  match a with
  | ⟨0, _⟩ => show win0_5.index t (0 : Fin 3) * 32 ≤ (i 0).val ∧ (i 0).val < win0_5.index t (0 : Fin 3) * 32 + 32; omega
  | ⟨1, _⟩ => show win0_5.index t (1 : Fin 3) * 256 ≤ (i 1).val ∧ (i 1).val < win0_5.index t (1 : Fin 3) * 256 + 256; omega
  | ⟨2, _⟩ => show win0_5.index t (2 : Fin 3) * 128 ≤ (i 2).val ∧ (i 2).val < win0_5.index t (2 : Fin 3) * 128 + 128; omega

/-- Query row q of the second output lies in the block of point q / 32, and every point writes its block back. -/
theorem cover6 (i : S4x256x256.Idx) :
    ∃ t : Fin cfg0.N, (cfg0.win 6).flush t = true ∧ i ∈ ((cfg0.win 6).blk t).view.set := by
  have hi0 : (i 0).val < 4 := (i 0).isLt
  have hi1 : (i 1).val < 256 := (i 1).isLt
  have hi2 : (i 2).val < 256 := (i 2).isLt
  obtain ⟨t, ht⟩ : ∃ t : Fin cfg0.N, t.val = (i 1).val / 32 := ⟨⟨(i 1).val / 32, (show (i 1).val / 32 < 8 by omega).trans_eq N_0.symm⟩, rfl⟩
  obtain ⟨-, -, -, -, -, -, -, -, -, -, -, -, e12, e13, e14⟩ := idx0 t
  refine ⟨t, flush0_6 t, ?_⟩
  rw [mem_blk6]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 32 ≤ (i 1).val ∧ (i 1).val < win0_6.index t (1 : Fin 3) * 32 + 32; omega
  | ⟨2, _⟩ => show win0_6.index t (2 : Fin 3) * 256 ≤ (i 2).val ∧ (i 2).val < win0_6.index t (2 : Fin 3) * 256 + 256; omega

/-! ## The arrays after the last point -/

/-- The first output array ends holding the normalised rows. -/
theorem arr5_eq (c : Dev nD) : (dat0 (F := Ideal) V c).arrAt 5 cfg0.N = G5 V c :=
  (dat0 V c).arrAt_eq_of_cover 5 (G5 V c) (fun t _ => flushed5_eq V c t) cover5

/-- The second output array ends holding the pair bias with the mask added. -/
theorem arr6_eq (c : Dev nD) : (dat0 (F := Ideal) V c).arrAt 6 cfg0.N = G6 V c :=
  (dat0 V c).arrAt_eq_of_cover 6 (G6 V c) (fun t _ => flushed6_eq V c t) cover6

/-- The first output at (b, q, d): the layer normalisation of row (b, q) of x, at feature d. -/
theorem xn_final (c : Dev nD) (b q : Fin 256) (d : Fin 128) :
    (dat0 (F := Ideal) V c).arrAt 5 cfg0.N (ix3 b q d)
      = lnRow (fun k => V c main_v0 (ix3 b q k)) (fun k => V c main_arg2 (ix1 k)) (fun k => V c main_arg3 (ix1 k)) d := by
  rw [arr5_eq]
  rfl

/-- The second output at (h, q, k): the bias projection's row h against the normalised row (q, k), plus the mask. -/
theorem bias_final (c : Dev nD) (h : Fin 4) (q k : Fin 256) :
    (dat0 (F := Ideal) V c).arrAt 6 cfg0.N (ix3 h q k)
      = (∑ d : Fin 128, projIn V c h d
            * lnRow (fun k' => V c main_v0 (ix3 q k k')) (fun k' => V c main_arg2 (ix1 k')) (fun k' => V c main_arg3 (ix1 k')) d)
          + maskIn V c q k := by
  rw [arr6_eq]
  rfl

end Cert.Attn.KI

end
-- ==== Proof.Cover1.lean ====
/-
  The second kernel's output array after its 32 grid points, as one function of the arrays the region finds.

  Point t loads rows 8t .. 8t+7 of the normalised rows and the whole pair bias, stacked weights and output projection,
  and writes rows 8t .. 8t+7 of the output: the gated attention of those batch rows. Batch row b is therefore written by
  point b / 8, every row by some point, and the whole array is the kernel's arrangement of attention, row by row.
-/
import proofs.«148970_j49744311222640_2_alg».proof.Proof.KFrame1
import proofs.«148970_j49744311222640_2_alg».proof.Proof.Spec
import Idealize.ShloMosaic.Lib.Pipeline.Value
import Idealize.ShloMosaic.Lib.ValueIdx

set_option maxRecDepth 16384

noncomputable section

namespace Cert.Attn.KI

open Idealize.ShloMosaic Idealize.ShloMosaic.TcCoe Idealize.ShloMosaic.ValueIdx
open Idealize.ShloMosaic.Pipeline (Dat Cfg Window)
open Cert.KernelIdeal Cert.KernelIdeal.Gen Cert.Attn

variable (V : (c : Dev nD) → (b : Ref sig .tc) → Buf (Elt Ideal) ((c : Thread nD τ).loc b))

/-- The second kernel's index maps over its 32 grid points: the normalised rows and the output move with the point
    along the batch-row axis; the pair bias and the two weight arrays stay. -/
theorem idx1 : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

theorem tlt1 (t : Fin cfg1.N) : t.val < 32 := lt_of_lt_of_eq t.isLt N_1

/-- Batch row 8 t + r. -/
def brow (t : Fin cfg1.N) (r : Fin 8) : Fin 256 := ⟨8 * t.val + r.val, by have := tlt1 t; omega⟩

theorem iblk1_xn (c : Dev nD) (t : Fin cfg1.N) (r : Fin 8) (q : Fin 256) (d : Fin 128) :
    iblk1 V c 0 t (ix3 r q d) = V c main_v3_0 (ix3 (brow t r) q d) := by
  obtain ⟨e0, e1, e2, -⟩ := idx1 t
  show V c main_v3_0 (((cfg1.win 0).blk t).view.emb (ix3 r q d)) = _
  refine congrArg _ (funext fun a => Fin.ext ?_)
  match a with
  | ⟨0, _⟩ => show win1_0.index t (0 : Fin 3) * 8 + 1 * r.val = 8 * t.val + r.val; omega
  | ⟨1, _⟩ => show win1_0.index t (1 : Fin 3) * 256 + 1 * q.val = q.val; omega
  | ⟨2, _⟩ => show win1_0.index t (2 : Fin 3) * 128 + 1 * d.val = d.val; omega

theorem iblk1_bias (c : Dev nD) (t : Fin cfg1.N) (h : Fin 4) (q k : Fin 256) :
    iblk1 V c 1 t (ix3 h q k) = V c main_v3_1 (ix3 h q k) := by
  obtain ⟨-, -, -, e0, e1, e2, -⟩ := idx1 t
  show V c main_v3_1 (((cfg1.win 1).blk t).view.emb (ix3 h q k)) = _
  refine congrArg _ (funext fun a => Fin.ext ?_)
  match a with
  | ⟨0, _⟩ => show win1_1.index t (0 : Fin 3) * 4 + 1 * h.val = h.val; omega
  | ⟨1, _⟩ => show win1_1.index t (1 : Fin 3) * 256 + 1 * q.val = q.val; omega
  | ⟨2, _⟩ => show win1_1.index t (2 : Fin 3) * 256 + 1 * k.val = k.val; omega

theorem iblk1_w (c : Dev nD) (t : Fin cfg1.N) (j : Fin 512) (d : Fin 128) :
    iblk1 V c 2 t (ix2 j d) = V c main_v2 (ix2 j d) := by
  obtain ⟨-, -, -, -, -, -, e0, e1, -⟩ := idx1 t
  show V c main_v2 (((cfg1.win 2).blk t).view.emb (ix2 j d)) = _
  refine congrArg _ (funext fun a => Fin.ext ?_)
  match a with
  | ⟨0, _⟩ => show win1_2.index t (0 : Fin 2) * 512 + 1 * j.val = j.val; omega
  | ⟨1, _⟩ => show win1_2.index t (1 : Fin 2) * 128 + 1 * d.val = d.val; omega

theorem iblk1_wo (c : Dev nD) (t : Fin cfg1.N) (f e : Fin 128) :
    iblk1 V c 3 t (ix2 f e) = V c main_arg9 (ix2 f e) := by
  obtain ⟨-, -, -, -, -, -, -, -, e0, e1, -⟩ := idx1 t
  show V c main_arg9 (((cfg1.win 3).blk t).view.emb (ix2 f e)) = _
  refine congrArg _ (funext fun a => Fin.ext ?_)
  match a with
  | ⟨0, _⟩ => show win1_3.index t (0 : Fin 2) * 128 + 1 * f.val = f.val; omega
  | ⟨1, _⟩ => show win1_3.index t (1 : Fin 2) * 128 + 1 * e.val = e.val; omega

/-- The kernel's arrangement of attention over the arrays the region finds, at batch row b, query q, feature f. -/
def attnOf (c : Dev nD) (b q : Fin 256) (f : Fin 128) : EReal :=
  attnK (fun q' d => V c main_v3_0 (ix3 b q' d))
    (fun e d => V c main_v2 (ix2 (⟨e.val, by omega⟩ : Fin 512) d))
    (fun e d => V c main_v2 (ix2 (⟨128 + e.val, by omega⟩ : Fin 512) d))
    (fun e d => V c main_v2 (ix2 (⟨256 + e.val, by omega⟩ : Fin 512) d))
    (fun e d => V c main_v2 (ix2 (⟨384 + e.val, by omega⟩ : Fin 512) d))
    (fun f' e => V c main_arg9 (ix2 f' e))
    (fun h q' k => V c main_v3_1 (ix3 h q' k)) q f

/-- The output array as one function of its index. -/
def outG (c : Dev nD) : S256x256x128.Idx → EReal :=
  fun i => attnOf V c ⟨(i 0).val, (i 0).isLt⟩ ⟨(i 1).val, (i 1).isLt⟩ ⟨(i 2).val, (i 2).isLt⟩

theorem outG_ix3 (c : Dev nD) (b q : Fin 256) (f : Fin 128) : outG V c (ix3 b q f) = attnOf V c b q f := rfl

/-- The block's value law, a hypothesis of this module: the block a point stores, at (r,q,f), is the kernel's
    arrangement over the blocks the point loaded. -/
abbrev BlockLaw : Prop :=
  ∀ (xb : Vec Ideal S8x256x128 .bf16) (bs : Vec Ideal S4x256x256 .f32) (wc : Vec Ideal S512x128 .f32) (wo : Vec Ideal S128x128 .f32)
    (r : Fin 8) (q : Fin 256) (f : Fin 128),
    Cert.Attn.KI.attnStore (F := Ideal) xb bs wc wo (ix3 r q f)
      = attnK (fun q' d => xb (ix3 r q' d))
          (fun e d => wc (ix2 (⟨e.val, by omega⟩ : Fin 512) d))
          (fun e d => wc (ix2 (⟨128 + e.val, by omega⟩ : Fin 512) d))
          (fun e d => wc (ix2 (⟨256 + e.val, by omega⟩ : Fin 512) d))
          (fun e d => wc (ix2 (⟨384 + e.val, by omega⟩ : Fin 512) d))
          (fun f' e => wo (ix2 f' e))
          (fun h q' k => bs (ix3 h q' k)) q f

/-- What point t writes back is block t of the whole-array function. -/
theorem flushed1_out (hB : BlockLaw) (c : Dev nD) (t : Fin cfg1.N) :
    (dat1 V c).flushed 4 t = ((cfg1.win 4).blk t).view.read (Elt Ideal) (outG V c) := by
  show (cfg1.win 4).cut (grid1.coords t) ((dat1 V c).after 4 t) = _
  rw [after1_4]
  funext j
  obtain ⟨r, q, f, rfl⟩ : ∃ (r : Fin 8) (q : Fin 256) (f : Fin 128), j = ix3 r q f := ⟨j 0, j 1, j 2, eq_ix3 j⟩
  show attnStore (iblk1 V c 0 t) (iblk1 V c 1 t) (iblk1 V c 2 t) (iblk1 V c 3 t) (ix3 r q f)
      = outG V c (((cfg1.win 4).blk t).view.emb (ix3 r q f))
  have he : ((cfg1.win 4).blk t).view.emb (ix3 r q f) = ix3 (brow t r) q f := by
    obtain ⟨-, -, -, -, -, -, -, -, -, -, e0, e1, e2⟩ := idx1 t
    refine funext fun a => Fin.ext ?_
    match a with
    | ⟨0, _⟩ => show win1_4.index t (0 : Fin 3) * 8 + 1 * r.val = 8 * t.val + r.val; omega
    | ⟨1, _⟩ => show win1_4.index t (1 : Fin 3) * 256 + 1 * q.val = q.val; omega
    | ⟨2, _⟩ => show win1_4.index t (2 : Fin 3) * 128 + 1 * f.val = f.val; omega
  rw [he, outG_ix3, hB]
  unfold attnOf
  simp only [iblk1_xn, iblk1_bias, iblk1_w, iblk1_wo]

/-- An index of the output array is in point t's block iff each coordinate is in the block's range on its axis. -/
theorem mem_blk1_out (t : Fin cfg1.N) (i : S256x256x128.Idx) :
    i ∈ ((cfg1.win 4).blk t).view.set ↔ ∀ a : Fin 3, win1_4.index t a * S8x256x128.size a ≤ (i a).val ∧ (i a).val < win1_4.index t a * S8x256x128.size a + S8x256x128.size a := by
  show i ∈ ((View.whole main_v4).slice (win1_4.rect t)).set ↔ _
  rw [View.set_slice_whole, Rect.mem_set_unit]
  exact Iff.rfl

/-- The points' blocks of 8 batch rows fill the array: some point's block holds every index. -/
theorem cover1_out (i : S256x256x128.Idx) :
    ∃ t : Fin cfg1.N, (cfg1.win 4).flush t = true ∧ i ∈ ((cfg1.win 4).blk t).view.set := by
  have hi0 : (i 0).val < 256 := (i 0).isLt
  have hi1 : (i 1).val < 256 := (i 1).isLt
  have hi2 : (i 2).val < 128 := (i 2).isLt
  let t : Fin cfg1.N := ⟨(i 0).val / 8, by rw [show cfg1.N = 32 from N_1]; omega⟩
  obtain ⟨-, -, -, -, -, -, -, -, -, -, e0, e1, e2⟩ := idx1 t
  have ht : t.val = (i 0).val / 8 := rfl
  refine ⟨t, flush1_4 t, ?_⟩
  rw [mem_blk1_out]
  intro a
  match a with
  | ⟨0, _⟩ => show win1_4.index t (0 : Fin 3) * 8 ≤ (i 0).val ∧ (i 0).val < win1_4.index t (0 : Fin 3) * 8 + 8; omega
  | ⟨1, _⟩ => show win1_4.index t (1 : Fin 3) * 256 ≤ (i 1).val ∧ (i 1).val < win1_4.index t (1 : Fin 3) * 256 + 256; omega
  | ⟨2, _⟩ => show win1_4.index t (2 : Fin 3) * 128 ≤ (i 2).val ∧ (i 2).val < win1_4.index t (2 : Fin 3) * 128 + 128; omega

/-- The output array after the region: the kernel's arrangement, entry by entry. -/
theorem attn_final (hB : BlockLaw) (c : Dev nD) (b q : Fin 256) (f : Fin 128) :
    (dat1 (F := Ideal) V c).arrAt 4 cfg1.N (ix3 b q f) = attnOf V c b q f := by
  have h := (dat1 (F := Ideal) V c).arrAt_eq_of_cover 4 (outG V c) (fun t _ => flushed1_out V hB c t) (cover1_out)
  rw [h]
  rfl

end Cert.Attn.KI

end
-- ==== Proof.HostGlue.lean ====
/-
  The host operations around the two kernels, read at an index. All four are re-layouts:

  * x[0]: a [1,256,256,128] array reshaped to [256,256,128] — entry (b,q,d) is entry (0,b,q,d);
  * mask[0,0]: a [1,1,256,256] array reshaped to [256,256] — entry (q,k) is entry (0,0,q,k);
  * the four 128 x 128 projection matrices stacked along their rows into one [512,128] array — row 128 n + e of the
    stack is row e of the n-th matrix;
  * the result given a leading unit axis — entry (0,b,q,f) is entry (b,q,f).
-/
import Idealize.ShloMosaic.Lib.Pipeline.Value
import Idealize.ShloMosaic.Lib.ValueIdx

noncomputable section

namespace Cert.Attn.Glue

open Idealize.ShloMosaic Idealize.ShloMosaic.ValueIdx

variable {α : Type}

/-- Dropping the leading unit axis of a [1,256,256,128] array. -/
theorem dropLead_x (x : (⟨4, ![1, 256, 256, 128]⟩ : Shape).Idx → α)
    (h : (⟨4, ![1, 256, 256, 128]⟩ : Shape).ShapeCasts ⟨3, ![256, 256, 128]⟩) (b q : Fin 256) (d : Fin 128) :
    shapeCast ⟨3, ![256, 256, 128]⟩ x h (ix3 b q d) = x (ix4 (0 : Fin 1) b q d) :=
  shapeCast_apply x h _ _ (by
    rewrite [Shape.rowMajor_val_four, Shape.rowMajor_val_three]
    show ((0 * 256 + b.val) * 256 + q.val) * 128 + d.val = (b.val * 256 + q.val) * 128 + d.val
    omega)

/-- Dropping the two leading unit axes of a [1,1,256,256] array. -/
theorem dropLead_mask (x : (⟨4, ![1, 1, 256, 256]⟩ : Shape).Idx → α)
    (h : (⟨4, ![1, 1, 256, 256]⟩ : Shape).ShapeCasts ⟨2, ![256, 256]⟩) (q k : Fin 256) :
    shapeCast ⟨2, ![256, 256]⟩ x h (ix2 q k) = x (ix4 (0 : Fin 1) (0 : Fin 1) q k) :=
  shapeCast_apply x h _ _ (by
    rewrite [Shape.rowMajor_val_four, Shape.rowMajor_val_two]
    show ((0 * 1 + 0) * 256 + q.val) * 256 + k.val = q.val * 256 + k.val
    omega)

/-- Adding a leading unit axis to a [256,256,128] array. -/
theorem addLead_out (y : (⟨3, ![256, 256, 128]⟩ : Shape).Idx → α)
    (h : (⟨3, ![256, 256, 128]⟩ : Shape).BroadcastsInDim ⟨4, ![1, 256, 256, 128]⟩ ![1, 2, 3]) (b q : Fin 256) (f : Fin 128) :
    broadcastInDim ⟨4, ![1, 256, 256, 128]⟩ ![1, 2, 3] h y (ix4 (0 : Fin 1) b q f) = y (ix3 b q f) :=
  broadcastInDim_apply _ h y _ _ (fun a => match a with
    | ⟨0, _⟩ => by show b.val = if (256 : Nat) = 1 then 0 else b.val; rw [if_neg (by decide)]
    | ⟨1, _⟩ => by show q.val = if (256 : Nat) = 1 then 0 else q.val; rw [if_neg (by decide)]
    | ⟨2, _⟩ => by show f.val = if (128 : Nat) = 1 then 0 else f.val; rw [if_neg (by decide)])

section Stack

variable (x0 x1 x2 x3 : (⟨2, ![128, 128]⟩ : Shape).Idx → α)

/-- The list of the four matrices, as the stack's operand. -/
abbrev pieces : List ((s : Shape) × (s.Idx → α)) :=
  [⟨⟨2, ![128, 128]⟩, x0⟩, ⟨⟨2, ![128, 128]⟩, x1⟩, ⟨⟨2, ![128, 128]⟩, x2⟩, ⟨⟨2, ![128, 128]⟩, x3⟩]

variable (h : Shape.Concatenates ((pieces x0 x1 x2 x3).map (·.1)) ⟨2, ![512, 128]⟩ 0)

/-- Row 128 n + e of the stack is row e of the n-th piece, stated once for a piece at list position `n`. -/
theorem stack_row (n : Nat) (hn : n < (pieces x0 x1 x2 x3).length) (xn : (⟨2, ![128, 128]⟩ : Shape).Idx → α)
    (hxn : (pieces x0 x1 x2 x3)[n] = ⟨⟨2, ![128, 128]⟩, xn⟩) (e d : Fin 128) (r : Fin 512) (hr : r.val = 128 * n + e.val) :
    concatenate ⟨2, ![512, 128]⟩ 0 (pieces x0 x1 x2 x3) h (ix2 r d) = xn (ix2 e d) := by
  refine concatenate_apply_piece 0 _ h _ n hn _ xn hxn rfl (128 * n) ?_ (ix2 e d) ?_ ?_
  · have : n = 0 ∨ n = 1 ∨ n = 2 ∨ n = 3 := by simp only [pieces, List.length] at hn; omega
    rcases this with rfl | rfl | rfl | rfl <;> rfl
  · intro b hb
    match b with
    | ⟨0, _⟩ => exact absurd rfl hb
    | ⟨1, _⟩ => rfl
  · show 128 * n + e.val = r.val
    omega

end Stack

end Cert.Attn.Glue

end
-- ==== Proof.KernelValue.lean ====
/-
  The kernel program's result, entry by entry, is the kernel's arrangement `GK` of the argument arrays.

  The result is the second region's output array with a leading unit axis. Its entry (b,q,f) is the attention of batch
  row b over the arrays that region finds: the normalised rows and the pair bias the first region left, the four
  projection matrices stacked by the host, the output projection. The first region's two arrays are, entry by entry,
  the layer norm of the rows of x[0] and the pair bias of those rows plus mask[0,0], x[0] and mask[0,0] being host
  reshapes of the arguments. Unfolding these in order turns the second region's arrangement over what it finds into
  `GK` over the arguments.
-/
import proofs.«148970_j49744311222640_2_alg».proof.Proof.KFrameRun
import proofs.«148970_j49744311222640_2_alg».proof.Proof.Cover0
import proofs.«148970_j49744311222640_2_alg».proof.Proof.Cover1
import proofs.«148970_j49744311222640_2_alg».proof.Proof.HostGlue
import Idealize.ShloMosaic.Lib.StableHlo.Run

set_option maxRecDepth 16384

noncomputable section

namespace Cert.Attn.KI

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Attn

variable (m : (ℓ : Loc nD τ sig) → Buf (Elt Ideal) ℓ)

/-! ## The host stretch before the regions, read back -/

theorem V1_v0 (c : Dev nD) :
    (V1 m c main_v0 : S256x256x128.Idx → EReal)
      = shapeCast S256x256x128 (m ((c.tc : Thread nD τ).loc main_arg0)) shapeCasts_S1x256x256x128_S256x256x128 := by
  show StableHlo.after hostOps0 (V0 m c) (Proc.devRef .tc main_v0) = _
  after_results
  rfl

theorem V1_v1 (c : Dev nD) :
    (V1 m c main_v1 : S256x256.Idx → EReal)
      = shapeCast S256x256 (m ((c.tc : Thread nD τ).loc main_arg1)) shapeCasts_S1x1x256x256_S256x256 := by
  show StableHlo.after hostOps0 (V0 m c) (Proc.devRef .tc main_v1) = _
  after_results
  rfl

theorem V1_v2 (c : Dev nD) :
    (V1 m c main_v2 : S512x128.Idx → EReal)
      = concatenate S512x128 0 [⟨S128x128, m ((c.tc : Thread nD τ).loc main_arg5)⟩, ⟨S128x128, m ((c.tc : Thread nD τ).loc main_arg6)⟩,
          ⟨S128x128, m ((c.tc : Thread nD τ).loc main_arg7)⟩, ⟨S128x128, m ((c.tc : Thread nD τ).loc main_arg8)⟩]
          concatenates_S128x128_S128x128_S128x128_S128x128_S512x128_d0 := by
  show StableHlo.after hostOps0 (V0 m c) (Proc.devRef .tc main_v2) = _
  after_results
  rfl

/-- An argument the host stretch does not write is found as launched. -/
theorem V1_arg (c : Dev nD) (r : Ref sig .tc) (h : r ∉ hostOps0_W) : V1 m c r = m ((c.tc : Thread nD τ).loc r) :=
  (V1_of m c r h).trans rfl

/-! ## Congruence of the specification's pieces in their function arguments -/

theorem lnRow_congr {r r' lw lw' lb lb' : Fin 128 → EReal} (hr : ∀ k, r k = r' k) (hw : ∀ k, lw k = lw' k) (hb : ∀ k, lb k = lb' k)
    (d : Fin 128) : lnRow r lw lb d = lnRow r' lw' lb' d := by
  rw [funext hr, funext hw, funext hb]

theorem attnK_congr {xr xr' : Fin 256 → Fin 128 → EReal} {Wq Wq' Wk Wk' Wv Wv' Wg Wg' Wo Wo' : Fin 128 → Fin 128 → EReal}
    {bm bm' : Fin 4 → Fin 256 → Fin 256 → EReal}
    (hx : ∀ q d, xr q d = xr' q d) (hq : ∀ e d, Wq e d = Wq' e d) (hk : ∀ e d, Wk e d = Wk' e d) (hv : ∀ e d, Wv e d = Wv' e d)
    (hg : ∀ e d, Wg e d = Wg' e d) (ho : ∀ f e, Wo f e = Wo' f e) (hb : ∀ h q k, bm h q k = bm' h q k) (q : Fin 256) (f : Fin 128) :
    attnK xr Wq Wk Wv Wg Wo bm q f = attnK xr' Wq' Wk' Wv' Wg' Wo' bm' q f := by
  rw [funext fun q => funext fun d => hx q d, funext fun e => funext fun d => hq e d, funext fun e => funext fun d => hk e d,
    funext fun e => funext fun d => hv e d, funext fun e => funext fun d => hg e d, funext fun f => funext fun e => ho f e,
    funext fun h => funext fun q => funext fun k => hb h q k]

/-! ## What the first region finds -/

theorem enter0_x (c : Dev nD) (b q : Fin 256) (k : Fin 128) :
    enter0 m c main_v0 (ix3 b q k) = m ((c.tc : Thread nD τ).loc main_arg0) (ix4 (0 : Fin 1) b q k) :=
  (congrFun (V1_v0 m c) (ix3 b q k)).trans (Glue.dropLead_x _ _ b q k)

theorem enter0_mask (c : Dev nD) (q k : Fin 256) :
    enter0 m c main_v1 (ix2 q k) = m ((c.tc : Thread nD τ).loc main_arg1) (ix4 (0 : Fin 1) (0 : Fin 1) q k) :=
  (congrFun (V1_v1 m c) (ix2 q k)).trans (Glue.dropLead_mask _ _ q k)

theorem enter0_lw (c : Dev nD) : enter0 m c main_arg2 = m ((c.tc : Thread nD τ).loc main_arg2) := V1_arg m c main_arg2 (by decide)
theorem enter0_lb (c : Dev nD) : enter0 m c main_arg3 = m ((c.tc : Thread nD τ).loc main_arg3) := V1_arg m c main_arg3 (by decide)
theorem enter0_wb (c : Dev nD) : enter0 m c main_arg4 = m ((c.tc : Thread nD τ).loc main_arg4) := V1_arg m c main_arg4 (by decide)

/-! ## What the second region finds -/

/-- The arguments as the specification reads them. -/
abbrev argX (c : Dev nD) : Fin 256 → Fin 256 → Fin 128 → EReal := fun b q d => m ((c.tc : Thread nD τ).loc main_arg0) (ix4 (0 : Fin 1) b q d)
abbrev argMask (c : Dev nD) : Fin 256 → Fin 256 → EReal := fun q k => m ((c.tc : Thread nD τ).loc main_arg1) (ix4 (0 : Fin 1) (0 : Fin 1) q k)
abbrev argLw (c : Dev nD) : Fin 128 → EReal := fun d => m ((c.tc : Thread nD τ).loc main_arg2) (ix1 d)
abbrev argLb (c : Dev nD) : Fin 128 → EReal := fun d => m ((c.tc : Thread nD τ).loc main_arg3) (ix1 d)
abbrev argWb (c : Dev nD) : Fin 4 → Fin 128 → EReal := fun h d => m ((c.tc : Thread nD τ).loc main_arg4) (ix2 h d)

theorem enter1_xn (c : Dev nD) (b q : Fin 256) (d : Fin 128) :
    enter1 m c main_v3_0 (ix3 b q d) = lnRow (argX m c b q) (argLw m c) (argLb m c) d := by
  show leave0 m c main_v3_0 (ix3 b q d) = _
  rw [leave0_v3_0]
  unfold xnArr
  rw [xn_final (enter0 m) c b q d]
  exact lnRow_congr (fun k => enter0_x m c b q k) (fun k => congrFun (enter0_lw m c) (ix1 k))
    (fun k => congrFun (enter0_lb m c) (ix1 k)) d

theorem enter1_bias (c : Dev nD) (h : Fin 4) (q k : Fin 256) :
    enter1 m c main_v3_1 (ix3 h q k)
      = pairBias (fun b' q' d => lnRow (argX m c b' q') (argLw m c) (argLb m c) d) (argWb m c) h q k + argMask m c q k := by
  show leave0 m c main_v3_1 (ix3 h q k) = _
  rw [leave0_v3_1]
  unfold biasArr
  rw [bias_final (enter0 m) c h q k]
  unfold pairBias projIn maskIn
  exact congrArg₂ (· + ·)
    (Finset.sum_congr rfl fun d _ => congrArg₂ (· * ·) (congrFun (enter0_wb m c) (ix2 h d))
      (lnRow_congr (fun k' => enter0_x m c q k k') (fun k' => congrFun (enter0_lw m c) (ix1 k'))
        (fun k' => congrFun (enter0_lb m c) (ix1 k')) d))
    (enter0_mask m c q k)

/-- Row 128 n + e of the stacked weights the second region finds is row e of the n-th projection matrix. -/
theorem enter1_w (c : Dev nD) (n : Nat) (hn : n < 4) (xn : S128x128.Idx → EReal)
    (hxn : (Glue.pieces (m ((c.tc : Thread nD τ).loc main_arg5)) (m ((c.tc : Thread nD τ).loc main_arg6))
      (m ((c.tc : Thread nD τ).loc main_arg7)) (m ((c.tc : Thread nD τ).loc main_arg8)))[n]'(by simpa using hn) = ⟨⟨2, ![128, 128]⟩, xn⟩)
    (e d : Fin 128) (r : Fin 512) (hr : r.val = 128 * n + e.val) :
    enter1 m c main_v2 (ix2 r d) = xn (ix2 e d) := by
  show leave0 m c main_v2 (ix2 r d) = _
  rw [leave0_of_ne m c main_v2 (by decide) (by decide)]
  exact (congrFun (V1_v2 m c) (ix2 r d)).trans (Glue.stack_row _ _ _ _ _ n (by simpa using hn) xn hxn e d r hr)

theorem enter1_wq (c : Dev nD) (e d : Fin 128) :
    enter1 m c main_v2 (ix2 (⟨e.val, by omega⟩ : Fin 512) d) = m ((c.tc : Thread nD τ).loc main_arg5) (ix2 e d) :=
  enter1_w m c 0 (by decide) _ rfl e d _ (by show e.val = 128 * 0 + e.val; omega)

theorem enter1_wk (c : Dev nD) (e d : Fin 128) :
    enter1 m c main_v2 (ix2 (⟨128 + e.val, by omega⟩ : Fin 512) d) = m ((c.tc : Thread nD τ).loc main_arg6) (ix2 e d) :=
  enter1_w m c 1 (by decide) _ rfl e d _ (by show 128 + e.val = 128 * 1 + e.val; omega)

theorem enter1_wv (c : Dev nD) (e d : Fin 128) :
    enter1 m c main_v2 (ix2 (⟨256 + e.val, by omega⟩ : Fin 512) d) = m ((c.tc : Thread nD τ).loc main_arg7) (ix2 e d) :=
  enter1_w m c 2 (by decide) _ rfl e d _ (by show 256 + e.val = 128 * 2 + e.val; omega)

theorem enter1_wg (c : Dev nD) (e d : Fin 128) :
    enter1 m c main_v2 (ix2 (⟨384 + e.val, by omega⟩ : Fin 512) d) = m ((c.tc : Thread nD τ).loc main_arg8) (ix2 e d) :=
  enter1_w m c 3 (by decide) _ rfl e d _ (by show 384 + e.val = 128 * 3 + e.val; omega)

theorem enter1_wo (c : Dev nD) : enter1 m c main_arg9 = m ((c.tc : Thread nD τ).loc main_arg9) := by
  show leave0 m c main_arg9 = _
  rw [leave0_of_ne m c main_arg9 (by decide) (by decide)]
  exact V1_arg m c main_arg9 (by decide)

/-! ## The result -/

theorem kernel_value (hB : BlockLaw) (c : Dev nD) (b q : Fin 256) (f : Fin 128) :
    resultArr (F := Ideal) m c (ix4 (0 : Fin 1) b q f)
      = GK (argX m c) (argMask m c) (argLw m c) (argLb m c) (argWb m c)
          (fun e d => m ((c.tc : Thread nD τ).loc main_arg5) (ix2 e d)) (fun e d => m ((c.tc : Thread nD τ).loc main_arg6) (ix2 e d))
          (fun e d => m ((c.tc : Thread nD τ).loc main_arg7) (ix2 e d)) (fun e d => m ((c.tc : Thread nD τ).loc main_arg8) (ix2 e d))
          (fun e d => m ((c.tc : Thread nD τ).loc main_arg9) (ix2 e d)) b q f := by
  refine (Glue.addLead_out (attnArr m c) bcast_S256x256x128_S1x256x256x128_1_2_3 b q f).trans ?_
  unfold attnArr
  rw [attn_final (enter1 m) hB c b q f]
  unfold attnOf GK
  exact attnK_congr (fun q' d => enter1_xn m c b q' d) (fun e d => enter1_wq m c e d) (fun e d => enter1_wk m c e d)
    (fun e d => enter1_wv m c e d) (fun e d => enter1_wg m c e d) (fun f' e => congrFun (enter1_wo m c) (ix2 f' e))
    (fun h q' k => enter1_bias m c h q' k) q f

end Cert.Attn.KI

end
-- ==== Proof.AttnBlockDots.lean ====
import proofs.«148970_j49744311222640_2_alg».proof.Proof.Stored
import Idealize.ShloMosaic.Lib.ValueIdx
import Idealize.ShloMosaic.PureOps.Ideal.Laws

noncomputable section

open scoped BigOperators

namespace Cert.Attn.K1

open Idealize.ShloMosaic Idealize.ShloMosaic.ValueIdx Cert.KernelIdeal Cert.KernelIdeal.Gen

/-! The four contractions of the attention block read at an index: each is the plain sum over its one contracted axis. -/

theorem proj_l0 (i : S2048x512.Idx) (c : dot_S2048x128_S512x128_S2048x512_1_1_0_0_n_n.contr.Idx) :
    (dot_S2048x128_S512x128_S2048x512_1_1_0_0_n_n.lhsIdx i c 0).val = (i 0).val := by
  unfold DotDims.lhsIdx
  rw [dif_neg (show ¬(0 : Fin S2048x128.rank) ∈ dot_S2048x128_S512x128_S2048x512_1_1_0_0_n_n.lhsBatch by decide), dif_pos (show (0 : Fin S2048x128.rank) ∈ dot_S2048x128_S512x128_S2048x512_1_1_0_0_n_n.lhsNonContracting by decide)]
  rfl
theorem proj_l1 (i : S2048x512.Idx) (c : dot_S2048x128_S512x128_S2048x512_1_1_0_0_n_n.contr.Idx) :
    (dot_S2048x128_S512x128_S2048x512_1_1_0_0_n_n.lhsIdx i c 1).val = (c ⟨0, by decide⟩).val :=
  dot_S2048x128_S512x128_S2048x512_1_1_0_0_n_n.lhsIdx_val_of_single rfl i c
theorem proj_r0 (i : S2048x512.Idx) (c : dot_S2048x128_S512x128_S2048x512_1_1_0_0_n_n.contr.Idx) :
    (dot_S2048x128_S512x128_S2048x512_1_1_0_0_n_n.rhsIdx i c 0).val = (i 1).val := by
  unfold DotDims.rhsIdx
  rw [dif_neg (show ¬(0 : Fin S512x128.rank) ∈ dot_S2048x128_S512x128_S2048x512_1_1_0_0_n_n.rhsBatch by decide), dif_pos (show (0 : Fin S512x128.rank) ∈ dot_S2048x128_S512x128_S2048x512_1_1_0_0_n_n.rhsNonContracting by decide)]
  rfl
theorem proj_r1 (i : S2048x512.Idx) (c : dot_S2048x128_S512x128_S2048x512_1_1_0_0_n_n.contr.Idx) :
    (dot_S2048x128_S512x128_S2048x512_1_1_0_0_n_n.rhsIdx i c 1).val = (c ⟨0, by decide⟩).val :=
  dot_S2048x128_S512x128_S2048x512_1_1_0_0_n_n.rhsIdx_val_of_single rfl i c

/-- The fused projection: row `i` of the left operand against row `j` of the right one. -/
theorem mm_proj {φ₁ φ₂ : FTy} (lhs : FVec Ideal S2048x128 φ₁) (rhs : FVec Ideal S512x128 φ₂) (i : Fin 2048) (j : Fin 512) :
    matmul dot_S2048x128_S512x128_S2048x512_1_1_0_0_n_n none lhs rhs (constant (F := Ideal) S2048x512 .f32 0x00000000#32) (ix2 i j)
      = ∑ k : Fin 128, lhs (ix2 i k) * rhs (ix2 j k) := by
  simp only [matmul]
  rw [Ideal.matmul_constant_zero_apply, ← Equiv.sum_comp (contrEquiv1 dot_S2048x128_S512x128_S2048x512_1_1_0_0_n_n 128 rfl rfl).symm]
  refine Finset.sum_congr rfl fun k _ => ?_
  have hk := contrEquiv1_symm_val dot_S2048x128_S512x128_S2048x512_1_1_0_0_n_n 128 rfl rfl k
  have el : dot_S2048x128_S512x128_S2048x512_1_1_0_0_n_n.lhsIdx (ix2 i j) ((contrEquiv1 dot_S2048x128_S512x128_S2048x512_1_1_0_0_n_n 128 rfl rfl).symm k) = ix2 i k := funext fun a => Fin.ext (by
    match a with
    | ⟨0, _⟩ => exact proj_l0 _ _
    | ⟨1, _⟩ => exact (proj_l1 _ _).trans hk
)
  have er : dot_S2048x128_S512x128_S2048x512_1_1_0_0_n_n.rhsIdx (ix2 i j) ((contrEquiv1 dot_S2048x128_S512x128_S2048x512_1_1_0_0_n_n 128 rfl rfl).symm k) = ix2 j k := funext fun a => Fin.ext (by
    match a with
    | ⟨0, _⟩ => exact proj_r0 _ _
    | ⟨1, _⟩ => exact (proj_r1 _ _).trans hk
)
  rw [el, er]

theorem outp_l0 (i : S2048x128.Idx) (c : dot_S2048x128_S128x128_S2048x128_1_1_0_0_n_n.contr.Idx) :
    (dot_S2048x128_S128x128_S2048x128_1_1_0_0_n_n.lhsIdx i c 0).val = (i 0).val := by
  unfold DotDims.lhsIdx
  rw [dif_neg (show ¬(0 : Fin S2048x128.rank) ∈ dot_S2048x128_S128x128_S2048x128_1_1_0_0_n_n.lhsBatch by decide), dif_pos (show (0 : Fin S2048x128.rank) ∈ dot_S2048x128_S128x128_S2048x128_1_1_0_0_n_n.lhsNonContracting by decide)]
  rfl
theorem outp_l1 (i : S2048x128.Idx) (c : dot_S2048x128_S128x128_S2048x128_1_1_0_0_n_n.contr.Idx) :
    (dot_S2048x128_S128x128_S2048x128_1_1_0_0_n_n.lhsIdx i c 1).val = (c ⟨0, by decide⟩).val :=
  dot_S2048x128_S128x128_S2048x128_1_1_0_0_n_n.lhsIdx_val_of_single rfl i c
theorem outp_r0 (i : S2048x128.Idx) (c : dot_S2048x128_S128x128_S2048x128_1_1_0_0_n_n.contr.Idx) :
    (dot_S2048x128_S128x128_S2048x128_1_1_0_0_n_n.rhsIdx i c 0).val = (i 1).val := by
  unfold DotDims.rhsIdx
  rw [dif_neg (show ¬(0 : Fin S128x128.rank) ∈ dot_S2048x128_S128x128_S2048x128_1_1_0_0_n_n.rhsBatch by decide), dif_pos (show (0 : Fin S128x128.rank) ∈ dot_S2048x128_S128x128_S2048x128_1_1_0_0_n_n.rhsNonContracting by decide)]
  rfl
theorem outp_r1 (i : S2048x128.Idx) (c : dot_S2048x128_S128x128_S2048x128_1_1_0_0_n_n.contr.Idx) :
    (dot_S2048x128_S128x128_S2048x128_1_1_0_0_n_n.rhsIdx i c 1).val = (c ⟨0, by decide⟩).val :=
  dot_S2048x128_S128x128_S2048x128_1_1_0_0_n_n.rhsIdx_val_of_single rfl i c

/-- The output projection: row `i` of the left operand against row `j` of the right one. -/
theorem mm_out {φ₁ φ₂ : FTy} (lhs : FVec Ideal S2048x128 φ₁) (rhs : FVec Ideal S128x128 φ₂) (i : Fin 2048) (j : Fin 128) :
    matmul dot_S2048x128_S128x128_S2048x128_1_1_0_0_n_n none lhs rhs (constant (F := Ideal) S2048x128 .f32 0x00000000#32) (ix2 i j)
      = ∑ k : Fin 128, lhs (ix2 i k) * rhs (ix2 j k) := by
  simp only [matmul]
  rw [Ideal.matmul_constant_zero_apply, ← Equiv.sum_comp (contrEquiv1 dot_S2048x128_S128x128_S2048x128_1_1_0_0_n_n 128 rfl rfl).symm]
  refine Finset.sum_congr rfl fun k _ => ?_
  have hk := contrEquiv1_symm_val dot_S2048x128_S128x128_S2048x128_1_1_0_0_n_n 128 rfl rfl k
  have el : dot_S2048x128_S128x128_S2048x128_1_1_0_0_n_n.lhsIdx (ix2 i j) ((contrEquiv1 dot_S2048x128_S128x128_S2048x128_1_1_0_0_n_n 128 rfl rfl).symm k) = ix2 i k := funext fun a => Fin.ext (by
    match a with
    | ⟨0, _⟩ => exact outp_l0 _ _
    | ⟨1, _⟩ => exact (outp_l1 _ _).trans hk
)
  have er : dot_S2048x128_S128x128_S2048x128_1_1_0_0_n_n.rhsIdx (ix2 i j) ((contrEquiv1 dot_S2048x128_S128x128_S2048x128_1_1_0_0_n_n 128 rfl rfl).symm k) = ix2 j k := funext fun a => Fin.ext (by
    match a with
    | ⟨0, _⟩ => exact outp_r0 _ _
    | ⟨1, _⟩ => exact (outp_r1 _ _).trans hk
)
  rw [el, er]

theorem qk_l0 (i : S8x256x256.Idx) (c : dot_S8x256x32_S8x256x32_S8x256x256_2_2_1_1_0_0.contr.Idx) :
    (dot_S8x256x32_S8x256x32_S8x256x256_2_2_1_1_0_0.lhsIdx i c 0).val = (i 0).val := by
  unfold DotDims.lhsIdx
  rw [dif_pos (show (0 : Fin S8x256x32.rank) ∈ dot_S8x256x32_S8x256x32_S8x256x256_2_2_1_1_0_0.lhsBatch by decide)]
  rfl
theorem qk_l1 (i : S8x256x256.Idx) (c : dot_S8x256x32_S8x256x32_S8x256x256_2_2_1_1_0_0.contr.Idx) :
    (dot_S8x256x32_S8x256x32_S8x256x256_2_2_1_1_0_0.lhsIdx i c 1).val = (i 1).val := by
  unfold DotDims.lhsIdx
  rw [dif_neg (show ¬(1 : Fin S8x256x32.rank) ∈ dot_S8x256x32_S8x256x32_S8x256x256_2_2_1_1_0_0.lhsBatch by decide), dif_pos (show (1 : Fin S8x256x32.rank) ∈ dot_S8x256x32_S8x256x32_S8x256x256_2_2_1_1_0_0.lhsNonContracting by decide)]
  rfl
theorem qk_l2 (i : S8x256x256.Idx) (c : dot_S8x256x32_S8x256x32_S8x256x256_2_2_1_1_0_0.contr.Idx) :
    (dot_S8x256x32_S8x256x32_S8x256x256_2_2_1_1_0_0.lhsIdx i c 2).val = (c ⟨0, by decide⟩).val :=
  dot_S8x256x32_S8x256x32_S8x256x256_2_2_1_1_0_0.lhsIdx_val_of_single rfl i c
theorem qk_r0 (i : S8x256x256.Idx) (c : dot_S8x256x32_S8x256x32_S8x256x256_2_2_1_1_0_0.contr.Idx) :
    (dot_S8x256x32_S8x256x32_S8x256x256_2_2_1_1_0_0.rhsIdx i c 0).val = (i 0).val := by
  unfold DotDims.rhsIdx
  rw [dif_pos (show (0 : Fin S8x256x32.rank) ∈ dot_S8x256x32_S8x256x32_S8x256x256_2_2_1_1_0_0.rhsBatch by decide)]
  rfl
theorem qk_r1 (i : S8x256x256.Idx) (c : dot_S8x256x32_S8x256x32_S8x256x256_2_2_1_1_0_0.contr.Idx) :
    (dot_S8x256x32_S8x256x32_S8x256x256_2_2_1_1_0_0.rhsIdx i c 1).val = (i 2).val := by
  unfold DotDims.rhsIdx
  rw [dif_neg (show ¬(1 : Fin S8x256x32.rank) ∈ dot_S8x256x32_S8x256x32_S8x256x256_2_2_1_1_0_0.rhsBatch by decide), dif_pos (show (1 : Fin S8x256x32.rank) ∈ dot_S8x256x32_S8x256x32_S8x256x256_2_2_1_1_0_0.rhsNonContracting by decide)]
  rfl
theorem qk_r2 (i : S8x256x256.Idx) (c : dot_S8x256x32_S8x256x32_S8x256x256_2_2_1_1_0_0.contr.Idx) :
    (dot_S8x256x32_S8x256x32_S8x256x256_2_2_1_1_0_0.rhsIdx i c 2).val = (c ⟨0, by decide⟩).val :=
  dot_S8x256x32_S8x256x32_S8x256x256_2_2_1_1_0_0.rhsIdx_val_of_single rfl i c

/-- The scores: within batch row `r`, query row `q` against key row `k`, summed over the 32 lanes. -/
theorem mm_qk {φ₁ φ₂ : FTy} (lhs : FVec Ideal S8x256x32 φ₁) (rhs : FVec Ideal S8x256x32 φ₂) (r : Fin 8) (q k' : Fin 256) :
    matmul dot_S8x256x32_S8x256x32_S8x256x256_2_2_1_1_0_0 none lhs rhs (constant (F := Ideal) S8x256x256 .f32 0x00000000#32) (ix3 r q k')
      = ∑ k : Fin 32, lhs (ix3 r q k) * rhs (ix3 r k' k) := by
  simp only [matmul]
  rw [Ideal.matmul_constant_zero_apply, ← Equiv.sum_comp (contrEquiv1 dot_S8x256x32_S8x256x32_S8x256x256_2_2_1_1_0_0 32 rfl rfl).symm]
  refine Finset.sum_congr rfl fun k _ => ?_
  have hk := contrEquiv1_symm_val dot_S8x256x32_S8x256x32_S8x256x256_2_2_1_1_0_0 32 rfl rfl k
  have el : dot_S8x256x32_S8x256x32_S8x256x256_2_2_1_1_0_0.lhsIdx (ix3 r q k') ((contrEquiv1 dot_S8x256x32_S8x256x32_S8x256x256_2_2_1_1_0_0 32 rfl rfl).symm k) = ix3 r q k := funext fun a => Fin.ext (by
    match a with
    | ⟨0, _⟩ => exact qk_l0 _ _
    | ⟨1, _⟩ => exact qk_l1 _ _
    | ⟨2, _⟩ => exact (qk_l2 _ _).trans hk
)
  have er : dot_S8x256x32_S8x256x32_S8x256x256_2_2_1_1_0_0.rhsIdx (ix3 r q k') ((contrEquiv1 dot_S8x256x32_S8x256x32_S8x256x256_2_2_1_1_0_0 32 rfl rfl).symm k) = ix3 r k' k := funext fun a => Fin.ext (by
    match a with
    | ⟨0, _⟩ => exact qk_r0 _ _
    | ⟨1, _⟩ => exact qk_r1 _ _
    | ⟨2, _⟩ => exact (qk_r2 _ _).trans hk
)
  rw [el, er]

theorem pv_l0 (i : S8x256x32.Idx) (c : dot_S8x256x256_S8x256x32_S8x256x32_2_1_1_2_0_0.contr.Idx) :
    (dot_S8x256x256_S8x256x32_S8x256x32_2_1_1_2_0_0.lhsIdx i c 0).val = (i 0).val := by
  unfold DotDims.lhsIdx
  rw [dif_pos (show (0 : Fin S8x256x256.rank) ∈ dot_S8x256x256_S8x256x32_S8x256x32_2_1_1_2_0_0.lhsBatch by decide)]
  rfl
theorem pv_l1 (i : S8x256x32.Idx) (c : dot_S8x256x256_S8x256x32_S8x256x32_2_1_1_2_0_0.contr.Idx) :
    (dot_S8x256x256_S8x256x32_S8x256x32_2_1_1_2_0_0.lhsIdx i c 1).val = (i 1).val := by
  unfold DotDims.lhsIdx
  rw [dif_neg (show ¬(1 : Fin S8x256x256.rank) ∈ dot_S8x256x256_S8x256x32_S8x256x32_2_1_1_2_0_0.lhsBatch by decide), dif_pos (show (1 : Fin S8x256x256.rank) ∈ dot_S8x256x256_S8x256x32_S8x256x32_2_1_1_2_0_0.lhsNonContracting by decide)]
  rfl
theorem pv_l2 (i : S8x256x32.Idx) (c : dot_S8x256x256_S8x256x32_S8x256x32_2_1_1_2_0_0.contr.Idx) :
    (dot_S8x256x256_S8x256x32_S8x256x32_2_1_1_2_0_0.lhsIdx i c 2).val = (c ⟨0, by decide⟩).val :=
  dot_S8x256x256_S8x256x32_S8x256x32_2_1_1_2_0_0.lhsIdx_val_of_single rfl i c
theorem pv_r0 (i : S8x256x32.Idx) (c : dot_S8x256x256_S8x256x32_S8x256x32_2_1_1_2_0_0.contr.Idx) :
    (dot_S8x256x256_S8x256x32_S8x256x32_2_1_1_2_0_0.rhsIdx i c 0).val = (i 0).val := by
  unfold DotDims.rhsIdx
  rw [dif_pos (show (0 : Fin S8x256x32.rank) ∈ dot_S8x256x256_S8x256x32_S8x256x32_2_1_1_2_0_0.rhsBatch by decide)]
  rfl
theorem pv_r1 (i : S8x256x32.Idx) (c : dot_S8x256x256_S8x256x32_S8x256x32_2_1_1_2_0_0.contr.Idx) :
    (dot_S8x256x256_S8x256x32_S8x256x32_2_1_1_2_0_0.rhsIdx i c 1).val = (c ⟨0, by decide⟩).val :=
  dot_S8x256x256_S8x256x32_S8x256x32_2_1_1_2_0_0.rhsIdx_val_of_single rfl i c
theorem pv_r2 (i : S8x256x32.Idx) (c : dot_S8x256x256_S8x256x32_S8x256x32_2_1_1_2_0_0.contr.Idx) :
    (dot_S8x256x256_S8x256x32_S8x256x32_2_1_1_2_0_0.rhsIdx i c 2).val = (i 2).val := by
  unfold DotDims.rhsIdx
  rw [dif_neg (show ¬(2 : Fin S8x256x32.rank) ∈ dot_S8x256x256_S8x256x32_S8x256x32_2_1_1_2_0_0.rhsBatch by decide), dif_pos (show (2 : Fin S8x256x32.rank) ∈ dot_S8x256x256_S8x256x32_S8x256x32_2_1_1_2_0_0.rhsNonContracting by decide)]
  rfl

/-- The mix: within batch row `r`, the weights of query `q` against column `d` of the values, summed over the 256 keys. -/
theorem mm_pv {φ₁ φ₂ : FTy} (lhs : FVec Ideal S8x256x256 φ₁) (rhs : FVec Ideal S8x256x32 φ₂) (r : Fin 8) (q : Fin 256) (d : Fin 32) :
    matmul dot_S8x256x256_S8x256x32_S8x256x32_2_1_1_2_0_0 none lhs rhs (constant (F := Ideal) S8x256x32 .f32 0x00000000#32) (ix3 r q d)
      = ∑ k : Fin 256, lhs (ix3 r q k) * rhs (ix3 r k d) := by
  simp only [matmul]
  rw [Ideal.matmul_constant_zero_apply, ← Equiv.sum_comp (contrEquiv1 dot_S8x256x256_S8x256x32_S8x256x32_2_1_1_2_0_0 256 rfl rfl).symm]
  refine Finset.sum_congr rfl fun k _ => ?_
  have hk := contrEquiv1_symm_val dot_S8x256x256_S8x256x32_S8x256x32_2_1_1_2_0_0 256 rfl rfl k
  have el : dot_S8x256x256_S8x256x32_S8x256x32_2_1_1_2_0_0.lhsIdx (ix3 r q d) ((contrEquiv1 dot_S8x256x256_S8x256x32_S8x256x32_2_1_1_2_0_0 256 rfl rfl).symm k) = ix3 r q k := funext fun a => Fin.ext (by
    match a with
    | ⟨0, _⟩ => exact pv_l0 _ _
    | ⟨1, _⟩ => exact pv_l1 _ _
    | ⟨2, _⟩ => exact (pv_l2 _ _).trans hk
)
  have er : dot_S8x256x256_S8x256x32_S8x256x32_2_1_1_2_0_0.rhsIdx (ix3 r q d) ((contrEquiv1 dot_S8x256x256_S8x256x32_S8x256x32_2_1_1_2_0_0 256 rfl rfl).symm k) = ix3 r k d := funext fun a => Fin.ext (by
    match a with
    | ⟨0, _⟩ => exact pv_r0 _ _
    | ⟨1, _⟩ => exact (pv_r1 _ _).trans hk
    | ⟨2, _⟩ => exact pv_r2 _ _
)
  rw [el, er]

end Cert.Attn.K1

end
-- ==== Proof.AttnBlockLayout.lean ====
import proofs.«148970_j49744311222640_2_alg».proof.Proof.Stored
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Attn.K1

open Idealize.ShloMosaic Idealize.ShloMosaic.ValueIdx Cert.KernelIdeal Cert.KernelIdeal.Gen

/-! The layout operations of the attention block read at an index, and its two lane reductions. -/

section Layout
variable {α : Type}

/-- A [2048, n] matrix read as [8, 256, n]: entry (r, q, d) is row 256 r + q. -/
theorem cast_rows_split {n : Nat} (x : (⟨2, ![2048, n]⟩ : Shape).Idx → α)
    (h : (⟨2, ![2048, n]⟩ : Shape).ShapeCasts ⟨3, ![8, 256, n]⟩) (r : Fin 8) (q : Fin 256) (d : Fin n) :
    shapeCast ⟨3, ![8, 256, n]⟩ x h (ix3 r q d) = x (ix2 (⟨256 * r.val + q.val, by omega⟩ : Fin 2048) d) :=
  shapeCast_apply x h _ _ (by
    rw [Shape.rowMajor_val_two, Shape.rowMajor_val_three]
    show (256 * r.val + q.val) * n + d.val = (r.val * 256 + q.val) * n + d.val
    rw [Nat.mul_comm 256])

/-- An [8, 256, n] array read as [2048, n]: row 256 r + q is entry (r, q, ·). -/
theorem cast_rows_merge {n : Nat} (x : (⟨3, ![8, 256, n]⟩ : Shape).Idx → α)
    (h : (⟨3, ![8, 256, n]⟩ : Shape).ShapeCasts ⟨2, ![2048, n]⟩) (r : Fin 8) (q : Fin 256) (d : Fin n) :
    shapeCast ⟨2, ![2048, n]⟩ x h (ix2 (⟨256 * r.val + q.val, by omega⟩ : Fin 2048) d) = x (ix3 r q d) :=
  shapeCast_apply x h _ _ (by
    rw [Shape.rowMajor_val_two, Shape.rowMajor_val_three]
    show (r.val * 256 + q.val) * n + d.val = (256 * r.val + q.val) * n + d.val
    rw [Nat.mul_comm 256])

/-- An [8, 256] array given a trailing unit lane. -/
theorem cast_add_lane (x : (⟨2, ![8, 256]⟩ : Shape).Idx → α)
    (h : (⟨2, ![8, 256]⟩ : Shape).ShapeCasts ⟨3, ![8, 256, 1]⟩) (r : Fin 8) (q : Fin 256) (u : Fin 1) :
    shapeCast ⟨3, ![8, 256, 1]⟩ x h (ix3 r q u) = x (ix2 r q) :=
  shapeCast_apply x h _ _ (by
    have hu : u.val = 0 := by omega
    rw [Shape.rowMajor_val_two, Shape.rowMajor_val_three]
    show r.val * 256 + q.val = (r.val * 256 + q.val) * 1 + u.val
    omega)

/-- A unit lane broadcast over m lanes. -/
theorem bcast_lane {m : Nat} (x : (⟨3, ![8, 256, 1]⟩ : Shape).Idx → α)
    (h : (⟨3, ![8, 256, 1]⟩ : Shape).Broadcasts ⟨3, ![8, 256, m]⟩) (r : Fin 8) (q : Fin 256) (k : Fin m) :
    broadcastTo ⟨3, ![8, 256, m]⟩ x h (ix3 r q k) = x (ix3 r q (0 : Fin 1)) :=
  broadcastTo_apply x h _ _ (fun a => by
    match a with
    | ⟨0, _⟩ => rfl
    | ⟨1, _⟩ => rfl
    | ⟨2, _⟩ => rfl)

/-- One [256, 256] table broadcast over the 8 batch rows. -/
theorem bcast_rows (x : (⟨3, ![1, 256, 256]⟩ : Shape).Idx → α)
    (h : (⟨3, ![1, 256, 256]⟩ : Shape).Broadcasts ⟨3, ![8, 256, 256]⟩) (r : Fin 8) (q k : Fin 256) :
    broadcastTo ⟨3, ![8, 256, 256]⟩ x h (ix3 r q k) = x (ix3 (0 : Fin 1) q k) :=
  broadcastTo_apply x h _ _ (fun a => by
    match a with
    | ⟨0, _⟩ => rfl
    | ⟨1, _⟩ => rfl
    | ⟨2, _⟩ => rfl)

/-- Table o of four cut out of a [4, 256, 256] array. -/
theorem slice_table (o : Nat) (X : (⟨3, ![4, 256, 256]⟩ : Shape).Idx → α)
    (h : (⟨3, ![4, 256, 256]⟩ : Shape).Slices ![o, 0, 0] ⟨3, ![1, 256, 256]⟩) (u : Fin 1) (q k : Fin 256)
    (hh : Fin 4) (ho : hh.val = o) :
    extractStridedSlice ⟨3, ![1, 256, 256]⟩ ![o, 0, 0] X h (ix3 u q k) = X (ix3 hh q k) :=
  extractStridedSlice_apply _ _ _ _ _ (fun ax => by
    match ax with
    | ⟨0, _⟩ => show hh.val = o + u.val; omega
    | ⟨1, _⟩ => exact (Nat.zero_add _).symm
    | ⟨2, _⟩ => exact (Nat.zero_add _).symm)

/-- The bias of one head as the kernel prepares it: table o cut out, squeezed, given its unit axis back and
    broadcast over the batch rows. -/
theorem bias_bcast (o : Nat) (X : (⟨3, ![4, 256, 256]⟩ : Shape).Idx → α)
    (h : (⟨3, ![4, 256, 256]⟩ : Shape).Slices ![o, 0, 0] ⟨3, ![1, 256, 256]⟩)
    (h1 : (⟨3, ![1, 256, 256]⟩ : Shape).ShapeCasts ⟨2, ![256, 256]⟩)
    (h2 : (⟨2, ![256, 256]⟩ : Shape).ShapeCasts ⟨3, ![1, 256, 256]⟩)
    (h3 : (⟨3, ![1, 256, 256]⟩ : Shape).Broadcasts ⟨3, ![8, 256, 256]⟩)
    (r : Fin 8) (q k : Fin 256) (hh : Fin 4) (ho : hh.val = o) :
    broadcastTo ⟨3, ![8, 256, 256]⟩
        (shapeCast ⟨3, ![1, 256, 256]⟩ (shapeCast ⟨2, ![256, 256]⟩ (extractStridedSlice ⟨3, ![1, 256, 256]⟩ ![o, 0, 0] X h) h1) h2) h3
        (ix3 r q k) = X (ix3 hh q k) := by
  rw [bcast_rows, shapeCast_ab_1ab_apply, shapeCast_1ab_ab_apply, slice_table o X h _ q k hh ho]

end Layout

/-! ## The two lane reductions -/

/-- The lane maximum of an [8, 256, 256] array at (r, q): the fold of max from the word for minus infinity over the
    256 lanes. -/
theorem lane_max_apply (src : FVec Ideal S8x256x256 .f32) (hφ : FTy.f32 = FTy.f32 ∨ FTy.f32 = FTy.bf16)
    (hacc : (0xFF800000#32 : BitVec 32) = 0xFF800000#32) (r : Fin 8) (q : Fin 256) :
    multiReduction (F := Ideal) .maximumf [2] S8x256 src 0xFF800000#32 reduces_S8x256x256_S8x256 hφ hacc (ix2 r q)
      = (Finset.univ : Finset (Fin 256)).fold max (Ideal.ofBits .f32 0xFF800000#32) (fun k => src (ix3 r q k)) := by
  refine (Ideal.multiReduction_maximumf_single src 0xFF800000#32 reduces_S8x256x256_S8x256 hφ hacc (ix2 r q)).trans ?_
  have hl : (src ∘ reduces_S8x256x256_S8x256.lift (ix2 r q) : Fin 256 → EReal) = fun k => src (ix3 r q k) :=
    funext fun k => congrArg src (funext fun a => Fin.ext (by
      match a with
      | ⟨0, _⟩ => rfl
      | ⟨1, _⟩ => rfl
      | ⟨2, _⟩ => rfl))
  exact congrArg (fun g : Fin 256 → EReal => (Finset.univ : Finset (Fin 256)).fold max (Ideal.ofBits .f32 0xFF800000#32) g) hl

/-- The lane sum of an [8, 256, 256] array at (r, q). -/
theorem lane_sum_apply (src : FVec Ideal S8x256x256 .f32) (hφ : FTy.f32 = FTy.f32 ∨ FTy.f32 = FTy.bf16)
    (hacc : (0x00000000#32 : BitVec 32) = 0x00000000#32) (r : Fin 8) (q : Fin 256) :
    multiReduction (F := Ideal) .add [2] S8x256 src 0x00000000#32 reduces_S8x256x256_S8x256 hφ hacc (ix2 r q)
      = ∑ k : Fin 256, src (ix3 r q k) := by
  refine (Ideal.multiReduction_add_single src 0x00000000#32 reduces_S8x256x256_S8x256 hφ hacc (ix2 r q)).trans ?_
  refine Finset.sum_congr rfl fun k _ => congrArg src (funext fun a => Fin.ext (by
      match a with
      | ⟨0, _⟩ => rfl
      | ⟨1, _⟩ => rfl
      | ⟨2, _⟩ => rfl))

end Cert.Attn.K1

end
-- ==== Proof.AttnBlockHead.lean ====
import proofs.«148970_j49744311222640_2_alg».proof.Proof.AttnBlockDots
import proofs.«148970_j49744311222640_2_alg».proof.Proof.AttnBlockLayout

noncomputable section

open scoped BigOperators

namespace Cert.Attn.K1

open Idealize.ShloMosaic Idealize.ShloMosaic.ValueIdx Cert.KernelIdeal Cert.KernelIdeal.Gen

/-! One attention head of the block: the kernel's operations from the head's query, key and value columns and its bias
    table, and what they compute at an index. -/

section Pointwise
variable {s : Shape} {φ : FTy}

/-- The exponential of a vector at an index. -/
theorem exp_apply (x : FVec Ideal s φ) (i : s.Idx) : exp x i = Ideal.exp (x i) := rfl
/-- The logistic of a vector at an index. -/
theorem logistic_apply (x : FVec Ideal s φ) (i : s.Idx) : logistic x i = Ideal.logistic (x i) := rfl

end Pointwise

/-- One head as the kernel computes it: the query columns qs times the scale splat cs, narrowed and regrouped by batch row
    with the key columns ks and the value columns vs; scores by contraction over the 32 lanes plus the bias table bt
    broadcast over the batch rows; the lane maximum; the exponential of the difference; its lane sum; the mix with the
    values; the division by the lane sum broadcast over the 32 lanes. -/
def headT (qs : FVec Ideal S2048x32 .f32) (cs : Ideal .f32) (ks vs : FVec Ideal S2048x32 .bf16)
    (bt : FVec Ideal S1x256x256 .f32) : FVec Ideal S8x256x32 .f32 :=
  have v16 : FVec Ideal S2048x32 .f32 := broadcast S2048x32 cs
  have v17 : FVec Ideal S2048x32 .f32 := mulf qs v16
  have v18 : FVec Ideal S2048x32 .bf16 := truncf .bf16 v17 bitsLt_bf16_f32
  have v21 : FVec Ideal S8x256x32 .bf16 := shapeCast S8x256x32 v18 shapeCasts_S2048x32_S8x256x32
  have v22 : FVec Ideal S8x256x32 .bf16 := shapeCast S8x256x32 ks shapeCasts_S2048x32_S8x256x32
  have v23 : FVec Ideal S8x256x32 .bf16 := shapeCast S8x256x32 vs shapeCasts_S2048x32_S8x256x32
  have cst_10 : FVec Ideal S8x256x256 .f32 := constant S8x256x256 .f32 0x00000000#32
  have v24 : FVec Ideal S8x256x256 .f32 := matmul dot_S8x256x32_S8x256x32_S8x256x256_2_2_1_1_0_0 none v21 v22 cst_10
  have v26 : FVec Ideal S256x256 .f32 := shapeCast S256x256 bt shapeCasts_S1x256x256_S256x256
  have v27 : FVec Ideal S1x256x256 .f32 := shapeCast S1x256x256 v26 shapeCasts_S256x256_S1x256x256
  have v28 : FVec Ideal S8x256x256 .f32 := broadcastTo S8x256x256 v27 broadcasts_S1x256x256_S8x256x256
  have v29 : FVec Ideal S8x256x256 .f32 := addf v24 v28
  have v30 : FVec Ideal S8x256 .f32 := multiReduction .maximumf [2] S8x256 v29 0xFF800000#32 reduces_S8x256x256_S8x256 (.inl rfl) rfl
  have v31 : FVec Ideal S8x256x1 .f32 := shapeCast S8x256x1 v30 shapeCasts_S8x256_S8x256x1
  have v32 : FVec Ideal S8x256x256 .f32 := broadcastTo S8x256x256 v31 broadcasts_S8x256x1_S8x256x256
  have v33 : FVec Ideal S8x256x256 .f32 := subf v29 v32
  have v34 : FVec Ideal S8x256x256 .f32 := exp v33
  have v35 : FVec Ideal S8x256 .f32 := multiReduction .add [2] S8x256 v34 0x00000000#32 reduces_S8x256x256_S8x256 (.inl rfl) rfl
  have v36 : FVec Ideal S8x256x1 .f32 := shapeCast S8x256x1 v35 shapeCasts_S8x256_S8x256x1
  have v37 : FVec Ideal S8x256x256 .bf16 := truncf .bf16 v34 bitsLt_bf16_f32
  have cst_13 : FVec Ideal S8x256x32 .f32 := constant S8x256x32 .f32 0x00000000#32
  have v38 : FVec Ideal S8x256x32 .f32 := matmul dot_S8x256x256_S8x256x32_S8x256x32_2_1_1_2_0_0 none v37 v23 cst_13
  have v39 : FVec Ideal S8x256x32 .f32 := broadcastTo S8x256x32 v36 broadcasts_S8x256x1_S8x256x32
  have v40 : FVec Ideal S8x256x32 .f32 := divf v38 v39
  v40

/-- Flat row 256 r + q of the 2048 rows of a block. -/
abbrev row (r : Fin 8) (q : Fin 256) : Fin 2048 := ⟨256 * r.val + q.val, by omega⟩

/-- The head's score at (r, q, k): scaled query row against key row over the 32 lanes, plus the bias. -/
def scoreT (qs : FVec Ideal S2048x32 .f32) (cs : Ideal .f32) (ks : FVec Ideal S2048x32 .bf16)
    (bt : FVec Ideal S1x256x256 .f32) (r : Fin 8) (q k : Fin 256) : EReal :=
  (∑ d : Fin 32, (qs (ix2 (row r q) d) * cs) * ks (ix2 (row r k) d)) + bt (ix3 (0 : Fin 1) q k)

/-- The head at an index: the unnormalised weights mixed with the values, over their total. -/
theorem headT_apply (qs : FVec Ideal S2048x32 .f32) (cs : Ideal .f32) (ks vs : FVec Ideal S2048x32 .bf16)
    (bt : FVec Ideal S1x256x256 .f32) (r : Fin 8) (q : Fin 256) (d : Fin 32) :
    headT qs cs ks vs bt (ix3 r q d)
      = Ideal.div
          (∑ k : Fin 256, Ideal.exp (scoreT qs cs ks bt r q k
              - (Finset.univ : Finset (Fin 256)).fold max (Ideal.ofBits .f32 0xFF800000#32) (fun k' => scoreT qs cs ks bt r q k'))
            * vs (ix2 (row r k) d))
          (∑ k : Fin 256, Ideal.exp (scoreT qs cs ks bt r q k
              - (Finset.univ : Finset (Fin 256)).fold max (Ideal.ofBits .f32 0xFF800000#32) (fun k' => scoreT qs cs ks bt r q k'))) := by
  unfold headT scoreT
  simp only [divf_apply, mm_pv, truncf_apply, exp_apply, subf_apply, addf_apply, mm_qk, cast_rows_split, mulf_apply,
    broadcast_apply, bcast_rows, shapeCast_ab_1ab_apply, shapeCast_1ab_ab_apply, bcast_lane, cast_add_lane]
  rw [lane_sum_apply, lane_max_apply]
  simp only [divf_apply, mm_pv, truncf_apply, exp_apply, subf_apply, addf_apply, mm_qk, cast_rows_split, mulf_apply,
    broadcast_apply, bcast_rows, shapeCast_ab_1ab_apply, shapeCast_1ab_ab_apply, bcast_lane, cast_add_lane]
  rw [lane_max_apply]
  simp only [divf_apply, mm_pv, truncf_apply, exp_apply, subf_apply, addf_apply, mm_qk, cast_rows_split, mulf_apply,
    broadcast_apply, bcast_rows, shapeCast_ab_1ab_apply, shapeCast_1ab_ab_apply, bcast_lane, cast_add_lane]

end Cert.Attn.K1

end
-- ==== Proof.AttnBlockProj.lean ====
import proofs.«148970_j49744311222640_2_alg».proof.Proof.AttnBlockHead

noncomputable section

open scoped BigOperators

namespace Cert.Attn.K1

open Idealize.ShloMosaic Idealize.ShloMosaic.ValueIdx Cert.KernelIdeal Cert.KernelIdeal.Gen

/-! The fused projection of the block's 2048 rows against the 512 stacked weight rows, its narrowing, the gate and the
    bias block, each read at an index. -/

/-- The fused projection at (row 256 r + q, column j): the sum over the 128 features. -/
theorem pay4_apply (xb : Vec Ideal S8x256x128 .bf16) (wc : Vec Ideal S512x128 .f32) (r : Fin 8) (q : Fin 256) (j : Fin 512) :
    k1_pay4 xb wc (ix2 (row r q) j) = ∑ d : Fin 128, xb (ix3 r q d) * wc (ix2 j d) := by
  unfold k1_pay4
  simp only [mm_proj, cast_rows_merge, shapeCast_self, truncf_apply]

/-- Its narrowing changes nothing. -/
theorem pay5_apply (xb : Vec Ideal S8x256x128 .bf16) (wc : Vec Ideal S512x128 .f32) (i : S2048x512.Idx) :
    k1_pay5 xb wc i = k1_pay4 xb wc i := rfl

/-- The bias block is read as it is. -/
theorem pay3_apply (bs : Vec Ideal S4x256x256 .f32) (i : S4x256x256.Idx) : k1_pay3 bs i = bs i := by
  unfold k1_pay3
  rw [shapeCast_self]

/-- The gate at (r, q, e): the logistic of column 384 + e of the fused projection. -/
theorem pay6_apply (xb : Vec Ideal S8x256x128 .bf16) (wc : Vec Ideal S512x128 .f32) (r : Fin 8) (q : Fin 256) (e : Fin 128) :
    k1_pay6 xb wc (ix3 r q e)
      = Ideal.logistic (k1_pay4 xb wc (ix2 (row r q) (⟨384 + e.val, by omega⟩ : Fin 512))) := by
  unfold k1_pay6
  simp only [cast_rows_split, logistic_apply, slice2_axis1_eq]

end Cert.Attn.K1

end
-- ==== Proof.AttnBlockHeads.lean ====
import proofs.«148970_j49744311222640_2_alg».proof.Proof.AttnBlockProj
import proofs.«148970_j49744311222640_2_alg».proof.Proof.Spec

noncomputable section

open scoped BigOperators

namespace Cert.Attn.K1

open Idealize.ShloMosaic Idealize.ShloMosaic.ValueIdx Cert.KernelIdeal Cert.KernelIdeal.Gen

open Cert.Attn

/-! The kernel's four heads are one head term at four column offsets and four bias tables; that term at an index is the
    kernel arrangement's head of the block's rows. -/

/-- The rows of batch row r of the block. -/
abbrev xr (xb : Vec Ideal S8x256x128 .bf16) (r : Fin 8) : Fin 256 → Fin 128 → EReal := fun q' d => xb (ix3 r q' d)
/-- The four 128-row groups of the stacked weights, and the bias by coordinates. -/
abbrev Wq (wc : Vec Ideal S512x128 .f32) : Fin 128 → Fin 128 → EReal := fun e d => wc (ix2 (⟨e.val, by omega⟩ : Fin 512) d)
abbrev Wk (wc : Vec Ideal S512x128 .f32) : Fin 128 → Fin 128 → EReal := fun e d => wc (ix2 (⟨128 + e.val, by omega⟩ : Fin 512) d)
abbrev Wv (wc : Vec Ideal S512x128 .f32) : Fin 128 → Fin 128 → EReal := fun e d => wc (ix2 (⟨256 + e.val, by omega⟩ : Fin 512) d)
abbrev Wg (wc : Vec Ideal S512x128 .f32) : Fin 128 → Fin 128 → EReal := fun e d => wc (ix2 (⟨384 + e.val, by omega⟩ : Fin 512) d)
abbrev bm (bs : Vec Ideal S4x256x256 .f32) : Fin 4 → Fin 256 → Fin 256 → EReal := fun h q' k => bs (ix3 h q' k)

/-- The first head is the head term at offsets 0, 128, 256 and table 0. -/
theorem pay7_eq (v0 : Vec Ideal S8x256x128 .bf16) (v3 : Vec Ideal S512x128 .f32) (v8 : Vec Ideal S4x256x256 .f32) :
    k1_pay7 v0 v3 v8
      = headT (extractStridedSlice S2048x32 ![0, 0] (k1_pay4 v0 v3) slices_S2048x512_o0_0_S2048x32)
          (Scalar.ofBits .f32 0x3E3504F3#32)
          (extractStridedSlice S2048x32 ![0, 128] (k1_pay5 v0 v3) slices_S2048x512_o0_128_S2048x32)
          (extractStridedSlice S2048x32 ![0, 256] (k1_pay5 v0 v3) slices_S2048x512_o0_256_S2048x32)
          (extractStridedSlice S1x256x256 ![0, 0, 0] (k1_pay3 v8) slices_S4x256x256_o0_0_0_S1x256x256) := rfl

/-- The second head: offsets 32 (its query columns are an argument), 160, 288 and table 1. -/
theorem pay9_eq (v9 : FVec Ideal S4x256x256 .f32) (v11 : FVec Ideal S2048x512 .bf16) (v41 : FVec Ideal S2048x32 .f32)
    (c : Ideal .f32) :
    k1_pay9 v9 v11 v41 c
      = headT v41 c
          (extractStridedSlice S2048x32 ![0, 160] v11 slices_S2048x512_o0_160_S2048x32)
          (extractStridedSlice S2048x32 ![0, 288] v11 slices_S2048x512_o0_288_S2048x32)
          (extractStridedSlice S1x256x256 ![1, 0, 0] v9 slices_S4x256x256_o1_0_0_S1x256x256) := rfl

/-- The query columns of the second head. -/
theorem pay8_eq (v0 : Vec Ideal S8x256x128 .bf16) (v3 : Vec Ideal S512x128 .f32) :
    k1_pay8 v0 v3 = extractStridedSlice S2048x32 ![0, 32] (k1_pay4 v0 v3) slices_S2048x512_o0_32_S2048x32 := rfl

/-- The third head: offsets 64, 192, 320 and table 2. -/
theorem pay10_eq (v9 : FVec Ideal S4x256x256 .f32) (v10 : FVec Ideal S2048x512 .f32) (v11 : FVec Ideal S2048x512 .bf16) :
    k1_pay10 v9 v10 v11
      = headT (extractStridedSlice S2048x32 ![0, 64] v10 slices_S2048x512_o0_64_S2048x32)
          (Scalar.ofBits .f32 0x3E3504F3#32)
          (extractStridedSlice S2048x32 ![0, 192] v11 slices_S2048x512_o0_192_S2048x32)
          (extractStridedSlice S2048x32 ![0, 320] v11 slices_S2048x512_o0_320_S2048x32)
          (extractStridedSlice S1x256x256 ![2, 0, 0] v9 slices_S4x256x256_o2_0_0_S1x256x256) := rfl

/-- The head term at query offset 32 h, key offset 128 + 32 h, value offset 256 + 32 h of the fused projection and table
    h of the bias is head h of the kernel's arrangement on the rows of batch row r. -/
theorem head_eq_headK (xb : Vec Ideal S8x256x128 .bf16) (bs : Vec Ideal S4x256x256 .f32) (wc : Vec Ideal S512x128 .f32)
    (hh : Fin 4) (oq ok ov ob : Nat) (hoq : oq = 32 * hh.val) (hok : ok = 128 + 32 * hh.val)
    (hov : ov = 256 + 32 * hh.val) (hob : hh.val = ob)
    (sq : S2048x512.Slices ![0, oq] S2048x32) (sk : S2048x512.Slices ![0, ok] S2048x32)
    (sv : S2048x512.Slices ![0, ov] S2048x32) (sb : S4x256x256.Slices ![ob, 0, 0] S1x256x256)
    (r : Fin 8) (q : Fin 256) (d : Fin 32) :
    headT (extractStridedSlice S2048x32 ![0, oq] (k1_pay4 xb wc) sq) (Scalar.ofBits .f32 0x3E3504F3#32)
        (extractStridedSlice S2048x32 ![0, ok] (k1_pay5 xb wc) sk) (extractStridedSlice S2048x32 ![0, ov] (k1_pay5 xb wc) sv)
        (extractStridedSlice S1x256x256 ![ob, 0, 0] (k1_pay3 bs) sb) (ix3 r q d)
      = headK (xr xb r) (Wq wc) (Wk wc) (Wv wc) (bm bs) hh q d := by
  rw [headT_apply]
  have hS : ∀ k : Fin 256,
      scoreT (extractStridedSlice S2048x32 ![0, oq] (k1_pay4 xb wc) sq) (Scalar.ofBits .f32 0x3E3504F3#32)
        (extractStridedSlice S2048x32 ![0, ok] (k1_pay5 xb wc) sk)
        (extractStridedSlice S1x256x256 ![ob, 0, 0] (k1_pay3 bs) sb) r q k
        = scoreK (xr xb r) (Wq wc) (Wk wc) (bm bs) hh q k := by
    intro k
    unfold scoreT scoreK proj
    rw [slice_table ob _ sb 0 q k hh hob, pay3_apply]
    refine congrArg (· + bs (ix3 hh q k)) (Finset.sum_congr rfl fun d' _ => ?_)
    rw [slice2_axis1_apply oq _ sq (row r q) d' (⟨32 * hh.val + d'.val, by omega⟩ : Fin 512)
          (by show 32 * hh.val + d'.val = oq + d'.val; omega),
      slice2_axis1_apply ok _ sk (row r k) d' (⟨128 + (32 * hh.val + d'.val), by omega⟩ : Fin 512)
          (by show 128 + (32 * hh.val + d'.val) = ok + d'.val; omega),
      pay5_apply, pay4_apply, pay4_apply]
    rfl
  have hV : ∀ k : Fin 256,
      extractStridedSlice S2048x32 ![0, ov] (k1_pay5 xb wc) sv (ix2 (row r k) d)
        = proj (xr xb r) (Wv wc) k (hd hh d) := by
    intro k
    unfold proj
    rw [slice2_axis1_apply ov _ sv (row r k) d (⟨256 + (32 * hh.val + d.val), by omega⟩ : Fin 512)
          (by show 256 + (32 * hh.val + d.val) = ov + d.val; omega),
      pay5_apply, pay4_apply]
    rfl
  unfold headK rowMax
  simp only [hS, hV]

end Cert.Attn.K1

end
-- ==== Proof.AttnBlockOut.lean ====
import proofs.«148970_j49744311222640_2_alg».proof.Proof.AttnBlockHeads

noncomputable section

open scoped BigOperators

namespace Cert.Attn.K1

open Idealize.ShloMosaic Idealize.ShloMosaic.ValueIdx Cert.KernelIdeal Cert.KernelIdeal.Gen

open Cert.Attn

/-! The four heads laid side by side, gated, and projected. -/

section Cat
variable {α : Type}

/-- Four [8, 256, 32] arrays concatenated along the last axis: column e reads array e / 32 at column e % 32. The four
    arrays are given at (r, q, ·) by one function G of the array's number and the column. -/
theorem cat4_apply (x0 x1 x2 x3 : S8x256x32.Idx → α)
    (hc : Shape.Concatenates [S8x256x32, S8x256x32, S8x256x32, S8x256x32] S8x256x128 2)
    (G : Fin 4 → Fin 32 → α) (r : Fin 8) (q : Fin 256)
    (g0 : ∀ d, x0 (ix3 r q d) = G 0 d) (g1 : ∀ d, x1 (ix3 r q d) = G 1 d)
    (g2 : ∀ d, x2 (ix3 r q d) = G 2 d) (g3 : ∀ d, x3 (ix3 r q d) = G 3 d) (e : Fin 128) :
    concatenate S8x256x128 (2 : Fin S8x256x128.rank)
        [⟨S8x256x32, x0⟩, ⟨S8x256x32, x1⟩, ⟨S8x256x32, x2⟩, ⟨S8x256x32, x3⟩] hc (ix3 r q e)
      = G (hOf e) (dOf e) := by
  have he : e.val < 128 := e.isLt
  have hoff : ∀ b : Fin S8x256x32.rank, b.cast (rfl : S8x256x32.rank = S8x256x128.rank) ≠ (2 : Fin S8x256x128.rank) →
      ((ix3 r q (dOf e) : S8x256x32.Idx) b).val = ((ix3 r q e : S8x256x128.Idx) (b.cast rfl)).val := fun b hb => by
    match b with
    | ⟨0, _⟩ => rfl
    | ⟨1, _⟩ => rfl
    | ⟨2, _⟩ => exact absurd rfl hb
  rcases (by omega : e.val / 32 = 0 ∨ e.val / 32 = 1 ∨ e.val / 32 = 2 ∨ e.val / 32 = 3) with h | h | h | h
  · have hh : hOf e = 0 := Fin.ext h
    rw [hh, ← g0]
    exact concatenate_apply_piece (2 : Fin S8x256x128.rank) [⟨S8x256x32, x0⟩, ⟨S8x256x32, x1⟩, ⟨S8x256x32, x2⟩, ⟨S8x256x32, x3⟩] hc (ix3 r q e) 0 (by show (0 : Nat) < 4; omega) S8x256x32 x0 rfl rfl 0 rfl
      (ix3 r q (dOf e)) hoff (by show 0 + e.val % 32 = e.val; omega)
  · have hh : hOf e = 1 := Fin.ext h
    rw [hh, ← g1]
    exact concatenate_apply_piece (2 : Fin S8x256x128.rank) [⟨S8x256x32, x0⟩, ⟨S8x256x32, x1⟩, ⟨S8x256x32, x2⟩, ⟨S8x256x32, x3⟩] hc (ix3 r q e) 1 (by show (1 : Nat) < 4; omega) S8x256x32 x1 rfl rfl 32 rfl
      (ix3 r q (dOf e)) hoff (by show 32 + e.val % 32 = e.val; omega)
  · have hh : hOf e = 2 := Fin.ext h
    rw [hh, ← g2]
    exact concatenate_apply_piece (2 : Fin S8x256x128.rank) [⟨S8x256x32, x0⟩, ⟨S8x256x32, x1⟩, ⟨S8x256x32, x2⟩, ⟨S8x256x32, x3⟩] hc (ix3 r q e) 2 (by show (2 : Nat) < 4; omega) S8x256x32 x2 rfl rfl 64 rfl
      (ix3 r q (dOf e)) hoff (by show 64 + e.val % 32 = e.val; omega)
  · have hh : hOf e = 3 := Fin.ext h
    rw [hh, ← g3]
    exact concatenate_apply_piece (2 : Fin S8x256x128.rank) [⟨S8x256x32, x0⟩, ⟨S8x256x32, x1⟩, ⟨S8x256x32, x2⟩, ⟨S8x256x32, x3⟩] hc (ix3 r q e) 3 (by show (3 : Nat) < 4; omega) S8x256x32 x3 rfl rfl 96 rfl
      (ix3 r q (dOf e)) hoff (by show 96 + e.val % 32 = e.val; omega)

end Cat

/-- The tail of the block's computation: the four heads side by side, times the gate, regrouped to 2048 rows, projected
    against the narrowed output weights, regrouped by batch row. -/
def outT (w : FVec Ideal S128x128 .bf16) (g : FVec Ideal S8x256x128 .f32) (h0 h1 h2 h3 : FVec Ideal S8x256x32 .f32) :
    FVec Ideal S8x256x128 .f32 :=
  have v119 : FVec Ideal S8x256x128 .f32 := concatenate S8x256x128 2 [⟨S8x256x32, h0⟩, ⟨S8x256x32, h1⟩, ⟨S8x256x32, h2⟩, ⟨S8x256x32, h3⟩] concatenates_S8x256x32_S8x256x32_S8x256x32_S8x256x32_S8x256x128_d2
  have v120 : FVec Ideal S8x256x128 .f32 := mulf v119 g
  have v121 : FVec Ideal S2048x128 .f32 := shapeCast S2048x128 v120 shapeCasts_S8x256x128_S2048x128
  have v122 : FVec Ideal S2048x128 .bf16 := truncf .bf16 v121 bitsLt_bf16_f32
  have cst_29 : FVec Ideal S2048x128 .f32 := constant S2048x128 .f32 0x00000000#32
  have v123 : FVec Ideal S2048x128 .f32 := matmul dot_S2048x128_S128x128_S2048x128_1_1_0_0_n_n none v122 w cst_29
  have v124 : FVec Ideal S8x256x128 .f32 := shapeCast S8x256x128 v123 shapeCasts_S2048x128_S8x256x128
  v124

/-- The tail at an index: the sum over the 128 head columns of head value times gate times output weight. -/
theorem outT_apply (w : FVec Ideal S128x128 .bf16) (g : FVec Ideal S8x256x128 .f32) (h0 h1 h2 h3 : FVec Ideal S8x256x32 .f32)
    (G : Fin 4 → Fin 32 → EReal) (r : Fin 8) (q : Fin 256)
    (g0 : ∀ d, h0 (ix3 r q d) = G 0 d) (g1 : ∀ d, h1 (ix3 r q d) = G 1 d)
    (g2 : ∀ d, h2 (ix3 r q d) = G 2 d) (g3 : ∀ d, h3 (ix3 r q d) = G 3 d) (f : Fin 128) :
    outT w g h0 h1 h2 h3 (ix3 r q f) = ∑ e : Fin 128, (G (hOf e) (dOf e) * g (ix3 r q e)) * w (ix2 f e) := by
  unfold outT
  simp only [cast_rows_split, mm_out, truncf_apply, cast_rows_merge, mulf_apply]
  refine Finset.sum_congr rfl fun e _ => ?_
  rw [cat4_apply h0 h1 h2 h3 _ G r q g0 g1 g2 g3 e]

/-- The stored value is that tail of the gate, the three earlier heads and the fourth head, whose term sits inside it. -/
theorem pay1_eq (v7 : FVec Ideal S128x128 .bf16) (v9 : FVec Ideal S4x256x256 .f32) (v10 : FVec Ideal S2048x512 .f32)
    (v11 : FVec Ideal S2048x512 .bf16) (v14 : FVec Ideal S8x256x128 .f32) (v40 v66 v92 : FVec Ideal S8x256x32 .f32) :
    k1_pay1 v7 v9 v10 v11 v14 v40 v66 v92
      = outT v7 v14 v40 v66 v92
          (headT (extractStridedSlice S2048x32 ![0, 96] v10 slices_S2048x512_o0_96_S2048x32)
            (Scalar.ofBits .f32 0x3E3504F3#32)
            (extractStridedSlice S2048x32 ![0, 224] v11 slices_S2048x512_o0_224_S2048x32)
            (extractStridedSlice S2048x32 ![0, 352] v11 slices_S2048x512_o0_352_S2048x32)
            (extractStridedSlice S1x256x256 ![3, 0, 0] v9 slices_S4x256x256_o3_0_0_S1x256x256)) := rfl

end Cert.Attn.K1

end
-- ==== Proof.AttnBlock.lean ====
import proofs.«148970_j49744311222640_2_alg».proof.Proof.AttnBlockOut

noncomputable section

open scoped BigOperators

namespace Cert.Attn.K1

open Idealize.ShloMosaic Idealize.ShloMosaic.ValueIdx Cert.KernelIdeal Cert.KernelIdeal.Gen

open Cert.Attn Cert.Attn.KI

/-! What the second kernel stores for one block of 8 batch rows, read at an index: the kernel arrangement's gated
    attention of the block's rows. -/

theorem attn_block (xb : Vec Ideal S8x256x128 .bf16) (bs : Vec Ideal S4x256x256 .f32) (wc : Vec Ideal S512x128 .f32) (wo : Vec Ideal S128x128 .f32)
    (r : Fin 8) (q : Fin 256) (f : Fin 128) :
    attnStore (F := Ideal) xb bs wc wo (ix3 r q f)
      = attnK (fun q' d => xb (ix3 r q' d))
          (fun e d => wc (ix2 (⟨e.val, by omega⟩ : Fin 512) d))
          (fun e d => wc (ix2 (⟨128 + e.val, by omega⟩ : Fin 512) d))
          (fun e d => wc (ix2 (⟨256 + e.val, by omega⟩ : Fin 512) d))
          (fun e d => wc (ix2 (⟨384 + e.val, by omega⟩ : Fin 512) d))
          (fun f' e => wo (ix2 f' e))
          (fun h q' k => bs (ix3 h q' k)) q f := by
  show attnStore (F := Ideal) xb bs wc wo (ix3 r q f)
      = attnK (xr xb r) (Wq wc) (Wk wc) (Wv wc) (Wg wc) (fun f' e => wo (ix2 f' e)) (bm bs) q f
  unfold attnStore
  rw [pay1_eq, pay7_eq, pay9_eq, pay8_eq, pay10_eq]
  rw [outT_apply _ _ _ _ _ _ (fun h d => headK (xr xb r) (Wq wc) (Wk wc) (Wv wc) (bm bs) h q d) r q
    (fun d => head_eq_headK xb bs wc 0 0 128 256 0 (by decide) (by decide) (by decide) (by decide) _ _ _ _ r q d)
    (fun d => head_eq_headK xb bs wc 1 32 160 288 1 (by decide) (by decide) (by decide) (by decide) _ _ _ _ r q d)
    (fun d => head_eq_headK xb bs wc 2 64 192 320 2 (by decide) (by decide) (by decide) (by decide) _ _ _ _ r q d)
    (fun d => head_eq_headK xb bs wc 3 96 224 352 3 (by decide) (by decide) (by decide) (by decide) _ _ _ _ r q d)]
  unfold attnK
  refine Finset.sum_congr rfl fun e _ => ?_
  rw [pay6_apply, pay4_apply]
  rfl

end Cert.Attn.K1

end
-- ==== Proof.LibBatchNorm.lean ====
/-
  General lemmas: batch normalisation followed by a rectifier, on the extended reals, in two arrangements.

  A finite family h of values is normalised with its own mean m = (∑ h) / n and variance v, scaled by γ, shifted by β and
  clipped below at zero. The first arrangement computes the variance as the mean of squares minus the square of the mean,
  clipped below at zero, folds γ and the inverse root into one scale s = γ · (v + ε)^(-1/2) and the mean into one shift
  β − m · s, and returns max (x · s + (β − m · s)) 0. The second computes the variance as the mean of the squared
  deviations and returns max ((x − m) · (v + ε)^(-1/2) · γ + β) 0. When every value, γ, β and ε are real numbers, ε is
  positive and n is the (positive) number of values, the two agree: over the reals the two variances are one number
  (the sum of (h − m)² is the sum of h² minus n · m², because the sum of h is n · m), it is nonnegative, so the clip does
  nothing, its sum with ε is positive, so the inverse root is a real number, and the rest is ring arithmetic. On the
  extended reals the law is false at the infinities (distributivity fails), hence the hypotheses.

  Also here: the predicate "is a real number" on extended reals with its closure under sums, products and finite sums,
  the coercion of a finite real sum, and the inverse root of a positive real.
  Nothing here mentions a program.
-/
import Idealize.ShloMosaic.PureOps.Ideal.Laws

noncomputable section

namespace Cert.LibBatchNorm

open Idealize.ShloMosaic

/-- An extended real that is a real number. -/
def IsReal (x : EReal) : Prop := ∃ r : ℝ, x = (r : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- An extended real whose absolute value is below +∞ is a real number. -/
theorem isReal_of_abs_lt_top {x : EReal} (h : max x (-x) < ⊤) : IsReal x := by
  induction x using EReal.rec with
  | bot => simp at h
  | top => simp at h
  | coe r => exact ⟨r, rfl⟩

/-- The inverse square root of a positive real is the real inverse root. -/
theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg (ne_of_gt h)]

/-- The first arrangement: variance from the raw moments s = ∑ h and q = ∑ h², clipped at zero; one scale, one shift. -/
def foldedNorm (x s q n γ β ε : EReal) : EReal :=
  max (x * (γ * Ideal.rsqrt (max (Ideal.div q n - Ideal.div s n * Ideal.div s n) 0 + ε))
      + (β - Ideal.div s n * (γ * Ideal.rsqrt (max (Ideal.div q n - Ideal.div s n * Ideal.div s n) 0 + ε)))) 0

/-- The second arrangement: centre, scale by the inverse root of the mean squared deviation plus ε, then γ and β. -/
def centredNorm {ι : Type*} [Fintype ι] (h : ι → EReal) (n γ β ε : EReal) (e : ι) : EReal :=
  max ((h e - Ideal.div (∑ i, h i) n)
        * Ideal.rsqrt (Ideal.div (∑ i, (h i - Ideal.div (∑ i, h i) n) * (h i - Ideal.div (∑ i, h i) n)) n + ε) * γ + β) 0

/-- Over the reals the mean squared deviation is the mean of squares minus the squared mean. -/
theorem real_variance {ι : Type*} [Fintype ι] (f : ι → ℝ) (n : ℝ) (hn : n = (Fintype.card ι : ℝ)) (h0 : n ≠ 0) :
    (∑ i, (f i - (∑ i, f i) * (1 / n)) * (f i - (∑ i, f i) * (1 / n))) * (1 / n)
      = (∑ i, f i * f i) * (1 / n) - (∑ i, f i) * (1 / n) * ((∑ i, f i) * (1 / n)) := by
  have e : ∀ i, (f i - (∑ i, f i) * (1 / n)) * (f i - (∑ i, f i) * (1 / n))
      = f i * f i - 2 * ((∑ i, f i) * (1 / n)) * f i + (∑ i, f i) * (1 / n) * ((∑ i, f i) * (1 / n)) := fun i => by ring
  rw [Finset.sum_congr rfl fun i _ => e i, Finset.sum_add_distrib, Finset.sum_sub_distrib, ← Finset.mul_sum,
    Finset.sum_const, Finset.card_univ, nsmul_eq_mul, ← hn]
  field_simp
  ring

/-- The two arrangements agree on real data. -/
theorem foldedNorm_eq_centredNorm {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ) (hε : ε = (ε' : EReal))
    (hε' : 0 < ε') (e : ι) :
    foldedNorm (h e) (∑ i, h i) (∑ i, h i * h i) (n : EReal) γ β ε = centredNorm h (n : EReal) γ β ε e := by
  choose f hf using hh
  obtain ⟨g, rfl⟩ := hγ
  obtain ⟨b, rfl⟩ := hβ
  subst hε
  have hn0 : n ≠ 0 := ne_of_gt hpos
  have hfun : h = fun i => (f i : EReal) := funext hf
  subst hfun
  unfold foldedNorm centredNorm
  simp only [Ideal.div_coe hn0]
  have hs : (∑ i, (f i : EReal)) = ((∑ i, f i : ℝ) : EReal) := (coe_sum _ _).symm
  have hq : (∑ i, (f i : EReal) * (f i : EReal)) = ((∑ i, f i * f i : ℝ) : EReal) := by
    rw [coe_sum]; exact Finset.sum_congr rfl fun i _ => (EReal.coe_mul _ _).symm
  rw [hs, hq]
  have hd : (∑ i, ((f i : EReal) - ((∑ i, f i : ℝ) : EReal) * ((1 / n : ℝ) : EReal)) * ((f i : EReal) - ((∑ i, f i : ℝ) : EReal) * ((1 / n : ℝ) : EReal)))
      = ((∑ i, (f i - (∑ i, f i) * (1 / n)) * (f i - (∑ i, f i) * (1 / n)) : ℝ) : EReal) := by
    refine ((coe_sum Finset.univ fun i => (f i - (∑ i, f i) * (1 / n)) * (f i - (∑ i, f i) * (1 / n))).trans
      (Finset.sum_congr rfl fun i _ => ?_)).symm
    rw [EReal.coe_mul, EReal.coe_sub, EReal.coe_mul]
  rw [hd]
  set S : ℝ := ∑ i, f i with hS
  set Q : ℝ := ∑ i, f i * f i with hQ
  set D : ℝ := ∑ i, (f i - S * (1 / n)) * (f i - S * (1 / n)) with hD
  have hvar : D * (1 / n) = Q * (1 / n) - S * (1 / n) * (S * (1 / n)) := real_variance f n hn hn0
  have hD0 : 0 ≤ D := Finset.sum_nonneg fun i _ => mul_self_nonneg _
  have hv0 : 0 ≤ D * (1 / n) := mul_nonneg hD0 (by positivity)
  have hmax : max (((Q : ℝ) : EReal) * ((1 / n : ℝ) : EReal) - ((S : ℝ) : EReal) * ((1 / n : ℝ) : EReal) * (((S : ℝ) : EReal) * ((1 / n : ℝ) : EReal))) 0
      = ((D * (1 / n) : ℝ) : EReal) := by
    rw [← EReal.coe_mul, ← EReal.coe_mul, ← EReal.coe_mul, ← EReal.coe_sub, ← hvar]
    exact max_eq_left (EReal.coe_nonneg.mpr hv0)
  rw [hmax, ← EReal.coe_mul D, ← EReal.coe_add, rsqrt_coe_pos (by linarith : 0 < D * (1 / n) + ε')]
  simp only [← EReal.coe_mul, ← EReal.coe_sub, ← EReal.coe_add]
  congr 2
  ring

end Cert.LibBatchNorm

end
-- ==== Proof.Reals.lean ====
/-
  Real numbers among the extended reals, for the layer norm and the softmax: the float words the two programs carry as
  real numbers, closure of "is a real number" under the operations the programs apply to real data (difference, a
  quotient by a nonzero real, the exponential, the fold of max over a nonempty index set), and the two identities of
  real arithmetic that join the kernel's arrangement to the reference's:

  * a common factor may multiply each left factor of a sum of products, or the whole sum; an added pair may be added
    as one term or one after the other;
  * a weighted sum divided by the total weight is the sum weighted by the normalised weights.

  Both are false on the extended reals at the infinities (distributivity fails there), hence the reals.
-/
import Idealize.ShloMosaic.Lib.IdealHost
import proofs.«148970_j49744311222640_2_alg».proof.Proof.LibBatchNorm
import proofs.«148970_j49744311222640_2_alg».proof.Proof.Spec

noncomputable section

open scoped BigOperators

namespace Cert.Attn

open Idealize.ShloMosaic Cert.LibBatchNorm

/-! ## The float words as numbers -/

/-- The word 0x43000000 is 2^23 · 2^(134 - 150) = 128. -/
theorem c128_eq : c128 = ((128 : ℝ) : EReal) := by
  show Ideal.ofBits .f32 0x43000000#32 = _
  simp [Ideal.ofBits, Ideal.ieee, -EReal.coe_mul] <;> norm_num

/-- The word 0x3727C5AC is (2^23 + 2606508) · 2^(110 - 150), a positive real. -/
theorem cEps_eq : cEps = ((10995116 * (2 : ℝ) ^ (-40 : ℤ) : ℝ) : EReal) := by
  show Ideal.ofBits .f32 0x3727C5AC#32 = _
  simp [Ideal.ofBits, Ideal.ieee, -EReal.coe_mul] <;> norm_num

/-- The word 0x3E3504F3 is (2^23 + 3474675) · 2^(124 - 150), a real. -/
theorem cScale_eq : cScale = ((11863283 * (2 : ℝ) ^ (-26 : ℤ) : ℝ) : EReal) := by
  show Ideal.ofBits .f32 0x3E3504F3#32 = _
  simp [Ideal.ofBits, Ideal.ieee, -EReal.coe_mul] <;> norm_num

/-- The word 0xFF800000 (sign set, exponent all ones, fraction zero) is minus infinity. -/
theorem cNegInf_eq : cNegInf = (⊥ : EReal) := by
  show Ideal.ofBits .f32 0xFF800000#32 = _
  simp [Ideal.ofBits, Ideal.ieee]

theorem cOne_eq : cOne = (1 : EReal) := Ideal.ofBits_one_f32

/-! ## Closure -/

theorem isReal_sub {x y : EReal} (hx : IsReal x) (hy : IsReal y) : IsReal (x - y) := by
  obtain ⟨a, rfl⟩ := hx; obtain ⟨b, rfl⟩ := hy; exact ⟨a - b, (EReal.coe_sub a b).symm⟩

/-- A real divided by a nonzero real, as the ideal quotient computes it. -/
theorem div_real (x : ℝ) {y : ℝ} (hy : y ≠ 0) : Ideal.div (x : EReal) (y : EReal) = ((x / y : ℝ) : EReal) := by
  rw [Ideal.div_coe hy, ← EReal.coe_mul, mul_one_div]

theorem isReal_div_real {x : EReal} (hx : IsReal x) {y : ℝ} (hy : y ≠ 0) : IsReal (Ideal.div x (y : EReal)) := by
  obtain ⟨a, rfl⟩ := hx; exact ⟨a / y, div_real a hy⟩

/-- The fold of max from minus infinity over finitely many reals is minus infinity or a real. -/
theorem fold_max_bot_or_real {ι : Type*} [DecidableEq ι] (s : Finset ι) (f : ι → EReal) (hf : ∀ i, IsReal (f i)) :
    s.fold max (⊥ : EReal) f = ⊥ ∨ IsReal (s.fold max (⊥ : EReal) f) := by
  induction s using Finset.induction_on with
  | empty => left; exact Finset.fold_empty
  | insert a s ha ih =>
    rw [Finset.fold_insert ha]
    obtain ⟨r, hr⟩ := hf a
    rcases ih with h | ⟨t, ht⟩
    · right; rw [h, hr, max_bot_right]; exact ⟨r, rfl⟩
    · right; rw [ht, hr]; exact ⟨max r t, (EReal.coe_strictMono.monotone.map_max).symm⟩

/-- A row maximum of 256 reals is a real. -/
theorem isReal_rowMax (s : Fin 256 → EReal) (hs : ∀ k, IsReal (s k)) : IsReal (rowMax s) := by
  unfold rowMax
  rw [cNegInf_eq]
  rcases fold_max_bot_or_real Finset.univ s hs with h | h
  · exfalso
    have h0 : s 0 ≤ (Finset.univ : Finset (Fin 256)).fold max (⊥ : EReal) s :=
      (Finset.le_fold_max (s 0)).mpr (Or.inr ⟨0, Finset.mem_univ _, le_refl _⟩)
    obtain ⟨r, hr⟩ := hs 0
    rw [h, hr] at h0
    exact EReal.coe_ne_bot r (le_bot_iff.mp h0)
  · exact h

/-! ## The two identities of real arithmetic -/

/-- Scaling each left factor or the whole sum; adding a pair at once or one after the other. -/
theorem score_law (a b : Fin 32 → ℝ) (σ β μ : ℝ) :
    (∑ d, ((a d : EReal) * (σ : EReal)) * (b d : EReal)) + ((β : EReal) + (μ : EReal))
      = ((∑ d, (a d : EReal) * (b d : EReal)) * (σ : EReal) + (β : EReal)) + (μ : EReal) := by
  simp only [← EReal.coe_mul, ← coe_sum, ← EReal.coe_add]
  refine congrArg _ ?_
  rw [Finset.sum_mul, ← add_assoc]
  refine congrArg (· + β + μ) (Finset.sum_congr rfl fun d _ => ?_)
  ring

/-- A weighted sum over the total weight is the sum under the normalised weights. -/
theorem mix_law (p v : Fin 256 → ℝ) (L : ℝ) (hL : L ≠ 0) :
    Ideal.div (∑ k, (p k : EReal) * (v k : EReal)) (L : EReal)
      = ∑ k, Ideal.div (p k : EReal) (L : EReal) * (v k : EReal) := by
  simp only [Ideal.div_coe hL, ← EReal.coe_mul, ← coe_sum]
  refine congrArg _ ?_
  rw [Finset.sum_mul]
  exact Finset.sum_congr rfl fun k _ => by ring

end Cert.Attn

end
-- ==== Proof.Law.lean ====
/-
  The kernel's arrangement and the reference's are one function on real data.

  Layer normalisation of a row of reals is a row of reals: the mean is a real, the variance a nonnegative real (a sum
  of squares over 128), its sum with the positive epsilon a positive real, whose inverse root is a real. So the
  projections Q, K, V, the pair bias and, with a real mask, the scores are reals. On reals the score's two
  spellings agree (`score_law`), the reference's max(-inf, ·) does nothing, every weight exp(s - max) is a positive
  real, their total is a positive real, and mixing then dividing is dividing then mixing (`mix_law`). The gate's two
  spellings are one expression by definition, and the output projection is applied to equal terms: the gate and
  output weights may be any extended reals.
-/
import proofs.«148970_j49744311222640_2_alg».proof.Proof.Reals

noncomputable section

open scoped BigOperators

namespace Cert.Attn

open Idealize.ShloMosaic Cert.LibBatchNorm

/-! ## The layer norm of a real row -/

theorem isReal_lnRow (r lw lb : Fin 128 → EReal) (hr : ∀ k, IsReal (r k)) (hw : ∀ k, IsReal (lw k)) (hb : ∀ k, IsReal (lb k))
    (d : Fin 128) : IsReal (lnRow r lw lb d) := by
  have hmean : IsReal (rowMean r) := by
    unfold rowMean; rw [c128_eq]; exact isReal_div_real (isReal_sum _ _ hr) (by norm_num)
  obtain ⟨μ, hμ⟩ := hmean
  choose rr hrr using hr
  have hvar : ∃ v : ℝ, 0 ≤ v ∧ rowVar r = (v : EReal) := by
    refine ⟨(∑ k, (rr k - μ) * (rr k - μ)) / 128, div_nonneg (Finset.sum_nonneg fun k _ => mul_self_nonneg _) (by norm_num), ?_⟩
    unfold rowVar
    rw [c128_eq, hμ]
    simp only [hrr, ← EReal.coe_sub, ← EReal.coe_mul, ← coe_sum]
    exact div_real _ (by norm_num)
  obtain ⟨v, hv0, hv⟩ := hvar
  have hpos : (0 : ℝ) < v + 10995116 * (2 : ℝ) ^ (-40 : ℤ) := add_pos_of_nonneg_of_pos hv0 (by positivity)
  unfold lnRow
  rw [hv, cEps_eq, ← EReal.coe_add, rsqrt_coe_pos hpos, hμ, hrr d]
  exact isReal_add (isReal_mul (isReal_mul (isReal_sub ⟨_, rfl⟩ ⟨_, rfl⟩) ⟨_, rfl⟩) (hw d)) (hb d)

/-! ## One batch row -/

section Row

variable (xr : Fin 256 → Fin 128 → EReal) (Wq Wk Wv : Fin 128 → Fin 128 → EReal)
  (bias : Fin 4 → Fin 256 → Fin 256 → EReal) (mask : Fin 256 → Fin 256 → EReal)

theorem isReal_proj (W : Fin 128 → Fin 128 → EReal) (hxr : ∀ q d, IsReal (xr q d)) (hW : ∀ e d, IsReal (W e d))
    (q : Fin 256) (e : Fin 128) : IsReal (proj xr W q e) :=
  isReal_sum _ _ fun d => isReal_mul (hxr q d) (hW e d)

variable (hxr : ∀ q d, IsReal (xr q d)) (hq : ∀ e d, IsReal (Wq e d)) (hk : ∀ e d, IsReal (Wk e d))
  (hv : ∀ e d, IsReal (Wv e d)) (hb : ∀ h q k, IsReal (bias h q k)) (hm : ∀ q k, IsReal (mask q k))

include hxr hq hk hb hm in
/-- The two spellings of the score agree on reals. -/
theorem scoreK_eq_scoreR (h : Fin 4) (q k : Fin 256) :
    scoreK xr Wq Wk (fun h q k => bias h q k + mask q k) h q k = scoreR xr Wq Wk bias mask h q k := by
  unfold scoreK scoreR
  choose a ha using fun d : Fin 32 => isReal_proj xr Wq hxr hq q (hd h d)
  choose b hb' using fun d : Fin 32 => isReal_proj xr Wk hxr hk k (hd h d)
  obtain ⟨β, hβ⟩ := hb h q k
  obtain ⟨μ, hμ⟩ := hm q k
  simp only [ha, hb', hβ, hμ, cScale_eq]
  exact score_law a b _ β μ

include hxr hq hk hb hm in
theorem isReal_scoreR (h : Fin 4) (q k : Fin 256) : IsReal (scoreR xr Wq Wk bias mask h q k) :=
  isReal_add (isReal_add (isReal_mul (isReal_sum _ _ fun d =>
    isReal_mul (isReal_proj xr Wq hxr hq q (hd h d)) (isReal_proj xr Wk hxr hk k (hd h d))) ⟨_, cScale_eq⟩) (hb h q k)) (hm q k)

/-- The reference's max(-inf, row maximum) is the row maximum. -/
theorem maxR_eq (s : Fin 256 → EReal) : maxR s = rowMax s := by
  unfold maxR; rw [cNegInf_eq]; exact max_eq_right bot_le

/-- Mixing the unnormalised weights and dividing once, against dividing each weight and mixing: equal when the scores
    and the mixed values are reals. -/
theorem softmax_mix (s V : Fin 256 → EReal) (hs : ∀ k, IsReal (s k)) (hV : ∀ k, IsReal (V k)) :
    Ideal.div (∑ k, Ideal.exp (s k - rowMax s) * V k) (∑ k, Ideal.exp (s k - rowMax s))
      = ∑ k, Ideal.div (Ideal.exp (s k - rowMax s)) (∑ k', Ideal.exp (s k' - rowMax s)) * V k := by
  obtain ⟨M, hM⟩ := isReal_rowMax s hs
  choose sr hsr using hs
  choose v hv' using hV
  have hp : ∀ k, Ideal.exp (s k - rowMax s) = ((Real.exp (sr k - M) : ℝ) : EReal) := fun k => by
    rw [hsr k, hM, ← EReal.coe_sub]; rfl
  have hL : (∑ k, Real.exp (sr k - M)) ≠ 0 :=
    (Finset.sum_pos (fun k _ => Real.exp_pos _) Finset.univ_nonempty).ne'
  simp only [hp, hv']
  rw [← coe_sum Finset.univ fun k => Real.exp (sr k - M)]
  exact mix_law _ v _ hL

include hxr hq hk hv hb hm in
theorem headK_eq_headR (h : Fin 4) (q : Fin 256) (d : Fin 32) :
    headK xr Wq Wk Wv (fun h q k => bias h q k + mask q k) h q d = headR xr Wq Wk Wv bias mask h q d := by
  have hs : scoreK xr Wq Wk (fun h q k => bias h q k + mask q k) h q = scoreR xr Wq Wk bias mask h q :=
    funext (scoreK_eq_scoreR xr Wq Wk bias mask hxr hq hk hb hm h q)
  unfold headK headR
  rw [hs, maxR_eq]
  exact softmax_mix _ _ (isReal_scoreR xr Wq Wk bias mask hxr hq hk hb hm h q)
    (fun k => isReal_proj xr Wv hxr hv k (hd h d))

include hxr hq hk hv hb hm in
theorem attnK_eq_attnR (Wg Wo : Fin 128 → Fin 128 → EReal) (q : Fin 256) (f : Fin 128) :
    attnK xr Wq Wk Wv Wg Wo (fun h q k => bias h q k + mask q k) q f = attnR xr Wq Wk Wv Wg Wo bias mask q f := by
  unfold attnK attnR
  refine Finset.sum_congr rfl fun e _ => ?_
  rw [headK_eq_headR xr Wq Wk Wv bias mask hxr hq hk hv hb hm, cOne_eq]
  rfl

end Row

/-! ## The whole function -/

theorem GK_eq_GR (x : Fin 256 → Fin 256 → Fin 128 → EReal) (mask : Fin 256 → Fin 256 → EReal) (lw lb : Fin 128 → EReal)
    (Wb : Fin 4 → Fin 128 → EReal) (Wq Wk Wv Wg Wo : Fin 128 → Fin 128 → EReal)
    (hx : ∀ b q d, IsReal (x b q d)) (hmask : ∀ q k, IsReal (mask q k)) (hlw : ∀ d, IsReal (lw d)) (hlb : ∀ d, IsReal (lb d))
    (hWb : ∀ h d, IsReal (Wb h d)) (hWq : ∀ e d, IsReal (Wq e d)) (hWk : ∀ e d, IsReal (Wk e d)) (hWv : ∀ e d, IsReal (Wv e d))
    (b q : Fin 256) (f : Fin 128) :
    GK x mask lw lb Wb Wq Wk Wv Wg Wo b q f = GR x mask lw lb Wb Wq Wk Wv Wg Wo b q f := by
  have hxn : ∀ b' q' d, IsReal (lnRow (x b' q') lw lb d) := fun b' q' d => isReal_lnRow _ _ _ (hx b' q') hlw hlb d
  unfold GK GR
  exact attnK_eq_attnR (fun q' d => lnRow (x b q') lw lb d) Wq Wk Wv
    (pairBias (fun b' q'' d => lnRow (x b' q'') lw lb d) Wb) mask
    (fun q' d => hxn b q' d) hWq hWk hWv
    (fun h q' k => isReal_sum _ _ fun d => isReal_mul (hWb h d) (hxn q' k d)) hmask Wg Wo q f

end Cert.Attn

end
-- ==== Proof.PreReal.lean ====
/-
  What the precondition says: every entry of every argument array is a real number.

  The printed predicate is the conjunction, argument by argument, of "all entries satisfy |x| < +inf": an absolute
  value max x (-x), a comparison with the word for +inf, a reduction by "and" from 1 over all axes, and the ten results
  joined by "and". If the whole is 1 then each reduction is 1, so each comparison is 1 at every index, so max x (-x) is
  below +inf there, and an extended real whose absolute value is below +inf is a real number.
-/
import Idealize.ShloMosaic.Lib.ReduceAll
import Idealize.ShloMosaic.Lib.ValueIdx
import proofs.«148970_j49744311222640_2_alg».proof.Pre_finite_inputs
import proofs.«148970_j49744311222640_2_alg».proof.Proof.LibBatchNorm

noncomputable section

namespace Cert.Attn

open Idealize.ShloMosaic Idealize.ShloMosaic.ValueIdx Cert.LibBatchNorm Cert.Pre_finite_inputs

instance : Subsingleton S_.Idx := ⟨fun a b => funext fun d => d.elim0⟩

/-- The word 0x7F800000 (exponent all ones, fraction zero, sign clear) is plus infinity. -/
theorem inf_word : Ideal.ofBits .f32 0x7F800000#32 = (⊤ : EReal) := by
  simp [Ideal.ofBits, Ideal.ieee]

/-- One entry: |x| compared below +inf came out 1, so x is a real. -/
theorem isReal_of_cmp {x : EReal} (h : Ideal.cmp .olt (max x (-x)) (Ideal.ofBits .f32 0x7F800000#32) = 1#1) : IsReal x := by
  rw [inf_word] at h
  refine isReal_of_abs_lt_top ?_
  by_contra hlt
  simp [Ideal.cmp, hlt] at h

/-- One argument: its "all |x| < +inf" came out 1, so every entry is a real. -/
theorem isReal_of_all {s : Shape} {axes : List (Fin s.rank)} (x y : FVec Ideal s .f32)
    (hy : ∀ i, y i = Ideal.ofBits .f32 0x7F800000#32) (h : s.ReducesTo axes S_) (hu : 0 < S_.numel)
    (e : Host.reduce IntOp.andi (cmpf .olt (Host.absf x) y) (constantI S_ 1 1#1) h hu ix0 = 1#1) (i : s.Idx) : IsReal (x i) := by
  have hi := Host.reduce_andi_all (cmpf .olt (Host.absf x) y) (constantI S_ 1 1#1) h hu ix0 e i
  refine isReal_of_cmp ?_
  rw [← hy i]
  exact hi

/-- The "and" of two one-bit scalars is 1 exactly when both are. -/
theorem andi_ix0 (a b : IVec S_ 1) : andi a b ix0 = 1#1 ↔ a ix0 = 1#1 ∧ b ix0 = 1#1 := IntOp.andi_eq_one

/-- If the printed predicate holds of ten arrays, every entry of each is a real number. -/
theorem real_of_pre [Cert.Pre_finite_inputs.Facts] (a0 : FVec Ideal S1x256x256x128 .f32) (a1 : FVec Ideal S1x1x256x256 .f32)
    (a2 a3 : FVec Ideal S128 .f32) (a4 : FVec Ideal S4x128 .f32) (a5 a6 a7 a8 a9 : FVec Ideal S128x128 .f32)
    (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i)) := by
  have h0 := congrFun h ix0
  dsimp only [fn, fn_part1, fn_part2] at h0
  simp only [andi_ix0] at h0
  obtain ⟨⟨⟨⟨⟨⟨⟨⟨⟨e0, e1⟩, e2⟩, e3⟩, e4⟩, e5⟩, e6⟩, e7⟩, e8⟩, e9⟩ := h0
  exact ⟨isReal_of_all a0 _ (fun _ => rfl) _ _ e0, isReal_of_all a1 _ (fun _ => rfl) _ _ e1,
    isReal_of_all a2 _ (fun _ => rfl) _ _ e2, isReal_of_all a3 _ (fun _ => rfl) _ _ e3,
    isReal_of_all a4 _ (fun _ => rfl) _ _ e4, isReal_of_all a5 _ (fun _ => rfl) _ _ e5,
    isReal_of_all a6 _ (fun _ => rfl) _ _ e6, isReal_of_all a7 _ (fun _ => rfl) _ _ e7,
    isReal_of_all a8 _ (fun _ => rfl) _ _ e8, isReal_of_all a9 _ (fun _ => rfl) _ _ e9⟩

end Cert.Attn

end
-- ==== Proof.Claims.lean ====
/-
  The five claims.

  The three frames: the two kernel programs' by the frame proved for any float instance over the two regions' proof
  data; the reference's by its run with the result dropped. The idealization rewrote nothing, so what it preserves is
  trivial. The value claim: at the ideal instance the kernel program ends with its result array at the kernel's
  arrangement `GK` of the argument arrays, entry by entry, and the reference with its result at the reference's
  arrangement `GR` of arguments that agree with the kernel's; under the precondition every entry of every argument
  is a real number, and on real data `GK` and `GR` are one function.
-/
import proofs.«148970_j49744311222640_2_alg».proof.Defs
import proofs.«148970_j49744311222640_2_alg».proof.Proof.Gen.Kernel
import proofs.«148970_j49744311222640_2_alg».proof.Proof.Gen.KernelIdeal
import proofs.«148970_j49744311222640_2_alg».proof.Proof.Gen.ReferenceIdeal
import proofs.«148970_j49744311222640_2_alg».proof.Proof.Gen.Pre_finite_inputs
import proofs.«148970_j49744311222640_2_alg».proof.Proof.KFrameRun
import proofs.«148970_j49744311222640_2_alg».proof.Proof.KFrameBitsRun
import proofs.«148970_j49744311222640_2_alg».proof.Proof.RefValue
import proofs.«148970_j49744311222640_2_alg».proof.Proof.KernelValue
import proofs.«148970_j49744311222640_2_alg».proof.Proof.Cover0
import proofs.«148970_j49744311222640_2_alg».proof.Proof.AttnBlock
import proofs.«148970_j49744311222640_2_alg».proof.Proof.Law
import proofs.«148970_j49744311222640_2_alg».proof.Proof.PreReal

noncomputable section

namespace Cert.Proof.Claims

open Idealize.ShloMosaic Idealize.ShloMosaic.TcCoe Idealize.ShloMosaic.ValueIdx Idealize.SL.Sem

theorem frame_k : Cert.frame_Kernel := fun m ρ _ => Cert.Attn.KB.frame m ρ

theorem frame_ki : Cert.frame_KernelIdeal := fun m ρ _ => Cert.Attn.KI.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two results agree entry by entry. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v66 (F := Ideal) m' c = Cert.Attn.KI.resultArr (F := Ideal) m c := by
  obtain ⟨r0, r1, r2, r3, r4, r5, r6, r7, -, -⟩ := Cert.Attn.real_of_pre _ _ _ _ _ _ _ _ _ _ (hpre c)
  funext i
  obtain ⟨a, b, q, f, rfl⟩ : ∃ (a : Fin 1) (b q : Fin 256) (f : Fin 128), i = ix4 a b q f := ⟨i 0, i 1, i 2, i 3, eq_ix4 i⟩
  obtain rfl : a = 0 := Subsingleton.elim _ _
  rw [Cert.Attn.Ref.ref_value m' c b q f,
    Cert.Attn.KI.kernel_value m Cert.Attn.K1.attn_block c b q f,
    h0, h1, h2, h3, h4, h5, h6, h7, h8, h9]
  exact (Cert.Attn.GK_eq_GR _ _ _ _ _ _ _ _ _ _ (fun b q d => r0 _) (fun q k => r1 _) (fun d => r2 _) (fun d => r3 _)
    (fun h d => r4 _) (fun e d => r5 _) (fun e d => r6 _) (fun e d => r7 _) b q f).symm

theorem algebraic : Cert.algebraic_KernelIdeal_ReferenceIdeal := by
  intro m ρ m' ρ' hpre hagree
  refine ⟨fun c => Cert.Attn.KI.resultArr (F := Ideal) m c, Cert.Attn.KI.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  exact result_eq m m' hpre c h0 h1 h2 h3 h4 h5 h6 h7 h8 h9

end Cert.Proof.Claims

end
-- ==== Proof.lean ====
/-
  Gated multi-head attention over a pair representation, with a layer norm in front and a pair bias: a two-kernel
  program against a plain array program.

  The kernel program normalises the rows of x and forms the pair bias (with the additive mask folded in) in a first
  kernel, then, in a second kernel over blocks of 8 batch rows, projects the normalised rows through four stacked
  weight matrices at once, runs four heads of attention with the score scale applied to the queries and the softmax
  normalisation applied after the mix with the values, gates the heads and projects them. The reference computes the
  same quantities array by array: scale after the query-key product, bias then mask added, a softmax that divides every
  weight, the gate spelt 1 / (1 + exp(-g)). Read on the extended reals the two are different arrangements of one
  function; they agree where the arithmetic is real arithmetic, which the precondition (every entry of every argument
  finite) gives: the layer norm of real rows is real, so are the projections and the scores, every softmax weight is a
  positive real and so is their total.

  The pieces: the specification in both arrangements (Spec); the law that joins them on real data (Reals, Law); the
  precondition read back (PreReal); the kernels' stored blocks read at an index (LnBlock, AttnBlock) and laid into whole
  arrays (Cover0, Cover1); the host re-layouts (HostGlue); the kernel program's result (KernelValue); the reference's
  result (RefValue); the frames of the two kernel programs, one argument for any float instance (KFrame, KFrameBits);
  the claims (Claims).
-/
import proofs.«148970_j49744311222640_2_alg».proof.Proof.Claims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
